-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_scale" .f32 0x3D3504F3#32 ((524288 / 11863283 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x2048x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x2048x512 : Shape := ⟨3, ![8, 2048, 512]⟩
abbrev S512x512 : Shape := ⟨2, ![512, 512]⟩
abbrev S512 : Shape := ⟨1, ![512]⟩
abbrev S1x2048x512 : Shape := ⟨3, ![1, 2048, 512]⟩
abbrev S2048x512 : Shape := ⟨2, ![2048, 512]⟩
abbrev S1x512 : Shape := ⟨2, ![1, 512]⟩
abbrev S256x512 : Shape := ⟨2, ![256, 512]⟩
abbrev S2048x256 : Shape := ⟨2, ![2048, 256]⟩
abbrev S2048x1 : Shape := ⟨2, ![2048, 1]⟩
abbrev S1x256 : Shape := ⟨2, ![1, 256]⟩
abbrev S256 : Shape := ⟨1, ![256]⟩
abbrev S256x1 : Shape := ⟨2, ![256, 1]⟩
abbrev S8x2048x1024 : Shape := ⟨3, ![8, 2048, 1024]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x2048x512, .bf16⟩
  | .hbm, ⟨8, _⟩ => ⟨S512x512, .bf16⟩
  | .hbm, ⟨9, _⟩ => ⟨S512x512, .bf16⟩
  | .hbm, ⟨10, _⟩ => ⟨S512x512, .bf16⟩
  | .hbm, ⟨11, _⟩ => ⟨S8x2048x512, .bf16⟩
  | .hbm, ⟨12, _⟩ => ⟨S8x2048x512, .f32⟩
  | .hbm, ⟨13, _⟩ => ⟨S8x2048x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S512x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S1x2048x512, .bf16⟩
  | .local _ .vmem, ⟨9, _⟩ => ⟨S1x2048x512, .bf16⟩
  | .local _ .vmem, ⟨10, _⟩ => ⟨S2048x512, .bf16⟩
  | .local _ .vmem, ⟨11, _⟩ => ⟨S2048x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v7 : Index := Scalar.indexCast v4
  let c0 : Index := 0#32
  ![v7.toNat, 0]
def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_24 : BitVec 32 := 0#32
  let v57 : BitVec 1 := Scalar.cmpi .ne v56 c0_i32_24
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  squeezes_S1x2048x512_S2048x512 : S1x2048x512.Squeezes S2048x512
  h_S256x512 : 0 < S256x512.numel
  shapeCasts_S256x512_S256x512 : S256x512.ShapeCasts S256x512
  broadcasts_S1x512_S256x512 : S1x512.Broadcasts S256x512
  iota_S2048x1_d0_w32 : S2048x1.Iotas .tc 32 [0]
  iota_S1x256_d1_w32 : S1x256.Iotas .tc 32 [1]
  broadcasts_S1x256_S2048x256 : S1x256.Broadcasts S2048x256
  broadcasts_S2048x1_S2048x256 : S2048x1.Broadcasts S2048x256
  reduces_S2048x256_S256 : S2048x256.Reduces [0] S256
  shapeCasts_S256_S1x256 : S256.ShapeCasts S1x256
  shapeCasts_S256_S256x1 : S256.ShapeCasts S256x1
  broadcasts_S256x1_S256x512 : S256x1.Broadcasts S256x512
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  concatenates_S8x2048x512_S8x2048x512_S8x2048x1024_d2 : Shape.Concatenates [S8x2048x512, S8x2048x512] S8x2048x1024 2
  dot_S2048x512_S512x512_S2048x512_1_1_0_0_n_n_wf : DotDims.WF S2048x512 S512x512 S2048x512 [1] [1] [0] [0] [] []
  dot_S256x512_S512x512_S256x512_1_1_0_0_n_n_wf : DotDims.WF S256x512 S512x512 S256x512 [1] [1] [0] [0] [] []
  dot_S2048x512_S256x512_S2048x256_1_1_0_0_n_n_wf : DotDims.WF S2048x512 S256x512 S2048x256 [1] [1] [0] [0] [] []
  dot_S2048x256_S256x512_S2048x512_1_0_0_1_n_n_wf : DotDims.WF S2048x256 S256x512 S2048x512 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x512.size a ≤ S2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .bf16 = 32 ∨ (Rect.block (s := S8x2048x512) S1x2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x512.size a ≤ S8x2048x512.size a
  hwx0_7 : ∀ i : grid0.Coords, EltTy.bits .bf16 = 32 ∨ (Rect.block (s := S8x2048x512) S1x2048x512.size (cc0_transform_7 i) (hinb0_7 i)).WholeWords (EltTy.packing .bf16)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S1x1x512 : Shape := ⟨3, ![1, 1, 512]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩
abbrev S8x2048x1024 : Shape := ⟨3, ![8, 2048, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x2048x512, .f32⟩
  | .hbm, ⟨8, _⟩ => ⟨S1x1x512, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S1x1x512, .f32⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S1x1x512, .f32⟩
  | .hbm, ⟨17, _⟩ => ⟨S8x2048x512, .f32⟩
  | .hbm, ⟨18, _⟩ => ⟨S8x2048x512, .f32⟩
  | .hbm, ⟨19, _⟩ => ⟨S8x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S1x2048x2048, .i1⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x1x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x1x2048, .f32⟩
  | .hbm, ⟨52, _⟩ => ⟨S8x2048x2048, .f32⟩
  | .hbm, ⟨53, _⟩ => ⟨S8x2048x2048, .f32⟩
  | .hbm, ⟨54, _⟩ => ⟨S8x2048x512, .f32⟩
  | .hbm, ⟨55, _⟩ => ⟨S8x2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  concatenates_S8x2048x512_S8x2048x512_S8x2048x1024_d2 : Shape.Concatenates [S8x2048x512, S8x2048x512] S8x2048x1024 2
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.KB.Shared.lean ====
/-
  What the three runs of the attention kernel's body share: the two branch conditions of the body as
  propositions over the grid point and their closed forms (the key-tile coordinate is the point's
  number mod 8: the first tile resets the query cache and the accumulator, the last tile writes the
  output block), where the output window is idle, the names of the staging and scratch memrefs at a
  point, and the region invariant spelt over the two scratch buffers.
-/
import proofs.«181125_j22428319220703_1_alg».proof.Proof.Gen.Kernel.Frame
import proofs.«181125_j22428319220703_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The body's first conditional: the key-tile coordinate is 0. -/
abbrev cond0_0 (i : grid0.Coords) : Prop := (Scalar.cmpi .ne (Scalar.extui (Scalar.cmpi .eq (BitVec.ofNat 32 (i 1).val) 0#32)) 0#32) = 1#1
/-- It holds exactly at the points whose number is 0 mod 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second conditional: the key-tile coordinate is 7, the last. -/
abbrev cond0_1 (i : grid0.Coords) : Prop := k0_cond2 i = 1#1
/-- It holds exactly at the points whose number is 7 mod 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last key tile the output window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last key tile it is live. -/
theorem liveAt0_7 : ∀ t : Fin cfg0.N, cond0_1 (grid0.coords t) → cfg0.idle 7 (grid0.coords t) = false := by decide +kernel

/-! ## The memrefs at a point -/

/-- One staging buffer of the output window, through which its contents are stated. -/
abbrev VO0_7 : View sig .tc .vmem S1x2048x512 .bf16 := (Memref.whole cc0_stg7_0 : Memref sig .tc .vmem S1x2048x512 .bf16).view
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x512 .bf16 := win0_7.stage (cfg0.slots t 7)
abbrev hs0_7 (t : Fin cfg0.N) : (ms0_7 t).IsWhole := hstage0_7 ((cfg0.slots t 7).cast nbuf0_7)
/-- The query cache and the accumulator: whole scoped buffers of the kernel's own. -/
abbrev scM0_0 : Memref sig .tc .vmem S2048x512 .bf16 := Memref.whole cc0_scratch0
abbrev scM0_1 : Memref sig .tc .vmem S2048x512 .f32 := Memref.whole cc0_scratch1
abbrev VS0_0 : View sig .tc .vmem S2048x512 .bf16 := scM0_0.view
abbrev VS0_1 : View sig .tc .vmem S2048x512 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KB.RunB.lean ====
import proofs.«181125_j22428319220703_1_alg».proof.Proof.KB.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- A MIDDLE key tile (neither the first nor the last): on whole staging memrefs holding the input
    blocks, the output's buffer at anything handed back untouched, the query cache at what the first
    tile left and the accumulator at what the tile before left, the body runs and leaves the inputs and
    the query cache as they were and the accumulator with one piece written: the old accumulator plus
    this tile's contribution. The piece is the witness the run finds. -/
noncomputable def kernelRun0_B (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) :
    { LS1 : List (View.Piece (Elt F) S2048x512 .f32) //
      ∀ (xi7 : Vec F S1x2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K } := by
  refine ⟨?_, fun xi7 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexists _; iexact HS1

end Cert.Kernel.Body

end
-- ==== Proof.KB.RunA.lean ====
import proofs.«181125_j22428319220703_1_alg».proof.Proof.KB.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- THE FIRST key tile of a batch row: on whole staging memrefs holding the input blocks, the
    output's buffer at anything handed back untouched, the two scratch buffers at anything, the body
    runs and leaves the inputs as they were, the query cache with one piece written (the projected
    queries of the whole row) and the accumulator with its pieces written (zero, then this tile's
    contribution over it). The pieces are the witness the run finds. -/
noncomputable def kernelRun0_A (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) :
    Σ' (LS0 : List (View.Piece (Elt F) S2048x512 .bf16)), { LS1 : List (View.Piece (Elt F) S2048x512 .f32) //
      ∀ (xi7 : Vec F S1x2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Body

end
-- ==== Proof.KB.RunC.lean ====
import proofs.«181125_j22428319220703_1_alg».proof.Proof.KB.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- THE LAST key tile of a batch row: on whole staging memrefs holding the input blocks, the
    output's buffer at anything, the query cache at what the first tile left and the accumulator at
    what the tile before left, the body runs and leaves the inputs and the query cache as they were, the
    accumulator with one piece written (the old accumulator plus this tile's contribution) and the
    output's buffer with one piece written (that sum, narrowed). The pieces are the witness the run finds. -/
noncomputable def kernelRun0_C (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) :
    Σ' (L7 : List (View.Piece (Elt F) S1x2048x512 .bf16)), { LS1 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _; iexact HS1

end Cert.Kernel.Body

end
-- ==== Proof.KB.Body.lean ====
/-
  The frame of the attention kernel: what the two scratch buffers (the query cache and the
  accumulator) and the output's staging buffer hold after every grid point, by recursion on the point
  (a batch row's first key tile fills the cache and starts the accumulator from zero, every later tile
  adds its contribution, the last tile also writes the narrowed accumulator into the output block);
  the pipeline's proof data over that; the body's obligation at a generic point, by the point's case;
  the run of the whole program; and the frame claim: every argument array ends as it was launched.
-/
import proofs.«181125_j22428319220703_1_alg».proof.Proof.KB.RunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: the pieces cover the buffers, and are read back -/

theorem scover0_A_0 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (y : S2048x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S2048x512.size (by sl_kernel_rfl) y

/-- The query cache after a first tile: the projected queries of the row. -/
def sout0_A_0 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) : Vec F S2048x512 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem scover0_A_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (y : S2048x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.1 S2048x512.size (by sl_kernel_rfl) y

/-- The accumulator after a first tile. -/
def sout0_A_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) : Vec F S2048x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

theorem scover0_B_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) (y : S2048x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0 xs1).1 S2048x512.size (by sl_kernel_rfl) y

/-- The accumulator after a middle tile. -/
def sout0_B_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) : Vec F S2048x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0 xs1).1)

theorem cover0_C_7 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) (y : S1x2048x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).1 S1x2048x512.size (by sl_kernel_rfl) y

/-- The output's staging buffer after a last tile. -/
def out0_C_7 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) : Vec F S1x2048x512 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).1)

theorem scover0_C_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) (y : S2048x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 S2048x512.size (by sl_kernel_rfl) y

/-- The accumulator after a last tile. -/
def sout0_C_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) : Vec F S2048x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.1)

/-! ## What the buffers hold after each point -/

/-- After the body at position `n`: the output's staging buffer (a placeholder where the window is idle),
    the query cache, the accumulator. -/
def outsAt0 (c : Dev nD) : (n : ℕ) → n < cfg0.N → Vec F S1x2048x512 .bf16 × Vec F S2048x512 .bf16 × Vec F S2048x512 .f32
  | 0, hn => (VO0_7.read (Elt F) VO0_7.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      if h1 : (n + 1) % 8 = 7 then
        False.elim (by omega)
      else
        (VO0_7.read (Elt F) VO0_7.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, (outsAt0 c n (Nat.lt_of_succ_lt hn)).2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)
      else
        (VO0_7.read (Elt F) VO0_7.junk, (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (VO0_7.read (Elt F) VO0_7.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (VO0_7.read (Elt F) VO0_7.junk, (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both scratch buffers hold anything;
    afterwards they hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- a first tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [Dat.leavesExact_idle (dats m 0 c) 7 t (idleAt0_7 t (fun h => h1 ((hcond0_1 t).mp h))) (noFlush0_7 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun hz => h0 (by rw [hz])
    by_cases h1 : t.val % 8 = 7
    · -- a last tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t ((hcond0_1 t).mpr h1)], after0_7]
      rw [outsAt0_C m c t h0 h1]
      unfold out0_C_7 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _ _)
    · -- a middle tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [Dat.leavesExact_idle (dats m 0 c) 7 t (idleAt0_7 t (fun h => h1 ((hcond0_1 t).mp h))) (noFlush0_7 t (fun h => h1 ((hcond0_1 t).mp h)))]
      rw [outsAt0_B m c t h0 h1]
      unfold sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has every array of the
    pipeline at what the proof data computes and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.KI.Shared.lean ====
/-
  What the three runs of the attention kernel's body share: the two branch conditions of the body as
  propositions over the grid point and their closed forms (the key-tile coordinate is the point's
  number mod 8: the first tile resets the query cache and the accumulator, the last tile writes the
  output block), where the output window is idle, the names of the staging and scratch memrefs at a
  point, and the region invariant spelt over the two scratch buffers.
-/
import proofs.«181125_j22428319220703_1_alg».proof.Proof.Gen.KernelIdeal.Frame
import proofs.«181125_j22428319220703_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- The body's first conditional: the key-tile coordinate is 0. -/
abbrev cond0_0 (i : grid0.Coords) : Prop := (Scalar.cmpi .ne (Scalar.extui (Scalar.cmpi .eq (BitVec.ofNat 32 (i 1).val) 0#32)) 0#32) = 1#1
/-- It holds exactly at the points whose number is 0 mod 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second conditional: the key-tile coordinate is 7, the last. -/
abbrev cond0_1 (i : grid0.Coords) : Prop := k0_cond2 i = 1#1
/-- It holds exactly at the points whose number is 7 mod 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last key tile the output window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last key tile it is live. -/
theorem liveAt0_7 : ∀ t : Fin cfg0.N, cond0_1 (grid0.coords t) → cfg0.idle 7 (grid0.coords t) = false := by decide +kernel

/-! ## The memrefs at a point -/

/-- One staging buffer of the output window, through which its contents are stated. -/
abbrev VO0_7 : View sig .tc .vmem S1x2048x512 .bf16 := (Memref.whole cc0_stg7_0 : Memref sig .tc .vmem S1x2048x512 .bf16).view
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x512 .bf16 := win0_7.stage (cfg0.slots t 7)
abbrev hs0_7 (t : Fin cfg0.N) : (ms0_7 t).IsWhole := hstage0_7 ((cfg0.slots t 7).cast nbuf0_7)
/-- The query cache and the accumulator: whole scoped buffers of the kernel's own. -/
abbrev scM0_0 : Memref sig .tc .vmem S2048x512 .bf16 := Memref.whole cc0_scratch0
abbrev scM0_1 : Memref sig .tc .vmem S2048x512 .f32 := Memref.whole cc0_scratch1
abbrev VS0_0 : View sig .tc .vmem S2048x512 .bf16 := scM0_0.view
abbrev VS0_1 : View sig .tc .vmem S2048x512 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KI.RunB.lean ====
import proofs.«181125_j22428319220703_1_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- A MIDDLE key tile (neither the first nor the last): on whole staging memrefs holding the input
    blocks, the output's buffer at anything handed back untouched, the query cache at what the first
    tile left and the accumulator at what the tile before left, the body runs and leaves the inputs and
    the query cache as they were and the accumulator with one piece written: the old accumulator plus
    this tile's contribution. The piece is the witness the run finds. -/
noncomputable def kernelRun0_B (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) :
    { LS1 : List (View.Piece (Elt F) S2048x512 .f32) //
      ∀ (xi7 : Vec F S1x2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K } := by
  refine ⟨?_, fun xi7 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexists _; iexact HS1

end Cert.KernelIdeal.Body

end
-- ==== Proof.KI.RunA.lean ====
import proofs.«181125_j22428319220703_1_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- THE FIRST key tile of a batch row: on whole staging memrefs holding the input blocks, the
    output's buffer at anything handed back untouched, the two scratch buffers at anything, the body
    runs and leaves the inputs as they were, the query cache with one piece written (the projected
    queries of the whole row) and the accumulator with its pieces written (zero, then this tile's
    contribution over it). The pieces are the witness the run finds. -/
noncomputable def kernelRun0_A (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) :
    Σ' (LS0 : List (View.Piece (Elt F) S2048x512 .bf16)), { LS1 : List (View.Piece (Elt F) S2048x512 .f32) //
      ∀ (xi7 : Vec F S1x2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Body

end
-- ==== Proof.KI.RunC.lean ====
import proofs.«181125_j22428319220703_1_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- THE LAST key tile of a batch row: on whole staging memrefs holding the input blocks, the
    output's buffer at anything, the query cache at what the first tile left and the accumulator at
    what the tile before left, the body runs and leaves the inputs and the query cache as they were, the
    accumulator with one piece written (the old accumulator plus this tile's contribution) and the
    output's buffer with one piece written (that sum, narrowed). The pieces are the witness the run finds. -/
noncomputable def kernelRun0_C (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) :
    Σ' (L7 : List (View.Piece (Elt F) S1x2048x512 .bf16)), { LS1 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _; iexact HS1

end Cert.KernelIdeal.Body

end
-- ==== Proof.KI.Body.lean ====
/-
  The frame of the attention kernel: what the two scratch buffers (the query cache and the
  accumulator) and the output's staging buffer hold after every grid point, by recursion on the point
  (a batch row's first key tile fills the cache and starts the accumulator from zero, every later tile
  adds its contribution, the last tile also writes the narrowed accumulator into the output block);
  the pipeline's proof data over that; the body's obligation at a generic point, by the point's case;
  the run of the whole program; and the frame claim: every argument array ends as it was launched.
-/
import proofs.«181125_j22428319220703_1_alg».proof.Proof.KI.RunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves: the pieces cover the buffers, and are read back -/

theorem scover0_A_0 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (y : S2048x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S2048x512.size (by sl_kernel_rfl) y

/-- The query cache after a first tile: the projected queries of the row. -/
def sout0_A_0 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) : Vec F S2048x512 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem scover0_A_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (y : S2048x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.1 S2048x512.size (by sl_kernel_rfl) y

/-- The accumulator after a first tile. -/
def sout0_A_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) : Vec F S2048x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

theorem scover0_B_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) (y : S2048x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0 xs1).1 S2048x512.size (by sl_kernel_rfl) y

/-- The accumulator after a middle tile. -/
def sout0_B_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) : Vec F S2048x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0 xs1).1)

theorem cover0_C_7 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) (y : S1x2048x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).1 S1x2048x512.size (by sl_kernel_rfl) y

/-- The output's staging buffer after a last tile. -/
def out0_C_7 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) : Vec F S1x2048x512 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).1)

theorem scover0_C_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) (y : S2048x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 S2048x512.size (by sl_kernel_rfl) y

/-- The accumulator after a last tile. -/
def sout0_C_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) : Vec F S2048x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0 xs1).2.1)

/-! ## What the buffers hold after each point -/

/-- After the body at position `n`: the output's staging buffer (a placeholder where the window is idle),
    the query cache, the accumulator. -/
def outsAt0 (c : Dev nD) : (n : ℕ) → n < cfg0.N → Vec F S1x2048x512 .bf16 × Vec F S2048x512 .bf16 × Vec F S2048x512 .f32
  | 0, hn => (VO0_7.read (Elt F) VO0_7.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      if h1 : (n + 1) % 8 = 7 then
        False.elim (by omega)
      else
        (VO0_7.read (Elt F) VO0_7.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, (outsAt0 c n (Nat.lt_of_succ_lt hn)).2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)
      else
        (VO0_7.read (Elt F) VO0_7.junk, (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (VO0_7.read (Elt F) VO0_7.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (VO0_7.read (Elt F) VO0_7.junk, (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both scratch buffers hold anything;
    afterwards they hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- a first tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [Dat.leavesExact_idle (dats m 0 c) 7 t (idleAt0_7 t (fun h => h1 ((hcond0_1 t).mp h))) (noFlush0_7 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun hz => h0 (by rw [hz])
    by_cases h1 : t.val % 8 = 7
    · -- a last tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t ((hcond0_1 t).mpr h1)], after0_7]
      rw [outsAt0_C m c t h0 h1]
      unfold out0_C_7 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _ _)
    · -- a middle tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [Dat.leavesExact_idle (dats m 0 c) 7 t (idleAt0_7 t (fun h => h1 ((hcond0_1 t).mp h))) (noFlush0_7 t (fun h => h1 ((hcond0_1 t).mp h)))]
      rw [outsAt0_B m c t h0 h1]
      unfold sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has every array of the
    pipeline at what the proof data computes and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.KI.Value.lean ====
/-
  What the attention kernel's runs leave in the scratch buffers and the output block, as pure
  functions of the input blocks: the rows of the input block a key tile reads (`tileOf`), one key
  tile's step on the accumulator (`stepOf`: the old accumulator plus the tile's contribution), and, for
  each of the three kinds of grid point, the buffers' contents in those words.
-/
import proofs.«181125_j22428319220703_1_alg».proof.Proof.KI.Body
import Idealize.ShloMosaic.Lib.WholeRead
import Idealize.ShloMosaic.Lib.Pipeline.Value
import Idealize.ShloMosaic.Lib.ValueIdx
import Idealize.ShloMosaic.Lib.ValueLayout

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole rectangle of the input block, through which the body views it as a matrix. -/
abbrev wholeR : Rect S1x2048x512 := Rect.unit (s := S1x2048x512) ![0, 0, 0] S1x2048x512.size inb_S1x2048x512_S1x2048x512_0_0_0

/-- The 256 rows of the input block that the key tile of grid point `i` reads. -/
def tileOf (i : grid0.Coords) (x0 : Vec F S1x2048x512 .bf16) : Vec F S256x512 .bf16 := fun y =>
  x0 (wholeR.emb (Shape.reshapeEquiv squeezes_S1x2048x512_S2048x512.numel_eq
    ((Rect.unit (s := S2048x512) (k0_off1 i) S256x512.size (k0_off1_inb i)).toLoadRect.idx y)))

/-- The load through the matrix view of the whole input block, held at the block `x0`, reads those rows. -/
theorem tile_read (arg2 : Memref sig .tc .vmem S1x2048x512 .bf16) (harg2 : arg2.IsWhole) (i : grid0.Coords)
    (x0 : Vec F S1x2048x512 .bf16) (hs) :
    View.readAt (Elt F) ((arg2.slice wholeR hs).squeeze S2048x512 squeezes_S1x2048x512_S2048x512).view
      (Rect.unit (s := S2048x512) (k0_off1 i) S256x512.size (k0_off1_inb i)).toLoadRect (harg2.unread x0) = tileOf i x0 :=
  funext fun y => harg2.readAt_slice_reshape_unread x0 wholeR squeezes_S1x2048x512_S2048x512.numel_eq _ y

/-- A load of a whole buffer held at `x` reads `x`. -/
theorem whole_read {s : Shape} {e : EltTy} (a : Memref sig .tc .vmem s e) (h : a.IsWhole) (x : s.Idx → Elt F e)
    {off : Fin s.rank → ℕ} (hoff : off = fun _ => 0) (hin : ∀ b, off b + s.size b ≤ s.size b) :
    View.readAt (Elt F) a.view (Rect.unit (s := s) off s.size hin).toLoadRect (h.unread x) = x := by
  rw [View.readAt_eq_ld, h.read_unread, View.ld_unit_zero hoff]

/-- One key tile's step: the projected keys and values of the tile's rows, the scaled and masked scores
    against the cached queries, the softmax down the query axis, and the weighted values added to the
    accumulator. -/
def stepOf (i : grid0.Coords) (x0 : Vec F S1x2048x512 .bf16) (x3 : Vec F S512x512 .bf16) (x4 : Vec F S512 .f32)
    (x5 : Vec F S512x512 .bf16) (x6 : Vec F S512 .f32) (q : Vec F S2048x512 .bf16) (acc : Vec F S2048x512 .f32) :
    Vec F S2048x512 .f32 :=
  k0_pay1 (k0_pay6 (tileOf i x0) x5 x6) (k0_pay7 (tileOf i x0) x3 x4 q) (k0_pay8 i)
    (Named.named κ "neg_big" 0xFF333332#32) acc

theorem step_congr {T T' : Vec F S256x512 .bf16} {a3 a3' : Vec F S512x512 .bf16} {a4 a4' : Vec F S512 .f32}
    {a5 a5' : Vec F S512x512 .bf16} {a6 a6' : Vec F S512 .f32} {q q' : Vec F S2048x512 .bf16}
    {acc acc' : Vec F S2048x512 .f32} (i : grid0.Coords) (nb : F .f32)
    (hT : T = T') (h3 : a3 = a3') (h4 : a4 = a4') (h5 : a5 = a5') (h6 : a6 = a6') (hq : q = q') (hacc : acc = acc') :
    k0_pay1 (k0_pay6 T a5 a6) (k0_pay7 T a3 a4 q) (k0_pay8 i) nb acc
      = k0_pay1 (k0_pay6 T' a5' a6') (k0_pay7 T' a3' a4' q') (k0_pay8 i) nb acc' := by
  subst hT h3 h4 h5 h6 hq hacc; rfl

/-- A middle tile leaves the step of what it found. -/
theorem sout_B_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = stepOf i x0 x3 x4 x5 x6 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_run_names
  rw [View.canon_unit_zero hz2]
  exact step_congr i _ (tile_read arg2 harg2 i x0 _) (whole_read arg5 harg5 x3 hz2 _) (whole_read arg6 harg6 x4 hz1 _)
    (whole_read arg7 harg7 x5 hz2 _) (whole_read arg8 harg8 x6 hz1 _) (whole_read arg10 harg10 xs0 hz2 _)
    (whole_read arg11 harg11 xs1 hz2 _)

theorem pay3_congr {a0 a0' : Vec F S1x2048x512 .bf16} {a1 a1' : Vec F S512x512 .bf16} {a2 a2' : Vec F S512 .f32}
    (h0 : a0 = a0') (h1 : a1 = a1') (h2 : a2 = a2') : k0_pay3 a0 a1 a2 = k0_pay3 a0' a1' a2' := by
  subst h0 h1 h2; rfl

/-- A last tile leaves the step of what it found in the accumulator, -/
theorem sout_C_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = stepOf i x0 x3 x4 x5 x6 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_run_names
  rw [View.canon_unit_zero hz2]
  exact step_congr i _ (tile_read arg2 harg2 i x0 _) (whole_read arg5 harg5 x3 hz2 _) (whole_read arg6 harg6 x4 hz1 _)
    (whole_read arg7 harg7 x5 hz2 _) (whole_read arg8 harg8 x6 hz1 _) (whole_read arg10 harg10 xs0 hz2 _)
    (whole_read arg11 harg11 xs1 hz2 _)

/-- and that step, narrowed, in the output block. -/
theorem out_C_7 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : ¬cond0_0 i) (hc1 : cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) (xs0 : Vec F S2048x512 .bf16) (xs1 : Vec F S2048x512 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay2 (stepOf i x0 x3 x4 x5 x6 xs0 xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_run_names
  rw [View.canon_unit_zero hz3]
  refine congrArg k0_pay2 ((View.readCov_unit_zero _ hz2 _ _).trans ?_)
  exact step_congr i _ (tile_read arg2 harg2 i x0 _) (whole_read arg5 harg5 x3 hz2 _) (whole_read arg6 harg6 x4 hz1 _)
    (whole_read arg7 harg7 x5 hz2 _) (whole_read arg8 harg8 x6 hz1 _) (whole_read arg10 harg10 xs0 hz2 _)
    (whole_read arg11 harg11 xs1 hz2 _)

/-- A first tile leaves the projected queries in the cache, -/
theorem sout_A_0 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay3 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_run_names
  rw [View.canon_unit_zero hz2]
  exact pay3_congr (whole_read arg2 harg2 x0 hz3 _) (whole_read arg3 harg3 x1 hz2 _) (whole_read arg4 harg4 x2 hz1 _)

/-- and in the accumulator the step from zero, against those queries. -/
theorem sout_A_1 (c : Dev nD) (i : grid0.Coords) (arg2 : Memref sig .tc .vmem S1x2048x512 .bf16) (harg2 : arg2.IsWhole) (arg3 : Memref sig .tc .vmem S512x512 .bf16) (harg3 : arg3.IsWhole) (arg4 : Memref sig .tc .vmem S512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512x512 .bf16) (harg7 : arg7.IsWhole) (arg8 : Memref sig .tc .vmem S512 .f32) (harg8 : arg8.IsWhole) (arg9 : Memref sig .tc .vmem S1x2048x512 .bf16) (harg9 : arg9.IsWhole) (arg10 : Memref sig .tc .vmem S2048x512 .bf16) (harg10 : arg10.IsWhole) (arg11 : Memref sig .tc .vmem S2048x512 .f32) (harg11 : arg11.IsWhole) (hc0 : cond0_0 i) (hc1 : ¬cond0_1 i)
    (x0 : Vec F S1x2048x512 .bf16) (x1 : Vec F S512x512 .bf16) (x2 : Vec F S512 .f32) (x3 : Vec F S512x512 .bf16) (x4 : Vec F S512 .f32) (x5 : Vec F S512x512 .bf16) (x6 : Vec F S512 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = stepOf i x0 x3 x4 x5 x6 (k0_pay3 x0 x1 x2) k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_run_names
  rw [View.canon_cons_unit_zero hz2]
  exact step_congr i _ (tile_read arg2 harg2 i x0 _) (whole_read arg5 harg5 x3 hz2 _) (whole_read arg6 harg6 x4 hz1 _)
    (whole_read arg7 harg7 x5 hz2 _) (whole_read arg8 harg8 x6 hz1 _)
    ((View.readCov_unit_zero _ hz2 _ _).trans
      (pay3_congr (whole_read arg2 harg2 x0 hz3 _) (whole_read arg3 harg3 x1 hz2 _) (whole_read arg4 harg4 x2 hz1 _)))
    (View.readCov_unit_zero _ hz2 _ _)

/-- The tile's row `j` is the input block's row `256·kt + j`. -/
theorem tileOf_apply (i : grid0.Coords) (x0 : Vec F S1x2048x512 .bf16) (j : Fin 256) (cc : Fin 512)
    (hj : 256 * (i 1).val + j.val < 2048) :
    tileOf i x0 (ValueIdx.ix2 j cc) = x0 (ValueIdx.ix3 (0 : Fin 1) (⟨256 * (i 1).val + j.val, hj⟩ : Fin 2048) cc) := by
  unfold tileOf
  refine congrArg x0 ?_
  have e1 : (Rect.unit (s := S2048x512) (k0_off1 i) S256x512.size (k0_off1_inb i)).toLoadRect.idx (ValueIdx.ix2 j cc)
      = (ValueIdx.ix2 (⟨256 * (i 1).val + j.val, hj⟩ : Fin 2048) cc : S2048x512.Idx) := by
    funext a
    apply Fin.ext
    match a with
    | ⟨0, _⟩ =>
      show k0_off1 i 0 + 1 * j.val = 256 * (i 1).val + j.val
      rw [k0_off1_eq]; simp
    | ⟨1, _⟩ =>
      show k0_off1 i 1 + 1 * cc.val = cc.val
      rw [k0_off1_eq]; simp
  rw [e1, ValueIdx.reshapeEquiv_ix2_1ab]
  funext a
  apply Fin.ext
  match a with
  | ⟨0, _⟩ => rfl
  | ⟨1, _⟩ => show 0 + 1 * (256 * (i 1).val + j.val) = 256 * (i 1).val + j.val; omega
  | ⟨2, _⟩ => show 0 + 1 * cc.val = cc.val; omega

end Cert.KernelIdeal.Body

end
-- ==== Proof.Spec.lean ====
/-
  The mathematics both programs compute, written over coordinates on the extended reals.

  For a batch row `b`, queries, keys and values are affine projections of the input rows:
  `proj X W β b t d = Σ_c X b t c · W d c + β d`. A score is the dot product of a query row and a key
  row; the entry for query `q` and key `k` is masked to −∞ when `q < k`. The softmax runs down the
  QUERY axis for each key: `m k = max_q s q k`, `p q k = exp (s q k − m k)`, `l k = Σ_q p q k`.

  The two programs differ in three ways, and the two families of definitions below follow each program
  literally:
  * the tiled program multiplies the score by the constant `invScale` and then masks; the plain one
    masks and then divides by the constant `scaleLit`;
  * the tiled program divides the VALUE row by `l k` and then weights it by `p q k`; the plain one
    divides the WEIGHT `p q k` by `l k` and then multiplies the value row;
  * the tiled program adds the keys' contributions tile by tile (8 tiles of 256 keys) into an
    accumulator that starts at 0; the plain one sums over all 2048 keys at once.
  The result row is the input row followed by the attention row.
-/
import Mathlib
import Idealize.ShloMosaic.PureOps.Ideal
import Idealize.ShloMosaic.Lib.ValueIdx

noncomputable section

open scoped BigOperators

namespace Cert.Attn

open Idealize.ShloMosaic

abbrev Arr3 := Fin 8 → Fin 2048 → Fin 512 → EReal
abbrev Mat := Fin 512 → Fin 512 → EReal
abbrev Vec1 := Fin 512 → EReal

/-- An array of extents 8 × 2048 × 512 by its coordinates. -/
def arr3 (a : (⟨3, ![8, 2048, 512]⟩ : Shape).Idx → EReal) : Arr3 := fun b t c => a (ValueIdx.ix3 b t c)
/-- A 512 × 512 matrix by its coordinates. -/
def mat (a : (⟨2, ![512, 512]⟩ : Shape).Idx → EReal) : Mat := fun d c => a (ValueIdx.ix2 d c)
/-- A vector of 512 entries by its coordinate. -/
def vec1 (a : (⟨1, ![512]⟩ : Shape).Idx → EReal) : Vec1 := fun d => a (ValueIdx.ix1 d)

/-- Key row `j` of key tile `kt`: row `256·kt + j` of the 2048. -/
def tileRow (kt : Fin 8) (j : Fin 256) : Fin 2048 := ⟨256 * kt.val + j.val, by omega⟩

/-- An affine projection of the input rows: `Σ_c X b t c · W d c + β d`. -/
def proj (X : Arr3) (W : Mat) (β : Vec1) (b : Fin 8) (t : Fin 2048) (d : Fin 512) : EReal :=
  (∑ c : Fin 512, X b t c * W d c) + β d

/-- The dot product of query row `q` and key row `k` of batch row `b`. -/
def score (Q K : Arr3) (b : Fin 8) (q k : Fin 2048) : EReal := ∑ d : Fin 512, Q b q d * K b k d

/-- The tiled program's scale factor: the exact reciprocal of the plain program's divisor. -/
def invScale : EReal := ((524288 / 11863283 : ℝ) : EReal)
/-- The plain program's divisor, the binary32 word nearest √512. -/
def scaleLit : EReal := Ideal.ofBits .f32 0x41B504F3#32

section Programs

variable (X : Arr3) (Wq : Mat) (bq : Vec1) (Wk : Mat) (bk : Vec1) (Wv : Mat) (bv : Vec1)

/-! ## The tiled program -/

/-- Scaled, then masked. -/
def sK (b : Fin 8) (q k : Fin 2048) : EReal :=
  if q.val < k.val then ⊥ else score (proj X Wq bq) (proj X Wk bk) b q k * invScale
/-- The column maximum over the queries, folded from −∞. -/
def mK (b : Fin 8) (k : Fin 2048) : EReal :=
  (Finset.univ : Finset (Fin 2048)).fold max ⊥ (fun q => sK X Wq bq Wk bk b q k)
def pK (b : Fin 8) (q k : Fin 2048) : EReal := Ideal.exp (sK X Wq bq Wk bk b q k - mK X Wq bq Wk bk b k)
def lK (b : Fin 8) (k : Fin 2048) : EReal := ∑ q : Fin 2048, pK X Wq bq Wk bk b q k
/-- One key tile's contribution to the attention row: the value rows divided by their column sums,
    weighted. -/
def contribK (b : Fin 8) (kt : Fin 8) (q : Fin 2048) (d : Fin 512) : EReal :=
  ∑ j : Fin 256, pK X Wq bq Wk bk b q (tileRow kt j)
    * Ideal.div (proj X Wv bv b (tileRow kt j) d) (lK X Wq bq Wk bk b (tileRow kt j))
/-- The accumulator after the first `n` key tiles. -/
def accK (b : Fin 8) (n : ℕ) (q : Fin 2048) (d : Fin 512) : EReal :=
  ∑ kt ∈ (Finset.univ : Finset (Fin 8)).filter (fun kt => kt.val < n), contribK X Wq bq Wk bk Wv bv b kt q d
/-- The tiled program's result. -/
def KOut (b : Fin 8) (q : Fin 2048) (j : Fin 1024) : EReal :=
  if h : j.val < 512 then X b q ⟨j.val, h⟩ else accK X Wq bq Wk bk Wv bv b 8 q ⟨j.val - 512, by omega⟩

/-! ## The plain program -/

/-- Masked, then divided. -/
def sR (b : Fin 8) (q k : Fin 2048) : EReal :=
  Ideal.div (if q.val < k.val then ⊥ else score (proj X Wq bq) (proj X Wk bk) b q k) scaleLit
def mR (b : Fin 8) (k : Fin 2048) : EReal :=
  max ⊥ ((Finset.univ : Finset (Fin 2048)).fold max ⊥ (fun q => sR X Wq bq Wk bk b q k))
def pR (b : Fin 8) (q k : Fin 2048) : EReal := Ideal.exp (sR X Wq bq Wk bk b q k - mR X Wq bq Wk bk b k)
def lR (b : Fin 8) (k : Fin 2048) : EReal := 0 + ∑ q : Fin 2048, pR X Wq bq Wk bk b q k
def outR (b : Fin 8) (q : Fin 2048) (d : Fin 512) : EReal :=
  ∑ k : Fin 2048, Ideal.div (pR X Wq bq Wk bk b q k) (lR X Wq bq Wk bk b k) * proj X Wv bv b k d
/-- The plain program's result. -/
def ROut (b : Fin 8) (q : Fin 2048) (j : Fin 1024) : EReal :=
  if h : j.val < 512 then X b q ⟨j.val, h⟩ else outR X Wq bq Wk bk Wv bv b q ⟨j.val - 512, by omega⟩

/-! ## The accumulator, tile by tile -/

theorem accK_zero (b : Fin 8) (q : Fin 2048) (d : Fin 512) : accK X Wq bq Wk bk Wv bv b 0 q d = 0 := by
  unfold accK
  rw [Finset.filter_false_of_mem (fun kt _ => Nat.not_lt_zero _)]
  exact Finset.sum_empty

theorem accK_succ (b : Fin 8) (kt : Fin 8) (q : Fin 2048) (d : Fin 512) :
    accK X Wq bq Wk bk Wv bv b (kt.val + 1) q d
      = accK X Wq bq Wk bk Wv bv b kt.val q d + contribK X Wq bq Wk bk Wv bv b kt q d := by
  unfold accK
  have hs : (Finset.univ : Finset (Fin 8)).filter (fun x => x.val < kt.val + 1)
      = insert kt ((Finset.univ : Finset (Fin 8)).filter (fun x => x.val < kt.val)) := by
    ext x
    simp only [Finset.mem_filter, Finset.mem_univ, true_and, Finset.mem_insert]
    constructor
    · intro h
      rcases Nat.lt_succ_iff_lt_or_eq.mp h with h | h
      · exact Or.inr h
      · exact Or.inl (Fin.ext h)
    · rintro (rfl | h)
      · exact Nat.lt_succ_self _
      · exact Nat.lt_succ_of_lt h
  rw [hs, Finset.sum_insert (by simp), add_comm]

end Programs

end Cert.Attn

end
-- ==== Proof.KI.Pay.lean ====
/-
  The tiled program's payloads read at an index, at the ideal values.

  Each payload of the kernel body is a term over the vectors read before it. Read at one index of its
  result, the term is a closed expression over the operands' entries:
  * the accumulator's reset is the zero array, and the stored attention block is the accumulator;
  * a projection is a matrix product contracting both operands' second axis, plus a row of biases:
    `(∑ c, X t c · W d c) + β d`;
  * the score tile is the product of the query rows and the projected key rows, times the scale;
  * the mask bit of query row `t` and key `j` of tile `kt` says `t < 256 · kt + j`;
  * the accumulator's update adds, for each key of the tile, the softmax weight (taken down the query
    axis of the masked scores) times the value row divided by the column sum.
-/
import proofs.«181125_j22428319220703_1_alg».proof.Proof.Gen.KernelIdeal.Skeleton
import proofs.«181125_j22428319220703_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayIx

open Idealize.ShloMosaic Idealize.ShloMosaic.ValueIdx Cert.KernelIdeal Cert.KernelIdeal.Gen

/-! ## The accumulator's reset and the stored block -/

/-- The reset value of the accumulator is the zero array. -/
theorem pay4_apply (t : Fin 2048) (d : Fin 512) : k0_pay4 (F := Ideal) (ix2 t d) = 0 := by
  unfold k0_pay4
  rw [shapeCast_self]
  exact Ideal.ofBits_zero_f32

/-- The stored attention block, a `[1, 2048, 512]` view of the accumulator, is the accumulator. -/
theorem pay2_apply (acc : Vec Ideal S2048x512 .f32) (t : Fin 2048) (d : Fin 512) :
    k0_pay2 (F := Ideal) acc (ix3 (0 : Fin 1) t d) = acc (ix2 t d) := by
  unfold k0_pay2
  exact (shapeCast_ab_1ab_apply _ _ (0 : Fin 1) t d).trans rfl

/-! ## Keepdims columns, and a matrix product into the zero accumulator, read at an entry -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product `[M, K] × [N, K]` contracting the second axis of both operands, into the zero accumulator: entry
    `(a, b)` is `∑ c, lhs a c · rhs b c`. The hypotheses say where the dimension numbers send a result index and a
    contraction position; at a literal record each is computed. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val)
    (hl1 : ∀ j k, (D.lhsIdx j k 1).val = (k ⟨0, by omega⟩).val)
    (hr0 : ∀ j k, (D.rhsIdx j k 0).val = (j 1).val)
    (hr1 : ∀ j k, (D.rhsIdx j k 1).val = (k ⟨0, by omega⟩).val)
    (prec : Option ContractPrecision) (lhs : FVec Ideal ⟨2, ![M, K]⟩ φ₁) (rhs : FVec Ideal ⟨2, ![N, K]⟩ φ₂)
    (a : Fin M) (b : Fin N) :
    FloatOps.matmul D prec lhs rhs (constant (F := Ideal) ⟨2, ![M, N]⟩ .f32 0x00000000#32) (ix2 a b)
      = ∑ c : Fin K, lhs (ix2 a c) * rhs (ix2 b c) := by
  rw [Ideal.matmul_constant_zero_apply, ← Equiv.sum_comp (contrEquiv1 D K hr hs).symm]
  refine Finset.sum_congr rfl fun c _ => ?_
  have hk := contrEquiv1_symm_val D K hr hs c
  have el : D.lhsIdx (ix2 a b) ((contrEquiv1 D K hr hs).symm c) = ix2 a c := funext fun ax => Fin.ext (by
    match ax with
    | ⟨0, _⟩ => exact hl0 _ _
    | ⟨1, _⟩ => exact (hl1 _ _).trans hk)
  have er : D.rhsIdx (ix2 a b) ((contrEquiv1 D K hr hs).symm c) = ix2 b c := funext fun ax => Fin.ext (by
    match ax with
    | ⟨0, _⟩ => exact hr0 _ _
    | ⟨1, _⟩ => exact (hr1 _ _).trans hk)
  rw [el, er]

/-- A plain product `[M, K] × [K, N]` into the zero accumulator: entry `(a, b)` is `∑ c, lhs a c · rhs c b`. -/
theorem matmul_nn_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val)
    (hl1 : ∀ j k, (D.lhsIdx j k 1).val = (k ⟨0, by omega⟩).val)
    (hr0 : ∀ j k, (D.rhsIdx j k 0).val = (k ⟨0, by omega⟩).val)
    (hr1 : ∀ j k, (D.rhsIdx j k 1).val = (j 1).val)
    (prec : Option ContractPrecision) (lhs : FVec Ideal ⟨2, ![M, K]⟩ φ₁) (rhs : FVec Ideal ⟨2, ![K, N]⟩ φ₂)
    (a : Fin M) (b : Fin N) :
    FloatOps.matmul D prec lhs rhs (constant (F := Ideal) ⟨2, ![M, N]⟩ .f32 0x00000000#32) (ix2 a b)
      = ∑ c : Fin K, lhs (ix2 a c) * rhs (ix2 c b) := by
  rw [Ideal.matmul_constant_zero_apply, ← Equiv.sum_comp (contrEquiv1 D K hr hs).symm]
  refine Finset.sum_congr rfl fun c _ => ?_
  have hk := contrEquiv1_symm_val D K hr hs c
  have el : D.lhsIdx (ix2 a b) ((contrEquiv1 D K hr hs).symm c) = ix2 a c := funext fun ax => Fin.ext (by
    match ax with
    | ⟨0, _⟩ => exact hl0 _ _
    | ⟨1, _⟩ => exact (hl1 _ _).trans hk)
  have er : D.rhsIdx (ix2 a b) ((contrEquiv1 D K hr hs).symm c) = ix2 c b := funext fun ax => Fin.ext (by
    match ax with
    | ⟨0, _⟩ => exact (hr0 _ _).trans hk
    | ⟨1, _⟩ => exact hr1 _ _)
  rw [el, er]

/-! ## The dimension numbers of the four products -/

section Dots

theorem dotQ_l0 (j : S2048x512.Idx) (k : dot_S2048x512_S512x512_S2048x512_1_1_0_0_n_n.contr.Idx) :
    (dot_S2048x512_S512x512_S2048x512_1_1_0_0_n_n.lhsIdx j k 0).val = (j 0).val := by
  unfold DotDims.lhsIdx
  rw [dif_neg (show ¬(0 : Fin S2048x512.rank) ∈ dot_S2048x512_S512x512_S2048x512_1_1_0_0_n_n.lhsBatch by decide),
    dif_pos (show (0 : Fin S2048x512.rank) ∈ dot_S2048x512_S512x512_S2048x512_1_1_0_0_n_n.lhsNonContracting by decide)]
  rfl
theorem dotQ_r0 (j : S2048x512.Idx) (k : dot_S2048x512_S512x512_S2048x512_1_1_0_0_n_n.contr.Idx) :
    (dot_S2048x512_S512x512_S2048x512_1_1_0_0_n_n.rhsIdx j k 0).val = (j 1).val := by
  unfold DotDims.rhsIdx
  rw [dif_neg (show ¬(0 : Fin S512x512.rank) ∈ dot_S2048x512_S512x512_S2048x512_1_1_0_0_n_n.rhsBatch by decide),
    dif_pos (show (0 : Fin S512x512.rank) ∈ dot_S2048x512_S512x512_S2048x512_1_1_0_0_n_n.rhsNonContracting by decide)]
  rfl

theorem dotK_l0 (j : S256x512.Idx) (k : dot_S256x512_S512x512_S256x512_1_1_0_0_n_n.contr.Idx) :
    (dot_S256x512_S512x512_S256x512_1_1_0_0_n_n.lhsIdx j k 0).val = (j 0).val := by
  unfold DotDims.lhsIdx
  rw [dif_neg (show ¬(0 : Fin S256x512.rank) ∈ dot_S256x512_S512x512_S256x512_1_1_0_0_n_n.lhsBatch by decide),
    dif_pos (show (0 : Fin S256x512.rank) ∈ dot_S256x512_S512x512_S256x512_1_1_0_0_n_n.lhsNonContracting by decide)]
  rfl
theorem dotK_r0 (j : S256x512.Idx) (k : dot_S256x512_S512x512_S256x512_1_1_0_0_n_n.contr.Idx) :
    (dot_S256x512_S512x512_S256x512_1_1_0_0_n_n.rhsIdx j k 0).val = (j 1).val := by
  unfold DotDims.rhsIdx
  rw [dif_neg (show ¬(0 : Fin S512x512.rank) ∈ dot_S256x512_S512x512_S256x512_1_1_0_0_n_n.rhsBatch by decide),
    dif_pos (show (0 : Fin S512x512.rank) ∈ dot_S256x512_S512x512_S256x512_1_1_0_0_n_n.rhsNonContracting by decide)]
  rfl
theorem dotS_l0 (j : S2048x256.Idx) (k : dot_S2048x512_S256x512_S2048x256_1_1_0_0_n_n.contr.Idx) :
    (dot_S2048x512_S256x512_S2048x256_1_1_0_0_n_n.lhsIdx j k 0).val = (j 0).val := by
  unfold DotDims.lhsIdx
  rw [dif_neg (show ¬(0 : Fin S2048x512.rank) ∈ dot_S2048x512_S256x512_S2048x256_1_1_0_0_n_n.lhsBatch by decide),
    dif_pos (show (0 : Fin S2048x512.rank) ∈ dot_S2048x512_S256x512_S2048x256_1_1_0_0_n_n.lhsNonContracting by decide)]
  rfl
theorem dotS_r0 (j : S2048x256.Idx) (k : dot_S2048x512_S256x512_S2048x256_1_1_0_0_n_n.contr.Idx) :
    (dot_S2048x512_S256x512_S2048x256_1_1_0_0_n_n.rhsIdx j k 0).val = (j 1).val := by
  unfold DotDims.rhsIdx
  rw [dif_neg (show ¬(0 : Fin S256x512.rank) ∈ dot_S2048x512_S256x512_S2048x256_1_1_0_0_n_n.rhsBatch by decide),
    dif_pos (show (0 : Fin S256x512.rank) ∈ dot_S2048x512_S256x512_S2048x256_1_1_0_0_n_n.rhsNonContracting by decide)]
  rfl
theorem dotP_l0 (j : S2048x512.Idx) (k : dot_S2048x256_S256x512_S2048x512_1_0_0_1_n_n.contr.Idx) :
    (dot_S2048x256_S256x512_S2048x512_1_0_0_1_n_n.lhsIdx j k 0).val = (j 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
theorem dotP_r1 (j : S2048x512.Idx) (k : dot_S2048x256_S256x512_S2048x512_1_0_0_1_n_n.contr.Idx) :
    (dot_S2048x256_S256x512_S2048x512_1_0_0_1_n_n.rhsIdx j k 1).val = (j 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

end Dots

/-! ## The projections -/

/-- A row of biases `[512]`, viewed `[1, 512]` and repeated down `n` rows, reads the bias of the column. -/
theorem bias_apply {n : ℕ} (β : FVec Ideal S512 .f32) (h1 : S512.ShapeCasts S1x512)
    (h2 : S1x512.Broadcasts ⟨2, ![n, 512]⟩) (a : Fin n) (d : Fin 512) :
    broadcastTo ⟨2, ![n, 512]⟩ (shapeCast S1x512 β h1) h2 (ix2 a d) = β (ix1 d) :=
  (broadcastTo_1b_ab_apply _ h2 a d).trans (shapeCast_a_1a_apply β h1 (0 : Fin 1) d)

/-- The query projection of the batch row's block: `(∑ c, X t c · Wq d c) + bq d`. -/
theorem pay3_apply (x0 : Vec Ideal S1x2048x512 .bf16) (x1 : Vec Ideal S512x512 .bf16) (x2 : Vec Ideal S512 .f32)
    (t : Fin 2048) (d : Fin 512) :
    k0_pay3 (F := Ideal) x0 x1 x2 (ix2 t d)
      = (∑ c : Fin 512, x0 (ix3 (0 : Fin 1) t c) * x1 (ix2 d c)) + x2 (ix1 d) := by
  unfold k0_pay3
  rw [shapeCast_self, shapeCast_self]
  show FloatOps.matmul (F := Ideal) dot_S2048x512_S512x512_S2048x512_1_1_0_0_n_n none _ _ _ (ix2 t d) + _ = _
  rw [matmul_nt_apply dot_S2048x512_S512x512_S2048x512_1_1_0_0_n_n rfl rfl dotQ_l0
      (fun j k => dot_S2048x512_S512x512_S2048x512_1_1_0_0_n_n.lhsIdx_val_of_single rfl j k) dotQ_r0
      (fun j k => dot_S2048x512_S512x512_S2048x512_1_1_0_0_n_n.rhsIdx_val_of_single rfl j k),
    bias_apply]
  refine congrArg (· + x2 (ix1 d)) (Finset.sum_congr rfl fun c _ => ?_)
  rw [shapeCast_1ab_ab_apply]

/-- The value projection of the key tile's rows: `(∑ c, X j c · Wv d c) + bv d`. -/
theorem pay6_apply (v8 : Vec Ideal S256x512 .bf16) (x5 : Vec Ideal S512x512 .bf16) (x6 : Vec Ideal S512 .f32)
    (j : Fin 256) (d : Fin 512) :
    k0_pay6 (F := Ideal) v8 x5 x6 (ix2 j d) = (∑ c : Fin 512, v8 (ix2 j c) * x5 (ix2 d c)) + x6 (ix1 d) := by
  unfold k0_pay6 k0_pay5
  rw [shapeCast_self, shapeCast_self]
  show FloatOps.matmul (F := Ideal) dot_S256x512_S512x512_S256x512_1_1_0_0_n_n none _ _ _ (ix2 j d) + _ = _
  rw [matmul_nt_apply dot_S256x512_S512x512_S256x512_1_1_0_0_n_n rfl rfl dotK_l0
      (fun j k => dot_S256x512_S512x512_S256x512_1_1_0_0_n_n.lhsIdx_val_of_single rfl j k) dotK_r0
      (fun j k => dot_S256x512_S512x512_S256x512_1_1_0_0_n_n.rhsIdx_val_of_single rfl j k),
    bias_apply]

/-! ## The score tile -/

/-- The scale factor's name denotes the specification's `invScale`. -/
theorem inv_scale_eq :
    Named.named (F := Ideal) κ "inv_scale" (φ := .f32) 0x3D3504F3#32 = Cert.Attn.invScale :=
  IdealRules.named_const.ideal_named_scalar _ _ _ _ rfl

/-- The mask's fill value denotes `−∞`. -/
theorem neg_big_eq : Named.named (F := Ideal) κ "neg_big" (φ := .f32) 0xFF333332#32 = ⊥ :=
  IdealRules.named_const.ideal_named_scalar _ _ _ _ rfl

/-- The score of query row `t` and key `j` of the tile: the dot product of the cached query row and the key
    projection of row `j`, times the scale. -/
theorem pay7_apply (v8 : Vec Ideal S256x512 .bf16) (x3 : Vec Ideal S512x512 .bf16) (x4 : Vec Ideal S512 .f32)
    (q : Vec Ideal S2048x512 .bf16) (t : Fin 2048) (j : Fin 256) :
    k0_pay7 (F := Ideal) v8 x3 x4 q (ix2 t j)
      = (∑ d : Fin 512, q (ix2 t d) * ((∑ c : Fin 512, v8 (ix2 j c) * x3 (ix2 d c)) + x4 (ix1 d)))
          * Cert.Attn.invScale := by
  unfold k0_pay7 k0_pay5
  rw [shapeCast_self, shapeCast_self]
  show FloatOps.matmul (F := Ideal) dot_S2048x512_S256x512_S2048x256_1_1_0_0_n_n none q _ _ (ix2 t j)
      * Named.named (F := Ideal) κ "inv_scale" (φ := .f32) 0x3D3504F3#32 = _
  rw [matmul_nt_apply dot_S2048x512_S256x512_S2048x256_1_1_0_0_n_n rfl rfl dotS_l0
      (fun j k => dot_S2048x512_S256x512_S2048x256_1_1_0_0_n_n.lhsIdx_val_of_single rfl j k) dotS_r0
      (fun j k => dot_S2048x512_S256x512_S2048x256_1_1_0_0_n_n.rhsIdx_val_of_single rfl j k),
    inv_scale_eq]
  refine congrArg (· * Cert.Attn.invScale) (Finset.sum_congr rfl fun dd _ => congrArg (q (ix2 t dd) * ·) ?_)
  show FloatOps.matmul (F := Ideal) dot_S256x512_S512x512_S256x512_1_1_0_0_n_n none v8 x3 _ (ix2 j dd) + _ = _
  rw [matmul_nt_apply dot_S256x512_S512x512_S256x512_1_1_0_0_n_n rfl rfl dotK_l0
      (fun j k => dot_S256x512_S512x512_S256x512_1_1_0_0_n_n.lhsIdx_val_of_single rfl j k) dotK_r0
      (fun j k => dot_S256x512_S512x512_S256x512_1_1_0_0_n_n.rhsIdx_val_of_single rfl j k),
    bias_apply]

/-! ## The mask -/

/-- On words that encode naturals below `2 ^ 31` the signed comparison is the comparison of the naturals. -/
theorem slt_ofNat_small (a b : ℕ) (ha : a < 2147483648) (hb : b < 2147483648) :
    BitVec.slt (BitVec.ofNat 32 a) (BitVec.ofNat 32 b) = decide (a < b) := by
  have h1 : (BitVec.ofNat 32 a).toInt = (a : ℤ) := by
    have e : (BitVec.ofNat 32 a).toNat = a := by rw [BitVec.toNat_ofNat]; omega
    rw [BitVec.toInt_eq_toNat_of_lt (by rw [e]; omega), e]
  have h2 : (BitVec.ofNat 32 b).toInt = (b : ℤ) := by
    have e : (BitVec.ofNat 32 b).toNat = b := by rw [BitVec.toNat_ofNat]; omega
    rw [BitVec.toInt_eq_toNat_of_lt (by rw [e]; omega), e]
  unfold BitVec.slt
  rw [h1, h2]
  simp

/-- The mask bit at query row `t` and key `j` of key tile `i 1`: set where the query row is before the key's
    row `256 · (i 1) + j` of the sequence. -/
theorem pay8_apply (i : grid0.Coords) (t : Fin 2048) (j : Fin 256) :
    k0_pay8 i (ix2 t j) = if t.val < 256 * (i 1).val + j.val then 1#1 else 0#1 := by
  have hi : (i 1).val < 8 := (i 1).isLt
  unfold k0_pay8
  show IntOp.cmpi .sgt
      (broadcastTo S2048x256 (addi (iota .tc S1x256 32 [1] iota_S1x256_d1_w32)
        (broadcast S1x256 (Scalar.muli (BitVec.ofNat 32 (i 1).val) 256#32))) broadcasts_S1x256_S2048x256 (ix2 t j))
      (broadcastTo S2048x256 (iota .tc S2048x1 32 [0] iota_S2048x1_d0_w32) broadcasts_S2048x1_S2048x256 (ix2 t j)) = _
  rw [broadcastTo_1b_ab_apply, broadcastTo_a1_ab_apply]
  show IntOp.cmpi .sgt
      (IntOp.addi (iota .tc S1x256 32 [1] iota_S1x256_d1_w32 (ix2 (0 : Fin 1) j))
        (Scalar.muli (BitVec.ofNat 32 (i 1).val) 256#32))
      (iota .tc S2048x1 32 [0] iota_S2048x1_d0_w32 (ix2 t (0 : Fin 1))) = _
  rw [iota_single_apply, iota_single_apply]
  show BitVec.ofBool (BitVec.slt (BitVec.ofNat 32 t.val)
      (BitVec.ofNat 32 j.val + BitVec.ofNat 32 (i 1).val * BitVec.ofNat 32 256)) = _
  rw [← BitVec.ofNat_mul, ← BitVec.ofNat_add, slt_ofNat_small _ _ (by omega) (by omega)]
  by_cases h : t.val < 256 * (i 1).val + j.val
  · rw [if_pos h, decide_eq_true (by omega)]; rfl
  · rw [if_neg h, decide_eq_false (by omega)]; rfl

/-! ## The accumulator's update -/

/-- the masked score, its column maximum and column sum, as the payload computes them -/
def sOf (v28 : Vec Ideal S2048x256 .f32) (v35 : IVec S2048x256 1) (t : Fin 2048) (j : Fin 256) : EReal :=
  if v35 (ix2 t j) = 1#1 then ⊥ else v28 (ix2 t j)
def mOf (v28 : Vec Ideal S2048x256 .f32) (v35 : IVec S2048x256 1) (j : Fin 256) : EReal :=
  (Finset.univ : Finset (Fin 2048)).fold max ⊥ (fun t => sOf v28 v35 t j)
def lOf (v28 : Vec Ideal S2048x256 .f32) (v35 : IVec S2048x256 1) (j : Fin 256) : EReal :=
  ∑ t : Fin 2048, Ideal.exp (sOf v28 v35 t j - mOf v28 v35 j)

/-- The masked score: `−∞` where the mask bit is set, the score elsewhere. -/
theorem masked_apply (v28 : Vec Ideal S2048x256 .f32) (v35 : IVec S2048x256 1) (t : Fin 2048) (j : Fin 256) :
    (select v35 (broadcast S2048x256 (Named.named (F := Ideal) κ "neg_big" (φ := .f32) 0xFF333332#32)) v28
      : FVec Ideal S2048x256 .f32) (ix2 t j) = sOf v28 v35 t j := by
  rw [select_apply, broadcast_apply, neg_big_eq]
  rfl

/-- The index the reduction over the query axis reads at key `j` and query row `k`. -/
theorem lift_eq (j : Fin 256) (k : Fin 2048) : reduces_S2048x256_S256.lift (ix1 j) k = ix2 k j :=
  funext fun ax => Fin.ext (by match ax with | ⟨0, _⟩ => rfl | ⟨1, _⟩ => rfl)

/-- The maximum over the query axis, at key `j`: the fold of `max` from `−∞` down the column. -/
theorem colmax_apply (src : FVec Ideal S2048x256 .f32) (j : Fin 256) :
    multiReduction (F := Ideal) .maximumf [0] S256 src 0xFF800000#32 reduces_S2048x256_S256 (.inl rfl) rfl (ix1 j)
      = (Finset.univ : Finset (Fin 2048)).fold max ⊥ (fun t => src (ix2 t j)) := by
  refine (Ideal.multiReduction_maximumf_single src 0xFF800000#32 reduces_S2048x256_S256 (.inl rfl) rfl (ix1 j)).trans ?_
  have hb : FloatOps.ofBits (F := Ideal) .f32 0xFF800000#32 = (⊥ : EReal) := by simp [Ideal.ofBits, Ideal.ieee]
  have hf : (src ∘ reduces_S2048x256_S256.lift (ix1 j)) = fun t : Fin 2048 => src (ix2 t j) :=
    funext fun k => congrArg src (lift_eq j k)
  rw [hb, hf]
  rfl

/-- The sum over the query axis, at key `j`: the sum down the column. -/
theorem colsum_apply (src : FVec Ideal S2048x256 .f32) (j : Fin 256) :
    multiReduction (F := Ideal) .add [0] S256 src 0x00000000#32 reduces_S2048x256_S256 (.inl rfl) rfl (ix1 j)
      = ∑ t : Fin 2048, src (ix2 t j) := by
  refine (Ideal.multiReduction_add_single src 0x00000000#32 reduces_S2048x256_S256 (.inl rfl) rfl (ix1 j)).trans ?_
  exact Finset.sum_congr rfl fun k _ => congrArg src (lift_eq j k)

/-- The softmax weight down the query axis, of scores whose entries are `σ`: `exp (σ t j − max_t' σ t' j)`. -/
theorem weight_apply (s : FVec Ideal S2048x256 .f32) (σ : Fin 2048 → Fin 256 → EReal)
    (hs : ∀ t j, s (ix2 t j) = σ t j) (t : Fin 2048) (j : Fin 256) :
    exp (subf s (broadcastTo S2048x256 (shapeCast S1x256
        (multiReduction (F := Ideal) .maximumf [0] S256 s 0xFF800000#32 reduces_S2048x256_S256 (.inl rfl) rfl)
        shapeCasts_S256_S1x256) broadcasts_S1x256_S2048x256)) (ix2 t j)
      = Ideal.exp (σ t j - (Finset.univ : Finset (Fin 2048)).fold max ⊥ (fun t' => σ t' j)) := by
  show Ideal.exp (s (ix2 t j) - broadcastTo S2048x256 _ broadcasts_S1x256_S2048x256 (ix2 t j)) = _
  rw [broadcastTo_1b_ab_apply, shapeCast_a_1a_apply, colmax_apply, hs t j,
    show (fun t' : Fin 2048 => s (ix2 t' j)) = fun t' => σ t' j from funext fun t' => hs t' j]

/-- The value row divided by its key's column sum, of weights whose entries are `ε`. -/
theorem scaled_apply (e : FVec Ideal S2048x256 .f32) (ε : Fin 2048 → Fin 256 → EReal)
    (he : ∀ t j, e (ix2 t j) = ε t j) (v23 : FVec Ideal S256x512 .f32) (j : Fin 256) (d : Fin 512) :
    divf v23 (broadcastTo S256x512 (shapeCast S256x1
        (multiReduction (F := Ideal) .add [0] S256 e 0x00000000#32 reduces_S2048x256_S256 (.inl rfl) rfl)
        shapeCasts_S256_S256x1) broadcasts_S256x1_S256x512) (ix2 j d)
      = Ideal.div (v23 (ix2 j d)) (∑ t : Fin 2048, ε t j) := by
  show Ideal.div (v23 (ix2 j d)) (broadcastTo S256x512 _ broadcasts_S256x1_S256x512 (ix2 j d)) = _
  rw [broadcastTo_a1_ab_apply, shapeCast_a_a1_apply, colsum_apply]
  exact congrArg (Ideal.div (v23 (ix2 j d))) (Finset.sum_congr rfl fun t' _ => he t' j)

/-- The accumulator after the tile: each key of the tile adds its softmax weight times its value row divided by the
    key's column sum. -/
theorem pay1_apply (v23 : Vec Ideal S256x512 .f32) (v28 : Vec Ideal S2048x256 .f32) (v35 : IVec S2048x256 1)
    (acc : Vec Ideal S2048x512 .f32) (t : Fin 2048) (d : Fin 512) :
    k0_pay1 (F := Ideal) v23 v28 v35 (Named.named (F := Ideal) κ "neg_big" (φ := .f32) 0xFF333332#32) acc (ix2 t d)
      = acc (ix2 t d) + ∑ j : Fin 256, Ideal.exp (sOf v28 v35 t j - mOf v28 v35 j)
          * Ideal.div (v23 (ix2 j d)) (lOf v28 v35 j) := by
  unfold k0_pay1
  rw [shapeCast_self]
  have hS : ∀ (t' : Fin 2048) (j' : Fin 256),
      (select v35 (broadcast S2048x256 (Named.named (F := Ideal) κ "neg_big" (φ := .f32) 0xFF333332#32)) v28
        : FVec Ideal S2048x256 .f32) (ix2 t' j') = sOf v28 v35 t' j' := masked_apply v28 v35
  generalize (select v35 (broadcast S2048x256 (Named.named (F := Ideal) κ "neg_big" (φ := .f32) 0xFF333332#32)) v28
      : FVec Ideal S2048x256 .f32) = S at hS ⊢
  show acc (ix2 t d)
      + FloatOps.matmul (F := Ideal) dot_S2048x256_S256x512_S2048x512_1_0_0_1_n_n none _ _ _ (ix2 t d) = _
  rw [matmul_nn_apply dot_S2048x256_S256x512_S2048x512_1_0_0_1_n_n rfl rfl dotP_l0
      (fun j k => dot_S2048x256_S256x512_S2048x512_1_0_0_1_n_n.lhsIdx_val_of_single rfl j k)
      (fun j k => dot_S2048x256_S256x512_S2048x512_1_0_0_1_n_n.rhsIdx_val_of_single rfl j k) dotP_r1]
  refine congrArg (acc (ix2 t d) + ·) (Finset.sum_congr rfl fun j _ => ?_)
  rw [truncf_apply, truncf_apply, weight_apply S (sOf v28 v35) hS t j,
    scaled_apply _ (fun t' j' => Ideal.exp (sOf v28 v35 t' j' - mOf v28 v35 j'))
      (fun t' j' => weight_apply S (sOf v28 v35) hS t' j') v23 j d]
  rfl

end Cert.KernelIdeal.PayIx

end
-- ==== Proof.KI.Step.lean ====
/-
  One key tile's step of the tiled program, read at an index, is the specification's accumulator step.

  At key tile `kt` the body holds 256 input rows, rows `tileRow kt j` of the batch row. Their key and value
  projections are the specification's `proj` at those rows; the score tile is the specification's score of a
  query row against those keys, times the scale; the mask bit says "the query row is before the key's row", the
  condition under which the specification's masked score is `−∞`. So the masked score tile is `sK` at the tile's
  columns, and, column by column, its maximum and the sum of its exponentials down the query axis are `mK` and
  `lK` there. The update then adds to the accumulator exactly `contribK` of the tile, which is the step from
  `accK … kt` to `accK … (kt + 1)`.
-/
import proofs.«181125_j22428319220703_1_alg».proof.Proof.KI.Pay
import proofs.«181125_j22428319220703_1_alg».proof.Proof.Spec

noncomputable section

open scoped BigOperators

namespace Cert.KernelIdeal.PayIx

open Idealize.ShloMosaic Idealize.ShloMosaic.ValueIdx Cert.KernelIdeal Cert.KernelIdeal.Gen
open Cert.Attn (Arr3 Mat Vec1 tileRow proj score invScale sK mK pK lK contribK accK accK_zero accK_succ)

/-! ## The projections of the tile's rows -/

/-- A projection of the key tile's row `j`, from the tile's block and the weights' and biases' arrays, is the
    specification's projection of row `tileRow kt j` of the batch row. -/
theorem tile_proj_eq (X : Arr3) (W : Mat) (β : Vec1) (b kt : Fin 8)
    (v8 : Vec Ideal S256x512 .bf16) (hv8 : ∀ (j : Fin 256) (c : Fin 512), v8 (ix2 j c) = X b (tileRow kt j) c)
    (w : Vec Ideal S512x512 .bf16) (hw : ∀ (d c : Fin 512), w (ix2 d c) = W d c)
    (β' : Vec Ideal S512 .f32) (hβ : ∀ d : Fin 512, β' (ix1 d) = β d) (j : Fin 256) (d : Fin 512) :
    (∑ c : Fin 512, v8 (ix2 j c) * w (ix2 d c)) + β' (ix1 d) = proj X W β b (tileRow kt j) d := by
  unfold Cert.Attn.proj
  rw [hβ d]
  exact congrArg (· + β d) (Finset.sum_congr rfl fun c _ => by rw [hv8 j c, hw d c])

/-- the cached queries are the query projection -/
theorem q_apply (X : Cert.Attn.Arr3) (Wq : Cert.Attn.Mat) (bq : Cert.Attn.Vec1) (b : Fin 8)
    (x0 : Vec Ideal S1x2048x512 .bf16) (hx0 : ∀ (t : Fin 2048) (c : Fin 512), x0 (ix3 (0 : Fin 1) t c) = X b t c)
    (x1 : Vec Ideal S512x512 .bf16) (hx1 : ∀ (d c : Fin 512), x1 (ix2 d c) = Wq d c)
    (x2 : Vec Ideal S512 .f32) (hx2 : ∀ d : Fin 512, x2 (ix1 d) = bq d) (t : Fin 2048) (d : Fin 512) :
    k0_pay3 (F := Ideal) x0 x1 x2 (ix2 t d) = Cert.Attn.proj X Wq bq b t d := by
  rw [pay3_apply]
  unfold Cert.Attn.proj
  rw [hx2 d]
  exact congrArg (· + bq d) (Finset.sum_congr rfl fun c _ => by rw [hx0 t c, hx1 d c])

/-- the accumulator's reset is the empty sum -/
theorem zero_apply (X : Cert.Attn.Arr3) (Wq : Cert.Attn.Mat) (bq : Cert.Attn.Vec1) (Wk : Cert.Attn.Mat) (bk : Cert.Attn.Vec1) (Wv : Cert.Attn.Mat) (bv : Cert.Attn.Vec1)
    (b : Fin 8) (t : Fin 2048) (d : Fin 512) : k0_pay4 (F := Ideal) (ix2 t d) = Cert.Attn.accK X Wq bq Wk bk Wv bv b 0 t d :=
  (pay4_apply t d).trans (accK_zero X Wq bq Wk bk Wv bv b t d).symm

/-! ## The masked scores of the tile, their column maxima and column sums -/

section Columns

variable (X : Arr3) (Wq : Mat) (bq : Vec1) (Wk : Mat) (bk : Vec1) (b kt : Fin 8)
  (v28 : Vec Ideal S2048x256 .f32)
  (hs : ∀ (t : Fin 2048) (j : Fin 256),
    v28 (ix2 t j) = score (proj X Wq bq) (proj X Wk bk) b t (tileRow kt j) * invScale)
  (v35 : IVec S2048x256 1)
  (hm : ∀ (t : Fin 2048) (j : Fin 256), v35 (ix2 t j) = if t.val < 256 * kt.val + j.val then 1#1 else 0#1)

include hs hm

/-- The masked score tile is the specification's masked score at the tile's columns: the mask bit is set exactly
    where the query row is before the key's row. -/
theorem sOf_eq (t : Fin 2048) (j : Fin 256) : sOf v28 v35 t j = sK X Wq bq Wk bk b t (tileRow kt j) := by
  unfold sOf Cert.Attn.sK
  rw [hm t j, hs t j]
  by_cases h : t.val < 256 * kt.val + j.val
  · rw [if_pos h, if_pos rfl, if_pos (show t.val < (tileRow kt j).val from h)]
  · rw [if_neg h, if_neg (show ¬(0#1 : BitVec 1) = 1#1 by decide),
      if_neg (show ¬t.val < (tileRow kt j).val from h)]

/-- Its column maximum is the specification's. -/
theorem mOf_eq (j : Fin 256) : mOf v28 v35 j = mK X Wq bq Wk bk b (tileRow kt j) := by
  unfold mOf Cert.Attn.mK
  exact congrArg (fun f => Finset.fold max ⊥ f Finset.univ)
    (funext fun t => sOf_eq X Wq bq Wk bk b kt v28 hs v35 hm t j)

/-- Its column sum of exponentials is the specification's. -/
theorem lOf_eq (j : Fin 256) : lOf v28 v35 j = lK X Wq bq Wk bk b (tileRow kt j) := by
  unfold lOf Cert.Attn.lK Cert.Attn.pK
  exact Finset.sum_congr rfl fun t _ => by
    rw [sOf_eq X Wq bq Wk bk b kt v28 hs v35 hm t j, mOf_eq X Wq bq Wk bk b kt v28 hs v35 hm j]

end Columns

/-! ## The step -/

/-- one key tile's step -/
theorem step_apply (X : Cert.Attn.Arr3) (Wq : Cert.Attn.Mat) (bq : Cert.Attn.Vec1) (Wk : Cert.Attn.Mat) (bk : Cert.Attn.Vec1) (Wv : Cert.Attn.Mat) (bv : Cert.Attn.Vec1)
    (i : grid0.Coords) (b kt : Fin 8) (hi : (i 1).val = kt.val)
    (v8 : Vec Ideal S256x512 .bf16) (hv8 : ∀ (j : Fin 256) (c : Fin 512), v8 (ix2 j c) = X b (Cert.Attn.tileRow kt j) c)
    (x3 : Vec Ideal S512x512 .bf16) (hx3 : ∀ (d c : Fin 512), x3 (ix2 d c) = Wk d c) (x4 : Vec Ideal S512 .f32) (hx4 : ∀ d : Fin 512, x4 (ix1 d) = bk d)
    (x5 : Vec Ideal S512x512 .bf16) (hx5 : ∀ (d c : Fin 512), x5 (ix2 d c) = Wv d c) (x6 : Vec Ideal S512 .f32) (hx6 : ∀ d : Fin 512, x6 (ix1 d) = bv d)
    (q : Vec Ideal S2048x512 .bf16) (hq : ∀ (t : Fin 2048) (d : Fin 512), q (ix2 t d) = Cert.Attn.proj X Wq bq b t d)
    (acc : Vec Ideal S2048x512 .f32) (hacc : ∀ (t : Fin 2048) (d : Fin 512), acc (ix2 t d) = Cert.Attn.accK X Wq bq Wk bk Wv bv b kt.val t d)
    (t : Fin 2048) (d : Fin 512) :
    k0_pay1 (F := Ideal) (k0_pay6 (F := Ideal) v8 x5 x6) (k0_pay7 (F := Ideal) v8 x3 x4 q) (k0_pay8 i)
        (Named.named (F := Ideal) κ "neg_big" (φ := .f32) 0xFF333332#32) acc (ix2 t d)
      = Cert.Attn.accK X Wq bq Wk bk Wv bv b (kt.val + 1) t d := by
  have hs : ∀ (t : Fin 2048) (j : Fin 256), k0_pay7 (F := Ideal) v8 x3 x4 q (ix2 t j)
      = score (proj X Wq bq) (proj X Wk bk) b t (tileRow kt j) * invScale := fun t j => by
    rw [pay7_apply]
    unfold Cert.Attn.score
    exact congrArg (· * invScale) (Finset.sum_congr rfl fun dd _ => by
      rw [hq t dd, tile_proj_eq X Wk bk b kt v8 hv8 x3 hx3 x4 hx4 j dd])
  have hm : ∀ (t : Fin 2048) (j : Fin 256),
      k0_pay8 i (ix2 t j) = if t.val < 256 * kt.val + j.val then 1#1 else 0#1 := fun t j => by
    rw [pay8_apply, hi]
  rw [pay1_apply, hacc t d, accK_succ]
  refine congrArg (accK X Wq bq Wk bk Wv bv b kt.val t d + ·) ?_
  unfold Cert.Attn.contribK Cert.Attn.pK
  refine Finset.sum_congr rfl fun j _ => ?_
  rw [sOf_eq X Wq bq Wk bk b kt _ hs _ hm t j, mOf_eq X Wq bq Wk bk b kt _ hs _ hm j,
    lOf_eq X Wq bq Wk bk b kt _ hs _ hm j, pay6_apply, tile_proj_eq X Wv bv b kt v8 hv8 x5 hx5 x6 hx6 j d]

/-- the output block is the accumulator, narrowed (the identity at Ideal) -/
theorem out_apply (acc : Vec Ideal S2048x512 .f32) (t : Fin 2048) (d : Fin 512) :
    k0_pay2 (F := Ideal) acc (ix3 (0 : Fin 1) t d) = acc (ix2 t d) :=
  pay2_apply acc t d

end Cert.KernelIdeal.PayIx

end
-- ==== Proof.KI.Blocks.lean ====
/-
  The windows' blocks read at an index, at the ideal values.

  The grid has 8 × 8 points; point `t` is batch row `t / 8` and key tile `t % 8`. The first input window holds
  one batch row of the input: its block at point `t` is rows `(t / 8, ·, ·)` of the array. The three weight
  matrices and the three bias vectors are each one block, the whole array, at every point. The input and the
  weights reach the region narrowed to sixteen bits by the host; at the ideal values a change of format is the
  identity, so each block entry is the launched argument's entry.
-/
import proofs.«181125_j22428319220703_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## The grid's points -/

/-- The key-tile coordinate of point `t` is `t % 8`. -/
theorem coords_kt : ∀ t : Fin cfg0.N, ((grid0.coords t) 1).val = t.val % 8 :=
  (by decide +kernel : ∀ t : Fin grid0.N, ((grid0.coords t) 1).val = t.val % 8)
/-- The batch-row coordinate of point `t` is `t / 8`. -/
theorem coords_b : ∀ t : Fin cfg0.N, ((grid0.coords t) 0).val = t.val / 8 :=
  (by decide +kernel : ∀ t : Fin grid0.N, ((grid0.coords t) 0).val = t.val / 8)

/-! ## The narrowed arrays, as the region finds them -/

/-- The input narrowed before the region holds the input's entries. -/
theorem V_main_v0 (c : Dev nD) :
    (V m c main_v0 : S8x2048x512.Idx → EReal) = (m ((c : Thread nD τ).loc main_arg0) : S8x2048x512.Idx → EReal) := by
  show StableHlo.after hostOps0 (fun b => m (c, b)) (Proc.devRef .tc main_v0) = _
  after_results
  rfl
/-- The query weights narrowed before the region hold the query weights' entries. -/
theorem V_main_v1 (c : Dev nD) :
    (V m c main_v1 : S512x512.Idx → EReal) = (m ((c : Thread nD τ).loc main_arg1) : S512x512.Idx → EReal) := by
  show StableHlo.after hostOps0 (fun b => m (c, b)) (Proc.devRef .tc main_v1) = _
  after_results
  rfl
/-- The key weights narrowed before the region hold the key weights' entries. -/
theorem V_main_v2 (c : Dev nD) :
    (V m c main_v2 : S512x512.Idx → EReal) = (m ((c : Thread nD τ).loc main_arg3) : S512x512.Idx → EReal) := by
  show StableHlo.after hostOps0 (fun b => m (c, b)) (Proc.devRef .tc main_v2) = _
  after_results
  rfl
/-- The value weights narrowed before the region hold the value weights' entries. -/
theorem V_main_v3 (c : Dev nD) :
    (V m c main_v3 : S512x512.Idx → EReal) = (m ((c : Thread nD τ).loc main_arg5) : S512x512.Idx → EReal) := by
  show StableHlo.after hostOps0 (fun b => m (c, b)) (Proc.devRef .tc main_v3) = _
  after_results
  rfl

/-! ## The block index of each input window, decided over the grid -/

/-- The input window's block at point `t` is batch row `t / 8`, whole on the other two axes. -/
theorem idx0 : ∀ t : Fin cfg0.N, win0_0.index t (0 : Fin 3) = t.val / 8 ∧ win0_0.index t (1 : Fin 3) = 0
    ∧ win0_0.index t (2 : Fin 3) = 0 :=
  (by decide +kernel : ∀ t : Fin grid0.N, _)
/-- Each weight matrix's block is the whole matrix at every point. -/
theorem idx1 : ∀ t : Fin cfg0.N, win0_1.index t (0 : Fin 2) = 0 ∧ win0_1.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
/-- Each bias vector's block is the whole vector at every point. -/
theorem idx2 : ∀ t : Fin cfg0.N, win0_2.index t (0 : Fin 1) = 0 :=
  (by decide +kernel : ∀ t : Fin grid0.N, _)
theorem idx4 : ∀ t : Fin cfg0.N, win0_4.index t (0 : Fin 1) = 0 :=
  (by decide +kernel : ∀ t : Fin grid0.N, _)
theorem idx6 : ∀ t : Fin cfg0.N, win0_6.index t (0 : Fin 1) = 0 :=
  (by decide +kernel : ∀ t : Fin grid0.N, _)

/-! ## The blocks at an index -/

/-- The input block at point `t`: entry `(0, q, c)` is the input's entry `(t / 8, q, c)`. -/
theorem iblk0_apply (c : Dev nD) (t : Fin cfg0.N) (q : Fin 2048) (cc : Fin 512) :
    (iblk (F := Ideal) m c 0 t : S1x2048x512.Idx → EReal) (ix3 (0 : Fin 1) q cc)
      = (m ((c : Thread nD τ).loc main_arg0) : S8x2048x512.Idx → EReal)
          (ix3 (⟨t.val / 8, by have := t.isLt; have : cfg0.N = 64 := N_0; omega⟩ : Fin 8) q cc) := by
  unfold iblk
  show V m c main_v0 (((cfg0.win 0).blk t).view.emb (ix3 (0 : Fin 1) q cc)) = _
  refine (congrFun (V_main_v0 m c) _).trans ?_
  obtain ⟨e0, e1, e2⟩ := idx0 t
  refine congrArg _ (funext fun a => Fin.ext ?_)
  match a with
  | ⟨0, _⟩ => show win0_0.index t (0 : Fin 3) * 1 + 1 * 0 = t.val / 8; omega
  | ⟨1, _⟩ => show win0_0.index t (1 : Fin 3) * 2048 + 1 * q.val = q.val; omega
  | ⟨2, _⟩ => show win0_0.index t (2 : Fin 3) * 512 + 1 * cc.val = cc.val; omega

/-- The query weights' block is the query weights. -/
theorem iblk1_apply (c : Dev nD) (t : Fin cfg0.N) (d cc : Fin 512) :
    (iblk (F := Ideal) m c 1 t : S512x512.Idx → EReal) (ix2 d cc)
      = (m ((c : Thread nD τ).loc main_arg1) : S512x512.Idx → EReal) (ix2 d cc) := by
  unfold iblk
  show V m c main_v1 (((cfg0.win 1).blk t).view.emb (ix2 d cc)) = _
  refine (congrFun (V_main_v1 m c) _).trans ?_
  obtain ⟨e0, e1⟩ := idx1 t
  refine congrArg _ (funext fun a => Fin.ext ?_)
  match a with
  | ⟨0, _⟩ => show win0_1.index t (0 : Fin 2) * 512 + 1 * d.val = d.val; omega
  | ⟨1, _⟩ => show win0_1.index t (1 : Fin 2) * 512 + 1 * cc.val = cc.val; omega

/-- The query biases' block is the query biases. -/
theorem iblk2_apply (c : Dev nD) (t : Fin cfg0.N) (d : Fin 512) :
    (iblk (F := Ideal) m c 2 t : S512.Idx → EReal) (ix1 d)
      = (m ((c : Thread nD τ).loc main_arg2) : S512.Idx → EReal) (ix1 d) := by
  unfold iblk
  show V m c main_arg2 (((cfg0.win 2).blk t).view.emb (ix1 d)) = _
  refine (congrFun (V_main_arg2 m c) _).trans ?_
  have e0 := idx2 t
  refine congrArg _ (funext fun a => Fin.ext ?_)
  match a with
  | ⟨0, _⟩ => show win0_2.index t (0 : Fin 1) * 512 + 1 * d.val = d.val; omega

/-- The key weights' block is the key weights. -/
theorem iblk3_apply (c : Dev nD) (t : Fin cfg0.N) (d cc : Fin 512) :
    (iblk (F := Ideal) m c 3 t : S512x512.Idx → EReal) (ix2 d cc)
      = (m ((c : Thread nD τ).loc main_arg3) : S512x512.Idx → EReal) (ix2 d cc) := by
  unfold iblk
  show V m c main_v2 (((cfg0.win 3).blk t).view.emb (ix2 d cc)) = _
  refine (congrFun (V_main_v2 m c) _).trans ?_
  obtain ⟨e0, e1⟩ := idx3 t
  refine congrArg _ (funext fun a => Fin.ext ?_)
  match a with
  | ⟨0, _⟩ => show win0_3.index t (0 : Fin 2) * 512 + 1 * d.val = d.val; omega
  | ⟨1, _⟩ => show win0_3.index t (1 : Fin 2) * 512 + 1 * cc.val = cc.val; omega

/-- The key biases' block is the key biases. -/
theorem iblk4_apply (c : Dev nD) (t : Fin cfg0.N) (d : Fin 512) :
    (iblk (F := Ideal) m c 4 t : S512.Idx → EReal) (ix1 d)
      = (m ((c : Thread nD τ).loc main_arg4) : S512.Idx → EReal) (ix1 d) := by
  unfold iblk
  show V m c main_arg4 (((cfg0.win 4).blk t).view.emb (ix1 d)) = _
  refine (congrFun (V_main_arg4 m c) _).trans ?_
  have e0 := idx4 t
  refine congrArg _ (funext fun a => Fin.ext ?_)
  match a with
  | ⟨0, _⟩ => show win0_4.index t (0 : Fin 1) * 512 + 1 * d.val = d.val; omega

/-- The value weights' block is the value weights. -/
theorem iblk5_apply (c : Dev nD) (t : Fin cfg0.N) (d cc : Fin 512) :
    (iblk (F := Ideal) m c 5 t : S512x512.Idx → EReal) (ix2 d cc)
      = (m ((c : Thread nD τ).loc main_arg5) : S512x512.Idx → EReal) (ix2 d cc) := by
  unfold iblk
  show V m c main_v3 (((cfg0.win 5).blk t).view.emb (ix2 d cc)) = _
  refine (congrFun (V_main_v3 m c) _).trans ?_
  obtain ⟨e0, e1⟩ := idx5 t
  refine congrArg _ (funext fun a => Fin.ext ?_)
  match a with
  | ⟨0, _⟩ => show win0_5.index t (0 : Fin 2) * 512 + 1 * d.val = d.val; omega
  | ⟨1, _⟩ => show win0_5.index t (1 : Fin 2) * 512 + 1 * cc.val = cc.val; omega

/-- The value biases' block is the value biases. -/
theorem iblk6_apply (c : Dev nD) (t : Fin cfg0.N) (d : Fin 512) :
    (iblk (F := Ideal) m c 6 t : S512.Idx → EReal) (ix1 d)
      = (m ((c : Thread nD τ).loc main_arg6) : S512.Idx → EReal) (ix1 d) := by
  unfold iblk
  show V m c main_arg6 (((cfg0.win 6).blk t).view.emb (ix1 d)) = _
  refine (congrFun (V_main_arg6 m c) _).trans ?_
  have e0 := idx6 t
  refine congrArg _ (funext fun a => Fin.ext ?_)
  match a with
  | ⟨0, _⟩ => show win0_6.index t (0 : Fin 1) * 512 + 1 * d.val = d.val; omega

end Cert.KernelIdeal.Blocks

end
-- ==== Proof.KI.Inv.lean ====
/-
  The invariant of the grid walk, at the ideal instance and in the specification's words: after the
  body at point 8·b + kt the query cache holds the query projection of batch row b, and the
  accumulator holds the sum of the contributions of key tiles 0 … kt of that row; at a row's last tile
  the output block holds that complete sum.
-/
import proofs.«181125_j22428319220703_1_alg».proof.Proof.KI.Value
import proofs.«181125_j22428319220703_1_alg».proof.Proof.KI.Step
import proofs.«181125_j22428319220703_1_alg».proof.Proof.KI.Blocks

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Attn Idealize.ShloMosaic.ValueIdx
open Cert.KernelIdeal.PayIx Cert.KernelIdeal.Blocks

variable (m : (ℓ : Loc nD τ sig) → Buf (Elt Ideal) ℓ)

/-- The batch row and the key tile of position `n`. -/
def bOf (n : ℕ) : Fin 8 := ⟨n / 8 % 8, Nat.mod_lt _ (by decide)⟩
def ktOf (n : ℕ) : Fin 8 := ⟨n % 8, Nat.mod_lt _ (by decide)⟩

/-- The argument arrays by coordinates. -/
abbrev aX (c : Dev nD) : Arr3 := arr3 (m ((c : Thread nD τ).loc main_arg0))
abbrev aWq (c : Dev nD) : Mat := mat (m ((c : Thread nD τ).loc main_arg1))
abbrev abq (c : Dev nD) : Vec1 := vec1 (m ((c : Thread nD τ).loc main_arg2))
abbrev aWk (c : Dev nD) : Mat := mat (m ((c : Thread nD τ).loc main_arg3))
abbrev abk (c : Dev nD) : Vec1 := vec1 (m ((c : Thread nD τ).loc main_arg4))
abbrev aWv (c : Dev nD) : Mat := mat (m ((c : Thread nD τ).loc main_arg5))
abbrev abv (c : Dev nD) : Vec1 := vec1 (m ((c : Thread nD τ).loc main_arg6))

theorem lt64 (t : Fin cfg0.N) : t.val < 64 := lt_of_lt_of_eq t.isLt (show cfg0.N = 64 from N_0)

/-- The input block at a point is the batch row's slab of the first argument. -/
theorem hx0 (c : Dev nD) (t : Fin cfg0.N) (q : Fin 2048) (cc : Fin 512) :
    (iblk (F := Ideal) m c 0 t : S1x2048x512.Idx → EReal) (ix3 (0 : Fin 1) q cc) = aX m c (bOf t.val) q cc := by
  rw [iblk0_apply]
  show _ = m ((c : Thread nD τ).loc main_arg0) (ix3 (bOf t.val) q cc)
  have hb : (⟨t.val / 8, by have := lt64 t; omega⟩ : Fin 8) = bOf t.val :=
    Fin.ext (by have := lt64 t; show t.val / 8 = t.val / 8 % 8; omega)
  rw [hb]

/-- The key tile's rows at a point. -/
theorem hv8 (c : Dev nD) (t : Fin cfg0.N) (j : Fin 256) (cc : Fin 512) :
    tileOf (F := Ideal) (grid0.coords t) (iblk (F := Ideal) m c 0 t) (ix2 j cc) = aX m c (bOf t.val) (tileRow (ktOf t.val) j) cc := by
  have hk := coords_kt t
  have hj : 256 * ((grid0.coords t) 1).val + j.val < 2048 := by have := j.isLt; have := Nat.mod_lt t.val (show 0 < 8 by decide); omega
  rw [tileOf_apply (F := Ideal) (grid0.coords t) (iblk (F := Ideal) m c 0 t) j cc hj]
  have hr : (⟨256 * ((grid0.coords t) 1).val + j.val, hj⟩ : Fin 2048) = tileRow (ktOf t.val) j :=
    Fin.ext (by show 256 * ((grid0.coords t) 1).val + j.val = 256 * (t.val % 8) + j.val; rw [hk])
  rw [hr]
  exact hx0 m c t _ cc

/-- What the scratch buffers hold after position `n`, in the specification's words. -/
structure Inv (c : Dev nD) (n : ℕ) (h : n < cfg0.N) : Prop where
  q : ∀ (t : Fin 2048) (d : Fin 512), ((outsAt0 (F := Ideal) m c n h).2.1 : S2048x512.Idx → EReal) (ix2 t d)
        = proj (aX m c) (aWq m c) (abq m c) (bOf n) t d
  acc : ∀ (t : Fin 2048) (d : Fin 512), ((outsAt0 (F := Ideal) m c n h).2.2 : S2048x512.Idx → EReal) (ix2 t d)
        = accK (aX m c) (aWq m c) (abq m c) (aWk m c) (abk m c) (aWv m c) (abv m c) (bOf n) ((ktOf n).val + 1) t d

/-- One step at a point over a cache and an accumulator that satisfy the invariant's words. -/
theorem step_at (c : Dev nD) (t : Fin cfg0.N) (q : Vec Ideal S2048x512 .bf16) (acc : Vec Ideal S2048x512 .f32)
    (hq : ∀ (t' : Fin 2048) (d : Fin 512), q (ix2 t' d) = proj (aX m c) (aWq m c) (abq m c) (bOf t.val) t' d)
    (hacc : ∀ (t' : Fin 2048) (d : Fin 512), acc (ix2 t' d)
      = accK (aX m c) (aWq m c) (abq m c) (aWk m c) (abk m c) (aWv m c) (abv m c) (bOf t.val) (ktOf t.val).val t' d)
    (t' : Fin 2048) (d : Fin 512) :
    stepOf (F := Ideal) (grid0.coords t) (iblk (F := Ideal) m c 0 t) (iblk (F := Ideal) m c 3 t) (iblk (F := Ideal) m c 4 t)
        (iblk (F := Ideal) m c 5 t) (iblk (F := Ideal) m c 6 t) q acc (ix2 t' d)
      = accK (aX m c) (aWq m c) (abq m c) (aWk m c) (abk m c) (aWv m c) (abv m c) (bOf t.val) ((ktOf t.val).val + 1) t' d := by
  unfold stepOf
  exact step_apply (aX m c) (aWq m c) (abq m c) (aWk m c) (abk m c) (aWv m c) (abv m c) (grid0.coords t) (bOf t.val) (ktOf t.val)
    (coords_kt t) _ (hv8 m c t) _ (iblk3_apply m c t) _ (iblk4_apply m c t) _ (iblk5_apply m c t) _ (iblk6_apply m c t)
    q hq acc hacc t' d

theorem inv (c : Dev nD) : ∀ (n : ℕ) (h : n < cfg0.N), Inv m c n h
  | 0, h => by
    have e := outsAt0_A (F := Ideal) m c ⟨0, h⟩ rfl (by dsimp only; omega)
    refine ⟨fun t d => ?_, fun t d => ?_⟩
    · rw [show outsAt0 (F := Ideal) m c 0 h = _ from e]
      dsimp only
      rw [sout_A_0]
      exact q_apply (aX m c) (aWq m c) (abq m c) (bOf 0) _ (hx0 m c ⟨0, h⟩) _ (iblk1_apply m c ⟨0, h⟩) _ (iblk2_apply m c ⟨0, h⟩) t d
    · rw [show outsAt0 (F := Ideal) m c 0 h = _ from e]
      dsimp only
      rw [sout_A_1]
      exact step_at m c ⟨0, h⟩ _ _
        (fun t' d' => q_apply (aX m c) (aWq m c) (abq m c) (bOf 0) _ (hx0 m c ⟨0, h⟩) _ (iblk1_apply m c ⟨0, h⟩) _ (iblk2_apply m c ⟨0, h⟩) t' d')
        (fun t' d' => zero_apply _ _ _ _ _ _ _ _ t' d') t d
  | n + 1, h => by
    have ih := inv c n (Nat.lt_of_succ_lt h)
    have hN : n + 1 < 64 := lt64 ⟨n + 1, h⟩
    by_cases h0 : (n + 1) % 8 = 0
    · have h1 : ¬(n + 1) % 8 = 7 := by omega
      have e := outsAt0_A (F := Ideal) m c ⟨n + 1, h⟩ h0 h1
      have hq : ∀ (t' : Fin 2048) (d' : Fin 512), k0_pay3 (F := Ideal) (iblk (F := Ideal) m c 0 ⟨n + 1, h⟩) (iblk (F := Ideal) m c 1 ⟨n + 1, h⟩) (iblk (F := Ideal) m c 2 ⟨n + 1, h⟩) (ix2 t' d')
          = proj (aX m c) (aWq m c) (abq m c) (bOf (n + 1)) t' d' :=
        fun t' d' => q_apply (aX m c) (aWq m c) (abq m c) (bOf (n + 1)) _ (hx0 m c ⟨n + 1, h⟩) _ (iblk1_apply m c ⟨n + 1, h⟩) _ (iblk2_apply m c ⟨n + 1, h⟩) t' d'
      refine ⟨fun t d => ?_, fun t d => ?_⟩
      · rw [show outsAt0 (F := Ideal) m c (n + 1) h = _ from e]
        dsimp only
        rw [sout_A_0]
        exact hq t d
      · rw [show outsAt0 (F := Ideal) m c (n + 1) h = _ from e]
        dsimp only
        rw [sout_A_1]
        refine step_at m c ⟨n + 1, h⟩ _ _ hq (fun t' d' => ?_) t d
        have hk : (ktOf (n + 1)).val = 0 := h0
        show k0_pay4 (F := Ideal) (ix2 t' d') = accK _ _ _ _ _ _ _ (bOf (n + 1)) (ktOf (n + 1)).val t' d'
        rw [hk]
        exact zero_apply _ _ _ _ _ _ _ _ t' d'
    · have hb : bOf n = bOf (n + 1) := Fin.ext (by show n / 8 % 8 = (n + 1) / 8 % 8; omega)
      have hk : (ktOf n).val + 1 = (ktOf (n + 1)).val := by show n % 8 + 1 = (n + 1) % 8; omega
      have hq : ∀ (t' : Fin 2048) (d' : Fin 512), ((outsAt0 (F := Ideal) m c n (Nat.lt_of_succ_lt h)).2.1 : S2048x512.Idx → EReal) (ix2 t' d')
          = proj (aX m c) (aWq m c) (abq m c) (bOf (n + 1)) t' d' := fun t' d' => by rw [ih.q, hb]
      have hacc : ∀ (t' : Fin 2048) (d' : Fin 512), ((outsAt0 (F := Ideal) m c n (Nat.lt_of_succ_lt h)).2.2 : S2048x512.Idx → EReal) (ix2 t' d')
          = accK (aX m c) (aWq m c) (abq m c) (aWk m c) (abk m c) (aWv m c) (abv m c) (bOf (n + 1)) (ktOf (n + 1)).val t' d' :=
        fun t' d' => by rw [ih.acc, hb, hk]
      by_cases h1 : (n + 1) % 8 = 7
      · have e := outsAt0_C (F := Ideal) m c ⟨n + 1, h⟩ h0 h1
        refine ⟨fun t d => ?_, fun t d => ?_⟩
        · rw [show outsAt0 (F := Ideal) m c (n + 1) h = _ from e]
          exact hq t d
        · rw [show outsAt0 (F := Ideal) m c (n + 1) h = _ from e]
          dsimp only
          rw [sout_C_1]
          exact step_at m c ⟨n + 1, h⟩ _ _ hq hacc t d
      · have e := outsAt0_B (F := Ideal) m c ⟨n + 1, h⟩ h0 h1
        refine ⟨fun t d => ?_, fun t d => ?_⟩
        · rw [show outsAt0 (F := Ideal) m c (n + 1) h = _ from e]
          exact hq t d
        · rw [show outsAt0 (F := Ideal) m c (n + 1) h = _ from e]
          dsimp only
          rw [sout_B_1]
          exact step_at m c ⟨n + 1, h⟩ _ _ hq hacc t d

/-- At a row's last key tile the output block holds the complete sum. -/
theorem out_last (c : Dev nD) (t : Fin cfg0.N) (h1 : t.val % 8 = 7) (q : Fin 2048) (d : Fin 512) :
    ((outsAt0 (F := Ideal) m c t.val t.isLt).1 : S1x2048x512.Idx → EReal) (ix3 (0 : Fin 1) q d)
      = accK (aX m c) (aWq m c) (abq m c) (aWk m c) (abk m c) (aWv m c) (abv m c) (bOf t.val) 8 q d := by
  have h0 : ¬t.val % 8 = 0 := by omega
  have hN := lt64 t
  obtain ⟨n, hn⟩ := t
  cases n with
  | zero => exact absurd h1 (by dsimp only; omega)
  | succ n =>
    have ih := inv m c n (Nat.lt_of_succ_lt hn)
    have hb : bOf n = bOf (n + 1) := Fin.ext (by show n / 8 % 8 = (n + 1) / 8 % 8; dsimp only at h0; omega)
    have hk : (ktOf n).val + 1 = (ktOf (n + 1)).val := by show n % 8 + 1 = (n + 1) % 8; dsimp only at h0; omega
    have e := outsAt0_C (F := Ideal) m c ⟨n + 1, hn⟩ h0 h1
    rw [show outsAt0 (F := Ideal) m c (n + 1) hn = _ from e]
    dsimp only
    rw [out_C_7, out_apply]
    have h8 : (ktOf (n + 1)).val + 1 = 8 := by show (n + 1) % 8 + 1 = 8; dsimp only at h1; omega
    rw [← h8]
    have hq : ∀ (t' : Fin 2048) (d' : Fin 512), ((outsAt0 (F := Ideal) m c n (Nat.lt_of_succ_lt hn)).2.1 : S2048x512.Idx → EReal) (ix2 t' d')
        = proj (aX m c) (aWq m c) (abq m c) (bOf (n + 1)) t' d' := fun t' d' => by rw [ih.q, hb]
    have hacc : ∀ (t' : Fin 2048) (d' : Fin 512), ((outsAt0 (F := Ideal) m c n (Nat.lt_of_succ_lt hn)).2.2 : S2048x512.Idx → EReal) (ix2 t' d')
        = accK (aX m c) (aWq m c) (abq m c) (aWk m c) (abk m c) (aWv m c) (abv m c) (bOf (n + 1)) (ktOf (n + 1)).val t' d' :=
      fun t' d' => by rw [ih.acc, hb, hk]
    exact step_at m c ⟨n + 1, hn⟩ _ _ hq hacc q d

end Cert.KernelIdeal.Body

end
-- ==== Proof.KI.Final.lean ====
/-
  The attention rows as the output array holds them after the run: the last key tile of every batch
  row writes that row's block, the eight blocks tile the array, so the array is the specification's
  complete accumulator read by coordinates.
-/
import proofs.«181125_j22428319220703_1_alg».proof.Proof.KI.Inv

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Attn Idealize.ShloMosaic.ValueIdx
open Cert.KernelIdeal.PayIx Cert.KernelIdeal.Blocks

variable (m : (ℓ : Loc nD τ sig) → Buf (Elt Ideal) ℓ) (ρ : Dev nD → PrngReg)

/-- The attention rows of all batch rows, as contents of the kernel's output array. -/
def G7 (c : Dev nD) : S8x2048x512.Idx → EReal := fun i =>
  accK (aX m c) (aWq m c) (abq m c) (aWk m c) (abk m c) (aWv m c) (abv m c)
    ⟨(i 0).val, (i 0).isLt⟩ 8 ⟨(i 1).val, (i 1).isLt⟩ ⟨(i 2).val, (i 2).isLt⟩

/-- The output window's block index at a point: the batch row, then zeros. -/
theorem idx_facts7 : ∀ t : Fin cfg0.N, win0_7.index t (0 : Fin 3) = t.val / 8 ∧ win0_7.index t (1 : Fin 3) = 0 ∧ win0_7.index t (2 : Fin 3) = 0 :=
  (by decide +kernel : ∀ t : Fin grid0.N, win0_7.index t (0 : Fin 3) = t.val / 8 ∧ win0_7.index t (1 : Fin 3) = 0 ∧ win0_7.index t (2 : Fin 3) = 0)

/-- Every batch row's block is written back at some point. -/
theorem idx_onto7 : ∀ q0 : Fin 8, ∃ t : Fin cfg0.N, (cfg0.win 7).flush t = true ∧ win0_7.index t (0 : Fin 3) = q0.val :=
  (by decide +kernel : ∀ q0 : Fin 8, ∃ t : Fin grid0.N, win0_7.flush t = true ∧ win0_7.index t (0 : Fin 3) = q0.val)

/-- What a last key tile writes back is its batch row's block of `G7`. -/
theorem flushed_eq (c : Dev nD) (t : Fin cfg0.N) (hf : (cfg0.win 7).flush t = true) :
    (dats m 0 c).flushed 7 t = ((cfg0.win 7).blk t).view.read (Elt Ideal) (G7 m c) := by
  have h7 : t.val % 8 = 7 := (flush0_7 t).mp hf
  have hN := lt64 t
  show (cfg0.win 7).cut (grid0.coords t) ((dats m 0 c).after 7 t) = _
  rw [after0_7]
  obtain ⟨e0, e1, e2⟩ := idx_facts7 t
  funext j
  have hj0 : (j 0).val < 1 := (j 0).isLt
  have hj1 : (j 1).val < 2048 := (j 1).isLt
  have hj2 : (j 2).val < 512 := (j 2).isLt
  have hjx : ((cfg0.win 7).xinj (grid0.coords t) j : S1x2048x512.Idx) = ix3 (0 : Fin 1) (⟨(j 1).val, hj1⟩ : Fin 2048) (⟨(j 2).val, hj2⟩ : Fin 512) := by
    funext a; apply Fin.ext
    match a with
    | ⟨0, _⟩ => show (j 0).val = 0; omega
    | ⟨1, _⟩ => rfl
    | ⟨2, _⟩ => rfl
  show ((outsAt0 (F := Ideal) m c t.val t.isLt).1 : S1x2048x512.Idx → EReal) ((cfg0.win 7).xinj (grid0.coords t) j) = G7 m c (((cfg0.win 7).blk t).view.emb j)
  rw [hjx, out_last m c t h7]
  unfold G7
  have hb : (((cfg0.win 7).blk t).view.emb j 0).val = (bOf t.val).val := by
    show win0_7.index t (0 : Fin 3) * 1 + 1 * (j 0).val = t.val / 8 % 8; omega
  have h1 : (((cfg0.win 7).blk t).view.emb j 1).val = (j 1).val := by
    show win0_7.index t (1 : Fin 3) * 2048 + 1 * (j 1).val = (j 1).val; omega
  have h2 : (((cfg0.win 7).blk t).view.emb j 2).val = (j 2).val := by
    show win0_7.index t (2 : Fin 3) * 512 + 1 * (j 2).val = (j 2).val; omega
  congr 1
  · exact (Fin.ext hb).symm
  · exact (Fin.ext h1).symm
  · exact (Fin.ext h2).symm

theorem mem_blk7 (t : Fin cfg0.N) (i : S8x2048x512.Idx) :
    i ∈ ((cfg0.win 7).blk t).view.set ↔ ∀ a : Fin 3, win0_7.index t a * S1x2048x512.size a ≤ (i a).val ∧ (i a).val < win0_7.index t a * S1x2048x512.size a + S1x2048x512.size a := by
  show i ∈ ((View.whole main_v4).slice (win0_7.rect t)).set ↔ _
  rw [View.set_slice_whole, Rect.mem_set_unit]
  exact Iff.rfl

/-- The eight written blocks cover the array. -/
theorem cover7 (i : S8x2048x512.Idx) : ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 512 := (i 2).isLt
  obtain ⟨t, hf, ht⟩ := idx_onto7 ⟨(i 0).val, hi0⟩
  obtain ⟨e0, e1, e2⟩ := idx_facts7 t
  refine ⟨t, hf, ?_⟩
  rw [mem_blk7]
  have q0 : win0_7.index t (0 : Fin 3) = (i 0).val := ht
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 512 ≤ (i 2).val ∧ (i 2).val < win0_7.index t (2 : Fin 3) * 512 + 512; omega

/-- So the output array ends holding `G7`. -/
theorem final7 (c : Dev nD) : (dats m 0 c).arrAt 7 cfg0.N = G7 m c :=
  (dats m 0 c).arrAt_eq_of_cover 7 (G7 m c) (flushed_eq m c) (cover7)

end Cert.KernelIdeal.Body

end
-- ==== Proof.LibConcat3.lean ====
/-
  A concatenation of two rank-3 arrays along the last axis, read at coordinates.
-/
import Idealize.ShloMosaic.PureOps.Ideal
import Idealize.ShloMosaic.Lib.ValueIdx
import Idealize.ShloMosaic.Lib.Pipeline.Value

namespace Cert.LibConcat3

open Idealize.ShloMosaic

/-- Two arrays of extents 8 × 2048 × 512 laid end to end along the last axis, read at the coordinates (x, y, z) of
    the 8 × 2048 × 1024 result: the first array at (x, y, z) when z < 512, otherwise the second array at
    (x, y, z − 512). It holds for every element type and for any proof of the shape fact. -/
theorem concat_last_apply {α : Type} (a b : (⟨3, ![8, 2048, 512]⟩ : Shape).Idx → α)
    (h : Shape.Concatenates [(⟨3, ![8, 2048, 512]⟩ : Shape), ⟨3, ![8, 2048, 512]⟩] ⟨3, ![8, 2048, 1024]⟩ 2)
    (x : Fin 8) (y : Fin 2048) (z : Fin 1024) :
    concatenate (⟨3, ![8, 2048, 1024]⟩ : Shape) 2 [⟨⟨3, ![8, 2048, 512]⟩, a⟩, ⟨⟨3, ![8, 2048, 512]⟩, b⟩] h (ValueIdx.ix3 x y z)
      = if hz : z.val < 512 then a (ValueIdx.ix3 x y ⟨z.val, hz⟩) else b (ValueIdx.ix3 x y ⟨z.val - 512, by omega⟩) := by
  by_cases hz : z.val < 512
  · rw [dif_pos hz]
    exact concatenate_pair_apply_left (2 : Fin 3) a b h (ValueIdx.ix3 x y z) rfl (ValueIdx.ix3 x y ⟨z.val, hz⟩)
      (fun c => by match c with | ⟨0, _⟩ => rfl | ⟨1, _⟩ => rfl | ⟨2, _⟩ => rfl)
  · rw [dif_neg hz]
    exact concatenate_pair_apply_right (2 : Fin 3) a b h (ValueIdx.ix3 x y z) rfl rfl
      (ValueIdx.ix3 x y ⟨z.val - 512, by omega⟩)
      (fun c hc => by
        match c, hc with
        | ⟨0, _⟩, _ => rfl
        | ⟨1, _⟩, _ => rfl
        | ⟨2, _⟩, hc => exact absurd rfl hc)
      (by show z.val - 512 + 512 = z.val; omega)

end Cert.LibConcat3
-- ==== Proof.KI.Tail.lean ====
/-
  The two host operations after the region of the tiled program.

  The attention block leaves the region in sixteen bits; the host widens it (the identity at the ideal values)
  and joins it to the input along the last axis: the result row is the input row followed by the attention row.
-/
import proofs.«181125_j22428319220703_1_alg».proof.Proof.Gen.KernelIdeal.Frame
import proofs.«181125_j22428319220703_1_alg».proof.Proof.LibConcat3
import Idealize.ShloMosaic.Lib.ValueIdx
import Idealize.ShloMosaic.Lib.Pipeline.Value
import Idealize.ShloMosaic.Lib.StableHlo.Run

set_option maxRecDepth 16384

noncomputable section

namespace Cert.KernelIdeal.Tail

open Idealize.ShloMosaic Idealize.ShloMosaic.ValueIdx Idealize.ShloMosaic.TcCoe Idealize.SL.Sem Cert.KernelIdeal Cert.KernelIdeal.Gen

/-- After the two host operations the result array is the input joined, along the last axis, with the region's
    attention array. -/
theorem tail_v6 (W : Valuation τ sig (Elt Ideal)) :
    StableHlo.after (hostOps1 (F := Ideal)) W (Proc.devRef .tc main_v6)
      = concatenate S8x2048x1024 2 [⟨S8x2048x512, W (Proc.devRef .tc main_arg0)⟩,
          ⟨S8x2048x512, (W (Proc.devRef .tc main_v4) : S8x2048x512.Idx → EReal)⟩]
          concatenates_S8x2048x512_S8x2048x512_S8x2048x1024_d2 := by
  simp only [hostOps1, StableHlo.after_cons, StableHlo.after_nil]
  refine (StableHlo.binary_result _ _ _ _ _ _ _ _).trans ?_
  refine congrArg₂ (fun (a b : S8x2048x512.Idx → EReal) => concatenate S8x2048x1024 2
      [⟨S8x2048x512, a⟩, ⟨S8x2048x512, b⟩] concatenates_S8x2048x512_S8x2048x512_S8x2048x1024_d2) ?_ ?_
  · exact StableHlo.unary_result_ne _ _ _ _ _ W (by decide)
  · exact (StableHlo.unary_result _ _ _ _ _ W).trans rfl

/-- Read at an entry: the first 512 columns of a result row are the input row, the last 512 the attention row. -/
theorem tail_v6_apply (W : Valuation τ sig (Elt Ideal)) (x : Fin 8) (y : Fin 2048) (z : Fin 1024) :
    (StableHlo.after (hostOps1 (F := Ideal)) W (Proc.devRef .tc main_v6) : S8x2048x1024.Idx → EReal) (ix3 x y z)
      = if hz : z.val < 512 then (W (Proc.devRef .tc main_arg0) : S8x2048x512.Idx → EReal) (ix3 x y ⟨z.val, hz⟩)
        else (W (Proc.devRef .tc main_v4) : S8x2048x512.Idx → EReal) (ix3 x y ⟨z.val - 512, by omega⟩) :=
  (congrFun (tail_v6 W) (ix3 x y z)).trans (Cert.LibConcat3.concat_last_apply _ _ _ x y z)

end Cert.KernelIdeal.Tail

end
-- ==== Proof.KI.Run.lean ====
/-
  The tiled program's run, read: its result array is the input rows followed by the attention rows,
  in the specification's words, and its argument arrays end unchanged.
-/
import proofs.«181125_j22428319220703_1_alg».proof.Proof.KI.Final
import proofs.«181125_j22428319220703_1_alg».proof.Proof.KI.Tail

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Attn Idealize.ShloMosaic.ValueIdx
open Cert.KernelIdeal.PayIx Cert.KernelIdeal.Blocks Cert.KernelIdeal.Tail

variable (m : (ℓ : Loc nD τ sig) → Buf (Elt Ideal) ℓ) (ρ : Dev nD → PrngReg)

/-- The tiled program's result: the specification's `KOut` of the argument arrays, by coordinates. -/
def kOut (c : Dev nD) : Buf (Elt Ideal) ((c.tc : Thread nD τ).loc main_v6) := fun i =>
  KOut (aX m c) (aWq m c) (abq m c) (aWk m c) (abk m c) (aWv m c) (abv m c)
    ⟨(i 0).val, (i 0).isLt⟩ ⟨(i 1).val, (i 1).isLt⟩ ⟨(i 2).val, (i 2).isLt⟩

/-- At coordinates: an input entry in the first 512 columns, an attention entry after them. -/
theorem kOut_apply (c : Dev nD) (x : Fin 8) (y : Fin 2048) (z : Fin 1024) :
    (kOut m c : S8x2048x1024.Idx → EReal) (ix3 x y z)
      = if hz : z.val < 512 then (m ((c : Thread nD τ).loc main_arg0) : S8x2048x512.Idx → EReal) (ix3 x y ⟨z.val, hz⟩)
        else G7 m c (ix3 x y ⟨z.val - 512, by omega⟩) := by
  unfold kOut KOut G7
  by_cases hz : z.val < 512
  · rw [dif_pos hz]; exact dif_pos hz
  · rw [dif_neg hz]; exact dif_neg hz

/-- The lines after the region join the input rows and the attention rows the region wrote. -/
theorem result_eq (c : Dev nD) :
    Pipeline.afterTail₀ cfgs (dats m) 0 (V0 m) [hostOps1] c main_v6 = kOut m c := by
  funext i
  obtain ⟨x, y, z, rfl⟩ : ∃ (x : Fin 8) (y : Fin 2048) (z : Fin 1024), i = ix3 x y z := ⟨i 0, i 1, i 2, eq_ix3 i⟩
  refine Eq.trans ?_ (kOut_apply m c x y z).symm
  refine (tail_v6_apply (Pipeline.withArrays spec0 c (V0 m c) fun w => (dats m 0 c).arrAt w cfg0.N) x y z).trans ?_
  have e0 : (Pipeline.withArrays spec0 c (V0 m c) (fun w => (dats m 0 c).arrAt w cfg0.N) (Proc.devRef .tc main_arg0) : S8x2048x512.Idx → EReal)
      = (m ((c : Thread nD τ).loc main_arg0) : S8x2048x512.Idx → EReal) :=
    (Pipeline.withArrays_of_ne spec0 c (V0 m c) _ main_arg0 (by exact (by decide : ∀ w, Pipeline.arrRef spec0 w ≠ main_arg0))).trans (V_main_arg0 m c)
  have e4 : (Pipeline.withArrays spec0 c (V0 m c) (fun w => (dats m 0 c).arrAt w cfg0.N) (Proc.devRef .tc main_v4) : S8x2048x512.Idx → EReal)
      = G7 m c :=
    (Pipeline.withArrays_arr spec0 launch0.win.arr_inj c (V0 m c) _ 7).trans (final7 m c)
  rw [e0, e4]

/-- Every weakly fair execution of the tiled program terminates with its result at `kOut` and its
    argument arrays unchanged. -/
theorem run : θ_run defs (onTc (τ := τ) (main (F := Ideal))) ⟨m, fun _ => 0, ρ⟩ fun r => ∀ c : Dev nD,
      r.2.mem ((c.tc : Thread nD τ).loc main_v6) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Body

end
-- ==== Proof.RefRun.lean ====
/-
  The plain program's run.

  The program is the sequence of its 49 operations, each writing one buffer from the buffers it reads; its
  result is the composition of the stages. The sequence is cut into five consecutive pieces: the three
  projections and the score table (13 operations), the mask (17), the scaled scores up to the weights (12), the
  column sums, the normalised weights and the attention rows (6), and the joining of the input rows with the
  attention rows (1). What the buffers hold after two pieces
  run one after the other is what they hold after the second piece from what the first piece left. For each
  piece, read from ANY contents of the buffers before it: the buffer it hands on is that piece's stage applied
  to the buffers it was handed, and the buffers it does not write keep their contents. Chaining the five pieces
  from the launch contents gives the last stage of the arguments.
-/
import proofs.«181125_j22428319220703_1_alg».proof.Proof.RefReadP

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The 49 operations, in order. -/
abbrev ops : List (HloOp τ sig (Elt F)) :=
  [ binary main_arg0 main_arg1 main_v0 ((fun l r => Host.dotGeneral dot_S8x2048x512_S512x512_S8x2048x512_2_1_01_0_n_n none l r) : (⟨S8x2048x512, .f32⟩ : BufTy).Contents (Elt F) → (⟨S512x512, .f32⟩ : BufTy).Contents (Elt F) → (⟨S8x2048x512, .f32⟩ : BufTy).Contents (Elt F)),
    unary main_arg2 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v0 main_v2 main_v3 (addf : (⟨S8x2048x512, .f32⟩ : BufTy).Contents (Elt F) → (⟨S8x2048x512, .f32⟩ : BufTy).Contents (Elt F) → (⟨S8x2048x512, .f32⟩ : BufTy).Contents (Elt F)),
    binary main_arg0 main_arg3 main_v4 ((fun l r => Host.dotGeneral dot_S8x2048x512_S512x512_S8x2048x512_2_1_01_0_n_n none l r) : (⟨S8x2048x512, .f32⟩ : BufTy).Contents (Elt F) → (⟨S512x512, .f32⟩ : BufTy).Contents (Elt F) → (⟨S8x2048x512, .f32⟩ : BufTy).Contents (Elt F)),
    unary main_arg4 main_v5 (broadcastInDim S1x1x512 ![2] bcast_S512_S1x1x512_2 : (⟨S512, .f32⟩ : BufTy).Contents (Elt F) → (⟨S1x1x512, .f32⟩ : BufTy).Contents (Elt F)),
    unary main_v5 main_v6 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v4 main_v6 main_v7 (addf : (⟨S8x2048x512, .f32⟩ : BufTy).Contents (Elt F) → (⟨S8x2048x512, .f32⟩ : BufTy).Contents (Elt F) → (⟨S8x2048x512, .f32⟩ : BufTy).Contents (Elt F)),
    binary main_arg0 main_arg5 main_v8 ((fun l r => Host.dotGeneral dot_S8x2048x512_S512x512_S8x2048x512_2_1_01_0_n_n none l r) : (⟨S8x2048x512, .f32⟩ : BufTy).Contents (Elt F) → (⟨S512x512, .f32⟩ : BufTy).Contents (Elt F) → (⟨S8x2048x512, .f32⟩ : BufTy).Contents (Elt F)),
    unary main_arg6 main_v9 (broadcastInDim S1x1x512 ![2] bcast_S512_S1x1x512_2 : (⟨S512, .f32⟩ : BufTy).Contents (Elt F) → (⟨S1x1x512, .f32⟩ : BufTy).Contents (Elt F)),
    unary main_v9 main_v10 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v8 main_v10 main_v11 (addf : (⟨S8x2048x512, .f32⟩ : BufTy).Contents (Elt F) → (⟨S8x2048x512, .f32⟩ : BufTy).Contents (Elt F) → (⟨S8x2048x512, .f32⟩ : BufTy).Contents (Elt F)),
    binary main_v3 main_v7 main_v12 ((fun l r => Host.dotGeneral dot_S8x2048x512_S8x2048x512_S8x2048x2048_2_2_1_1_0_0 none l r) : (⟨S8x2048x512, .f32⟩ : BufTy).Contents (Elt F) → (⟨S8x2048x512, .f32⟩ : BufTy).Contents (Elt F) → (⟨S8x2048x2048, .f32⟩ : BufTy).Contents (Elt F)),
    nullary main_c (constantI S_ 1 1#1),
    unary main_c main_v13 (broadcastInDim S2048x2048 ![] bcast_S_S2048x2048 : (⟨S_, .i1⟩ : BufTy).Contents (Elt F) → (⟨S2048x2048, .i1⟩ : BufTy).Contents (Elt F)),
    TRef.nullary (TRef.of (T := ⟨S2048x2048, .i32⟩) main_call0_v0) (iotaInDim S2048x2048 32 0),
    TRef.nullary (TRef.of (T := ⟨S_, .i32⟩) main_call0_c) (constantI S_ 32 0#32),
    TRef.unary (TRef.of (T := ⟨S_, .i32⟩) main_call0_c) (TRef.of (T := ⟨S2048x2048, .i32⟩) main_call0_v1) (broadcastInDim S2048x2048 ![] bcast_S_S2048x2048),
    TRef.binary (TRef.of (T := ⟨S2048x2048, .i32⟩) main_call0_v0) (TRef.of (T := ⟨S2048x2048, .i32⟩) main_call0_v1) (TRef.of (T := ⟨S2048x2048, .i32⟩) main_call0_v2) addi,
    TRef.nullary (TRef.of (T := ⟨S2048x2048, .i32⟩) main_call0_v3) (iotaInDim S2048x2048 32 1),
    TRef.binary (TRef.of (T := ⟨S2048x2048, .i32⟩) main_call0_v2) (TRef.of (T := ⟨S2048x2048, .i32⟩) main_call0_v3) (TRef.of (T := ⟨S2048x2048, .i1⟩) main_call0_v4) (cmpi .sge),
    TRef.nullary (TRef.of (T := ⟨S_, .i1⟩) main_call0_c_0) (constantI S_ 1 0#1),
    TRef.unary (TRef.of (T := ⟨S_, .i1⟩) main_call0_c_0) (TRef.of (T := ⟨S2048x2048, .i1⟩) main_call0_v5) (broadcastInDim S2048x2048 ![] bcast_S_S2048x2048),
    TRef.ternary (TRef.of (T := ⟨S2048x2048, .i1⟩) main_call0_v4) (TRef.of (T := ⟨S2048x2048, .i1⟩) main_call0_v5) (TRef.of (T := ⟨S2048x2048, .i1⟩) main_v13) (TRef.of (T := ⟨S2048x2048, .i1⟩) main_v14) select,
    unary main_v14 main_v15 (broadcastInDim S1x2048x2048 ![1, 2] bcast_S2048x2048_S1x2048x2048_1_2 : (⟨S2048x2048, .i1⟩ : BufTy).Contents (Elt F) → (⟨S1x2048x2048, .i1⟩ : BufTy).Contents (Elt F)),
    nullary main_cst (constant S_ .f32 0xFF800000#32),
    TRef.unary (TRef.of (T := ⟨S_, .f32⟩) main_cst) (TRef.of (T := ⟨S_, .f32⟩) main_call1_v0) id,
    TRef.unary (TRef.of (T := ⟨S1x2048x2048, .i1⟩) main_v15) (TRef.of (T := ⟨S8x2048x2048, .i1⟩) main_call1_v1) (broadcastInDim S8x2048x2048 ![0, 1, 2] bcast_S1x2048x2048_S8x2048x2048_0_1_2),
    TRef.unary (TRef.of (T := ⟨S_, .f32⟩) main_call1_v0) (TRef.of (T := ⟨S8x2048x2048, .f32⟩) main_call1_v2) (broadcastInDim S8x2048x2048 ![] bcast_S_S8x2048x2048),
    TRef.ternary (TRef.of (T := ⟨S8x2048x2048, .i1⟩) main_call1_v1) (TRef.of (T := ⟨S8x2048x2048, .f32⟩) main_call1_v2) (TRef.of (T := ⟨S8x2048x2048, .f32⟩) main_v12) (TRef.of (T := ⟨S8x2048x2048, .f32⟩) main_v16) select,
    nullary main_cst_0 (constant S_ .f32 0x41B504F3#32),
    unary main_cst_0 main_v17 (broadcastInDim S8x2048x2048 ![] bcast_S_S8x2048x2048 : (⟨S_, .f32⟩ : BufTy).Contents (Elt F) → (⟨S8x2048x2048, .f32⟩ : BufTy).Contents (Elt F)),
    binary main_v16 main_v17 main_v18 (Host.divf : (⟨S8x2048x2048, .f32⟩ : BufTy).Contents (Elt F) → (⟨S8x2048x2048, .f32⟩ : BufTy).Contents (Elt F) → (⟨S8x2048x2048, .f32⟩ : BufTy).Contents (Elt F)),
    nullary main_cst_1 (constant S_ .f32 0xFF800000#32),
    binary main_v18 main_cst_1 main_v19 ((fun x v => Host.reduce FloatOps.maximumf x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    nullary main_cst_2 (constant S_ .f32 0xFF800000#32),
    unary main_cst_2 main_v20 (broadcastInDim S8x2048 ![] bcast_S_S8x2048 : (⟨S_, .f32⟩ : BufTy).Contents (Elt F) → (⟨S8x2048, .f32⟩ : BufTy).Contents (Elt F)),
    binary main_v20 main_v19 main_v21 (maximumf : (⟨S8x2048, .f32⟩ : BufTy).Contents (Elt F) → (⟨S8x2048, .f32⟩ : BufTy).Contents (Elt F) → (⟨S8x2048, .f32⟩ : BufTy).Contents (Elt F)),
    unary main_v21 main_v22 (broadcastInDim S8x1x2048 ![0, 2] bcast_S8x2048_S8x1x2048_0_2 : (⟨S8x2048, .f32⟩ : BufTy).Contents (Elt F) → (⟨S8x1x2048, .f32⟩ : BufTy).Contents (Elt F)),
    unary main_v22 main_v23 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v18 main_v23 main_v24 (subf : (⟨S8x2048x2048, .f32⟩ : BufTy).Contents (Elt F) → (⟨S8x2048x2048, .f32⟩ : BufTy).Contents (Elt F) → (⟨S8x2048x2048, .f32⟩ : BufTy).Contents (Elt F)),
    unary main_v24 main_v25 (Host.exp : (⟨S8x2048x2048, .f32⟩ : BufTy).Contents (Elt F) → (⟨S8x2048x2048, .f32⟩ : BufTy).Contents (Elt F)),
    nullary main_cst_3 (constant S_ .f32 0x00000000#32),
    binary main_v25 main_cst_3 main_v26 ((fun x v => Host.reduceAdd x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    unary main_v26 main_v27 (broadcastInDim S8x1x2048 ![0, 2] bcast_S8x2048_S8x1x2048_0_2 : (⟨S8x2048, .f32⟩ : BufTy).Contents (Elt F) → (⟨S8x1x2048, .f32⟩ : BufTy).Contents (Elt F)),
    unary main_v27 main_v28 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v25 main_v28 main_v29 (Host.divf : (⟨S8x2048x2048, .f32⟩ : BufTy).Contents (Elt F) → (⟨S8x2048x2048, .f32⟩ : BufTy).Contents (Elt F) → (⟨S8x2048x2048, .f32⟩ : BufTy).Contents (Elt F)),
    binary main_v29 main_v11 main_v30 ((fun l r => Host.dotGeneral dot_S8x2048x2048_S8x2048x512_S8x2048x512_2_1_1_2_0_0 none l r) : (⟨S8x2048x2048, .f32⟩ : BufTy).Contents (Elt F) → (⟨S8x2048x512, .f32⟩ : BufTy).Contents (Elt F) → (⟨S8x2048x512, .f32⟩ : BufTy).Contents (Elt F)),
    binary main_arg0 main_v30 main_v31 ((fun a b => concatenate S8x2048x1024 2 [⟨S8x2048x512, a⟩, ⟨S8x2048x512, b⟩] concatenates_S8x2048x512_S8x2048x512_S8x2048x1024_d2) : (⟨S8x2048x512, .f32⟩ : BufTy).Contents (Elt F) → (⟨S8x2048x512, .f32⟩ : BufTy).Contents (Elt F) → (⟨S8x2048x1024, .f32⟩ : BufTy).Contents (Elt F)) ]

/-- Operations 1–13: the three projections and the score table. -/
abbrev seg1 : List (HloOp τ sig (Elt F)) :=
  [ binary main_arg0 main_arg1 main_v0 ((fun l r => Host.dotGeneral dot_S8x2048x512_S512x512_S8x2048x512_2_1_01_0_n_n none l r) : (⟨S8x2048x512, .f32⟩ : BufTy).Contents (Elt F) → (⟨S512x512, .f32⟩ : BufTy).Contents (Elt F) → (⟨S8x2048x512, .f32⟩ : BufTy).Contents (Elt F)),
    unary main_arg2 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v0 main_v2 main_v3 (addf : (⟨S8x2048x512, .f32⟩ : BufTy).Contents (Elt F) → (⟨S8x2048x512, .f32⟩ : BufTy).Contents (Elt F) → (⟨S8x2048x512, .f32⟩ : BufTy).Contents (Elt F)),
    binary main_arg0 main_arg3 main_v4 ((fun l r => Host.dotGeneral dot_S8x2048x512_S512x512_S8x2048x512_2_1_01_0_n_n none l r) : (⟨S8x2048x512, .f32⟩ : BufTy).Contents (Elt F) → (⟨S512x512, .f32⟩ : BufTy).Contents (Elt F) → (⟨S8x2048x512, .f32⟩ : BufTy).Contents (Elt F)),
    unary main_arg4 main_v5 (broadcastInDim S1x1x512 ![2] bcast_S512_S1x1x512_2 : (⟨S512, .f32⟩ : BufTy).Contents (Elt F) → (⟨S1x1x512, .f32⟩ : BufTy).Contents (Elt F)),
    unary main_v5 main_v6 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v4 main_v6 main_v7 (addf : (⟨S8x2048x512, .f32⟩ : BufTy).Contents (Elt F) → (⟨S8x2048x512, .f32⟩ : BufTy).Contents (Elt F) → (⟨S8x2048x512, .f32⟩ : BufTy).Contents (Elt F)),
    binary main_arg0 main_arg5 main_v8 ((fun l r => Host.dotGeneral dot_S8x2048x512_S512x512_S8x2048x512_2_1_01_0_n_n none l r) : (⟨S8x2048x512, .f32⟩ : BufTy).Contents (Elt F) → (⟨S512x512, .f32⟩ : BufTy).Contents (Elt F) → (⟨S8x2048x512, .f32⟩ : BufTy).Contents (Elt F)),
    unary main_arg6 main_v9 (broadcastInDim S1x1x512 ![2] bcast_S512_S1x1x512_2 : (⟨S512, .f32⟩ : BufTy).Contents (Elt F) → (⟨S1x1x512, .f32⟩ : BufTy).Contents (Elt F)),
    unary main_v9 main_v10 (broadcastInDim S8x2048x512 ![0, 1, 2] bcast_S1x1x512_S8x2048x512_0_1_2 : (⟨S1x1x512, .f32⟩ : BufTy).Contents (Elt F) → (⟨S8x2048x512, .f32⟩ : BufTy).Contents (Elt F)),
    binary main_v8 main_v10 main_v11 (addf : (⟨S8x2048x512, .f32⟩ : BufTy).Contents (Elt F) → (⟨S8x2048x512, .f32⟩ : BufTy).Contents (Elt F) → (⟨S8x2048x512, .f32⟩ : BufTy).Contents (Elt F)),
    binary main_v3 main_v7 main_v12 ((fun l r => Host.dotGeneral dot_S8x2048x512_S8x2048x512_S8x2048x2048_2_2_1_1_0_0 none l r) : (⟨S8x2048x512, .f32⟩ : BufTy).Contents (Elt F) → (⟨S8x2048x512, .f32⟩ : BufTy).Contents (Elt F) → (⟨S8x2048x2048, .f32⟩ : BufTy).Contents (Elt F)) ]

/-- Operations 14–30: the mask, and the masked score table. -/
abbrev seg2 : List (HloOp τ sig (Elt F)) :=
  [ nullary main_c (constantI S_ 1 1#1),
    unary main_c main_v13 (broadcastInDim S2048x2048 ![] bcast_S_S2048x2048 : (⟨S_, .i1⟩ : BufTy).Contents (Elt F) → (⟨S2048x2048, .i1⟩ : BufTy).Contents (Elt F)),
    TRef.nullary (TRef.of (T := ⟨S2048x2048, .i32⟩) main_call0_v0) (iotaInDim S2048x2048 32 0),
    TRef.nullary (TRef.of (T := ⟨S_, .i32⟩) main_call0_c) (constantI S_ 32 0#32),
    TRef.unary (TRef.of (T := ⟨S_, .i32⟩) main_call0_c) (TRef.of (T := ⟨S2048x2048, .i32⟩) main_call0_v1) (broadcastInDim S2048x2048 ![] bcast_S_S2048x2048),
    TRef.binary (TRef.of (T := ⟨S2048x2048, .i32⟩) main_call0_v0) (TRef.of (T := ⟨S2048x2048, .i32⟩) main_call0_v1) (TRef.of (T := ⟨S2048x2048, .i32⟩) main_call0_v2) addi,
    TRef.nullary (TRef.of (T := ⟨S2048x2048, .i32⟩) main_call0_v3) (iotaInDim S2048x2048 32 1),
    TRef.binary (TRef.of (T := ⟨S2048x2048, .i32⟩) main_call0_v2) (TRef.of (T := ⟨S2048x2048, .i32⟩) main_call0_v3) (TRef.of (T := ⟨S2048x2048, .i1⟩) main_call0_v4) (cmpi .sge),
    TRef.nullary (TRef.of (T := ⟨S_, .i1⟩) main_call0_c_0) (constantI S_ 1 0#1),
    TRef.unary (TRef.of (T := ⟨S_, .i1⟩) main_call0_c_0) (TRef.of (T := ⟨S2048x2048, .i1⟩) main_call0_v5) (broadcastInDim S2048x2048 ![] bcast_S_S2048x2048),
    TRef.ternary (TRef.of (T := ⟨S2048x2048, .i1⟩) main_call0_v4) (TRef.of (T := ⟨S2048x2048, .i1⟩) main_call0_v5) (TRef.of (T := ⟨S2048x2048, .i1⟩) main_v13) (TRef.of (T := ⟨S2048x2048, .i1⟩) main_v14) select,
    unary main_v14 main_v15 (broadcastInDim S1x2048x2048 ![1, 2] bcast_S2048x2048_S1x2048x2048_1_2 : (⟨S2048x2048, .i1⟩ : BufTy).Contents (Elt F) → (⟨S1x2048x2048, .i1⟩ : BufTy).Contents (Elt F)),
    nullary main_cst (constant S_ .f32 0xFF800000#32),
    TRef.unary (TRef.of (T := ⟨S_, .f32⟩) main_cst) (TRef.of (T := ⟨S_, .f32⟩) main_call1_v0) id,
    TRef.unary (TRef.of (T := ⟨S1x2048x2048, .i1⟩) main_v15) (TRef.of (T := ⟨S8x2048x2048, .i1⟩) main_call1_v1) (broadcastInDim S8x2048x2048 ![0, 1, 2] bcast_S1x2048x2048_S8x2048x2048_0_1_2),
    TRef.unary (TRef.of (T := ⟨S_, .f32⟩) main_call1_v0) (TRef.of (T := ⟨S8x2048x2048, .f32⟩) main_call1_v2) (broadcastInDim S8x2048x2048 ![] bcast_S_S8x2048x2048),
    TRef.ternary (TRef.of (T := ⟨S8x2048x2048, .i1⟩) main_call1_v1) (TRef.of (T := ⟨S8x2048x2048, .f32⟩) main_call1_v2) (TRef.of (T := ⟨S8x2048x2048, .f32⟩) main_v12) (TRef.of (T := ⟨S8x2048x2048, .f32⟩) main_v16) select ]

/-- Operations 31–42: the division, the column maxima and the weights. -/
abbrev seg3 : List (HloOp τ sig (Elt F)) :=
  [ nullary main_cst_0 (constant S_ .f32 0x41B504F3#32),
    unary main_cst_0 main_v17 (broadcastInDim S8x2048x2048 ![] bcast_S_S8x2048x2048 : (⟨S_, .f32⟩ : BufTy).Contents (Elt F) → (⟨S8x2048x2048, .f32⟩ : BufTy).Contents (Elt F)),
    binary main_v16 main_v17 main_v18 (Host.divf : (⟨S8x2048x2048, .f32⟩ : BufTy).Contents (Elt F) → (⟨S8x2048x2048, .f32⟩ : BufTy).Contents (Elt F) → (⟨S8x2048x2048, .f32⟩ : BufTy).Contents (Elt F)),
    nullary main_cst_1 (constant S_ .f32 0xFF800000#32),
    binary main_v18 main_cst_1 main_v19 ((fun x v => Host.reduce FloatOps.maximumf x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    nullary main_cst_2 (constant S_ .f32 0xFF800000#32),
    unary main_cst_2 main_v20 (broadcastInDim S8x2048 ![] bcast_S_S8x2048 : (⟨S_, .f32⟩ : BufTy).Contents (Elt F) → (⟨S8x2048, .f32⟩ : BufTy).Contents (Elt F)),
    binary main_v20 main_v19 main_v21 (maximumf : (⟨S8x2048, .f32⟩ : BufTy).Contents (Elt F) → (⟨S8x2048, .f32⟩ : BufTy).Contents (Elt F) → (⟨S8x2048, .f32⟩ : BufTy).Contents (Elt F)),
    unary main_v21 main_v22 (broadcastInDim S8x1x2048 ![0, 2] bcast_S8x2048_S8x1x2048_0_2 : (⟨S8x2048, .f32⟩ : BufTy).Contents (Elt F) → (⟨S8x1x2048, .f32⟩ : BufTy).Contents (Elt F)),
    unary main_v22 main_v23 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v18 main_v23 main_v24 (subf : (⟨S8x2048x2048, .f32⟩ : BufTy).Contents (Elt F) → (⟨S8x2048x2048, .f32⟩ : BufTy).Contents (Elt F) → (⟨S8x2048x2048, .f32⟩ : BufTy).Contents (Elt F)),
    unary main_v24 main_v25 (Host.exp : (⟨S8x2048x2048, .f32⟩ : BufTy).Contents (Elt F) → (⟨S8x2048x2048, .f32⟩ : BufTy).Contents (Elt F)) ]

/-- Operations 43–48: the column sums, the normalised weights and the attention rows. -/
abbrev seg4 : List (HloOp τ sig (Elt F)) :=
  [ nullary main_cst_3 (constant S_ .f32 0x00000000#32),
    binary main_v25 main_cst_3 main_v26 ((fun x v => Host.reduceAdd x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    unary main_v26 main_v27 (broadcastInDim S8x1x2048 ![0, 2] bcast_S8x2048_S8x1x2048_0_2 : (⟨S8x2048, .f32⟩ : BufTy).Contents (Elt F) → (⟨S8x1x2048, .f32⟩ : BufTy).Contents (Elt F)),
    unary main_v27 main_v28 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v25 main_v28 main_v29 (Host.divf : (⟨S8x2048x2048, .f32⟩ : BufTy).Contents (Elt F) → (⟨S8x2048x2048, .f32⟩ : BufTy).Contents (Elt F) → (⟨S8x2048x2048, .f32⟩ : BufTy).Contents (Elt F)),
    binary main_v29 main_v11 main_v30 ((fun l r => Host.dotGeneral dot_S8x2048x2048_S8x2048x512_S8x2048x512_2_1_1_2_0_0 none l r) : (⟨S8x2048x2048, .f32⟩ : BufTy).Contents (Elt F) → (⟨S8x2048x512, .f32⟩ : BufTy).Contents (Elt F) → (⟨S8x2048x512, .f32⟩ : BufTy).Contents (Elt F)) ]

/-- Operation 49: the result, the input rows followed by the attention rows. -/
abbrev seg5 : List (HloOp τ sig (Elt F)) :=
  [ binary main_arg0 main_v30 main_v31 ((fun a b => concatenate S8x2048x1024 2 [⟨S8x2048x512, a⟩, ⟨S8x2048x512, b⟩] concatenates_S8x2048x512_S8x2048x512_S8x2048x1024_d2) : (⟨S8x2048x512, .f32⟩ : BufTy).Contents (Elt F) → (⟨S8x2048x512, .f32⟩ : BufTy).Contents (Elt F) → (⟨S8x2048x1024, .f32⟩ : BufTy).Contents (Elt F)) ]

set_option maxRecDepth 8192 in
/-- The sequence is its five pieces in order. -/
theorem ops_eq : (ops : List (HloOp τ sig (Elt F))) = seg1 ++ (seg2 ++ (seg3 ++ (seg4 ++ seg5))) := rfl

/-- The contents after two pieces in a row are the contents after the second from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## Piece 1 -/

theorem seg1_v12 (V : Valuation τ sig (Elt F)) :
    after seg1 V (Proc.devRef .tc main_v12) = val_main_v12 (F := F) (V (Proc.devRef .tc main_arg0)) (V (Proc.devRef .tc main_arg1)) (V (Proc.devRef .tc main_arg2)) (V (Proc.devRef .tc main_arg3)) (V (Proc.devRef .tc main_arg4)) := by
  after_results_simp <;> rfl

theorem seg1_v11 (V : Valuation τ sig (Elt F)) :
    after seg1 V (Proc.devRef .tc main_v11) = val_main_v11 (F := F) (V (Proc.devRef .tc main_arg0)) (V (Proc.devRef .tc main_arg5)) (V (Proc.devRef .tc main_arg6)) := by
  after_results_simp <;> rfl

theorem seg1_arg0 (V : Valuation τ sig (Elt F)) : after seg1 V (Proc.devRef .tc main_arg0) = V (Proc.devRef .tc main_arg0) := by
  after_results_simp <;> rfl

/-! ## Piece 2 -/

theorem seg2_v16 (V : Valuation τ sig (Elt F)) (x0 : (⟨S8x2048x512, .f32⟩ : BufTy).Contents (Elt F)) (x1 : (⟨S512x512, .f32⟩ : BufTy).Contents (Elt F)) (x2 : (⟨S512, .f32⟩ : BufTy).Contents (Elt F)) (x3 : (⟨S512x512, .f32⟩ : BufTy).Contents (Elt F)) (x4 : (⟨S512, .f32⟩ : BufTy).Contents (Elt F))
    (h : V (Proc.devRef .tc main_v12) = val_main_v12 (F := F) x0 x1 x2 x3 x4) :
    after seg2 V (Proc.devRef .tc main_v16) = val_main_v16 (F := F) x0 x1 x2 x3 x4 := by
  after_results_simp
  rw [h]
  rfl

theorem seg2_v11 (V : Valuation τ sig (Elt F)) : after seg2 V (Proc.devRef .tc main_v11) = V (Proc.devRef .tc main_v11) := by
  after_results_simp <;> rfl

theorem seg2_arg0 (V : Valuation τ sig (Elt F)) : after seg2 V (Proc.devRef .tc main_arg0) = V (Proc.devRef .tc main_arg0) := by
  after_results_simp <;> rfl

/-! ## Piece 3 -/

theorem seg3_v25 (V : Valuation τ sig (Elt F)) (x0 : (⟨S8x2048x512, .f32⟩ : BufTy).Contents (Elt F)) (x1 : (⟨S512x512, .f32⟩ : BufTy).Contents (Elt F)) (x2 : (⟨S512, .f32⟩ : BufTy).Contents (Elt F)) (x3 : (⟨S512x512, .f32⟩ : BufTy).Contents (Elt F)) (x4 : (⟨S512, .f32⟩ : BufTy).Contents (Elt F))
    (h : V (Proc.devRef .tc main_v16) = val_main_v16 (F := F) x0 x1 x2 x3 x4) :
    after seg3 V (Proc.devRef .tc main_v25) = val_main_v25 (F := F) x0 x1 x2 x3 x4 := by
  after_results_simp
  rw [h]
  rfl

theorem seg3_v11 (V : Valuation τ sig (Elt F)) : after seg3 V (Proc.devRef .tc main_v11) = V (Proc.devRef .tc main_v11) := by
  after_results_simp <;> rfl

theorem seg3_arg0 (V : Valuation τ sig (Elt F)) : after seg3 V (Proc.devRef .tc main_arg0) = V (Proc.devRef .tc main_arg0) := by
  after_results_simp <;> rfl

/-! ## Piece 4 -/

theorem seg4_v30 (V : Valuation τ sig (Elt F)) (x0 : (⟨S8x2048x512, .f32⟩ : BufTy).Contents (Elt F)) (x1 : (⟨S512x512, .f32⟩ : BufTy).Contents (Elt F)) (x2 : (⟨S512, .f32⟩ : BufTy).Contents (Elt F)) (x3 : (⟨S512x512, .f32⟩ : BufTy).Contents (Elt F)) (x4 : (⟨S512, .f32⟩ : BufTy).Contents (Elt F)) (x5 : (⟨S512x512, .f32⟩ : BufTy).Contents (Elt F)) (x6 : (⟨S512, .f32⟩ : BufTy).Contents (Elt F))
    (h25 : V (Proc.devRef .tc main_v25) = val_main_v25 (F := F) x0 x1 x2 x3 x4)
    (h11 : V (Proc.devRef .tc main_v11) = val_main_v11 (F := F) x0 x5 x6) :
    after seg4 V (Proc.devRef .tc main_v30) = val_main_v30 (F := F) x0 x1 x2 x3 x4 x5 x6 := by
  after_results_simp
  rw [h25, h11]
  rfl

theorem seg4_arg0 (V : Valuation τ sig (Elt F)) : after seg4 V (Proc.devRef .tc main_arg0) = V (Proc.devRef .tc main_arg0) := by
  after_results_simp <;> rfl

/-! ## Piece 5 -/

theorem seg5_v31 (V : Valuation τ sig (Elt F)) (x0 : (⟨S8x2048x512, .f32⟩ : BufTy).Contents (Elt F)) (x1 : (⟨S512x512, .f32⟩ : BufTy).Contents (Elt F)) (x2 : (⟨S512, .f32⟩ : BufTy).Contents (Elt F)) (x3 : (⟨S512x512, .f32⟩ : BufTy).Contents (Elt F)) (x4 : (⟨S512, .f32⟩ : BufTy).Contents (Elt F)) (x5 : (⟨S512x512, .f32⟩ : BufTy).Contents (Elt F)) (x6 : (⟨S512, .f32⟩ : BufTy).Contents (Elt F))
    (h30 : V (Proc.devRef .tc main_v30) = val_main_v30 (F := F) x0 x1 x2 x3 x4 x5 x6)
    (h0 : V (Proc.devRef .tc main_arg0) = x0) :
    after seg5 V (Proc.devRef .tc main_v31) = val_main_v31 (F := F) x0 x1 x2 x3 x4 x5 x6 := by
  after_results_simp
  rw [h30, h0]
  rfl

/-! ## The whole sequence -/

/-- After the 49 operations, from any contents, the result buffer holds the last stage of the arguments. -/
theorem after_ops_v31 (V : Valuation τ sig (Elt F)) :
    after ops V (Proc.devRef .tc main_v31) = val_main_v31 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_eq, after_append, after_append, after_append, after_append]
  refine seg5_v31 _ _ _ _ _ _ _ _ ?_ ?_
  · refine seg4_v30 _ _ _ _ _ _ _ _ ?_ ?_
    · refine seg3_v25 _ _ _ _ _ _ ?_
      refine seg2_v16 _ _ _ _ _ _ ?_
      exact seg1_v12 V
    · rw [seg3_v11, seg2_v11]
      exact seg1_v11 V
  · rw [seg4_arg0, seg3_arg0, seg2_arg0]
    exact seg1_arg0 V

/-! ## The run -/

set_option maxRecDepth 8192 in
/-- The program is the sequence of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches buffers of the device only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., nullary_bufs_sub .., unary_bufs_sub .., unary_bufs_sub .., unary_bufs_sub .., ternary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩

set_option maxRecDepth 8192 in
/-- From any memory with zero counters every weakly fair execution terminates, with the result buffer at the last
    stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = val_main_v31 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v31).trans (after_ops_v31 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.LibMatAssoc.lean ====
/-
  Reassociating a product of three matrices over the extended reals.

  Over the extended reals multiplication does not distribute over addition at the infinities, so the two
  groupings `(A · X) · W` and `A · (X · W)` of a triple product need not agree entry by entry.  When every entry
  is a real number both groupings are the same real: the sums and products are computed in `ℝ`, where the
  identity is distributivity and an exchange of the two finite sums.
-/
import Mathlib

namespace MatAssoc

open Finset

/-- The coercion `ℝ → EReal` of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `∑ₖ (∑ᵢ aᵢ xᵢₖ) wₖ = ∑ᵢ aᵢ ∑ₖ xᵢₖ wₖ`. -/
theorem real_assoc {ι κ : Type*} [Fintype ι] [Fintype κ] (a : ι → ℝ) (x : ι → κ → ℝ) (w : κ → ℝ) :
    ∑ k, (∑ i, a i * x i k) * w k = ∑ i, a i * ∑ k, x i k * w k := by
  simp only [Finset.sum_mul, Finset.mul_sum]
  rw [Finset.sum_comm]
  exact Finset.sum_congr rfl fun i _ => Finset.sum_congr rfl fun k _ => mul_assoc _ _ _

/-- One row of `(A · X) · W` against the same row of `A · (X · W)` over the extended reals, every entry a real:
    `∑ₖ (∑ᵢ aᵢ xᵢₖ) wₖ = ∑ᵢ aᵢ ∑ₖ xᵢₖ wₖ`. -/
theorem ereal_assoc {ι κ : Type*} [Fintype ι] [Fintype κ] (a : ι → EReal) (x : ι → κ → EReal) (w : κ → EReal)
    (ha : ∀ i, a i ≠ ⊤ ∧ a i ≠ ⊥) (hx : ∀ i k, x i k ≠ ⊤ ∧ x i k ≠ ⊥) (hw : ∀ k, w k ≠ ⊤ ∧ w k ≠ ⊥) :
    ∑ k, (∑ i, a i * x i k) * w k = ∑ i, a i * ∑ k, x i k * w k := by
  lift a to ι → ℝ using ha
  lift w to κ → ℝ using hw
  obtain ⟨x', hx'⟩ : ∃ x' : ι → κ → ℝ, ∀ i k, x i k = (x' i k : EReal) :=
    ⟨fun i k => (x i k).toReal, fun i k => (EReal.coe_toReal (hx i k).1 (hx i k).2).symm⟩
  simp only [hx', ← EReal.coe_mul, ← coe_sum]
  exact congrArg _ (real_assoc a x' w)

end MatAssoc
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.Algebra.lean ====
/-
  The tiled and the plain formulas of the specification agree when every input entry is a real number.

  The argument, in the order of the lemmas below.
  * The divisor of the plain formula is the real 11863283 / 524288, so dividing by it is multiplying by its
    reciprocal 524288 / 11863283 at EVERY extended real, the infinities included; a masked entry −∞ stays
    −∞ under a positive factor. Hence the two score tables agree, and so do the column maxima
    (max −∞ x = x), the weights and the column sums (0 + x = x). None of this uses finiteness.
  * With real inputs every projection and every score is a real, so each masked-and-scaled score is a real or
    −∞, and the diagonal one (query k against key k is never masked) is a real. A maximum folded from −∞ over
    such a column is a real; each weight exp (s − m) is a nonnegative real (exp −∞ = 0), the diagonal one is
    positive, so each column sum is a positive real.
  * For reals p, v and l ≠ 0 the two orders of dividing agree: p · (v / l) = (p / l) · v. The keys
    0 … 2047 are the pairs (tile, row in the tile) through k = 256 · tile + row, so the sum over all keys is
    the sum over the 8 tiles of the sums over their 256 rows.
-/
import proofs.«181125_j22428319220703_1_alg».proof.Proof.Spec
import proofs.«181125_j22428319220703_1_alg».proof.Proof.LibMatAssoc
import proofs.«181125_j22428319220703_1_alg».proof.Proof.LibSumDigits

noncomputable section

open scoped BigOperators

namespace Cert.Attn

open Idealize.ShloMosaic

/-! ## General facts on the extended reals -/

/-- A finite sum of reals is a real. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨t, ht⟩ := ih (fun i hi => h i (Finset.mem_insert_of_mem hi))
    exact ⟨r + t, by rw [Finset.sum_insert ha, hr, ht, EReal.coe_add]⟩

/-- A maximum folded from −∞ over a finite family of entries, each a real or −∞ and at least one of them a
    real, is a real. -/
theorem real_fold_max {ι : Type*} (s : Finset ι) (f : ι → EReal)
    (h : ∀ i ∈ s, f i = ⊥ ∨ ∃ r : ℝ, f i = (r : EReal)) (i₀ : ι) (hi₀ : i₀ ∈ s)
    (h₀ : ∃ r : ℝ, f i₀ = (r : EReal)) : ∃ r : ℝ, s.fold max ⊥ f = (r : EReal) := by
  have htop : s.fold max ⊥ f ≠ ⊤ := by
    refine ne_of_lt ((Finset.fold_max_lt _).mpr ⟨bot_lt_top, fun i hi => ?_⟩)
    rcases h i hi with hb | ⟨r, hr⟩
    · rw [hb]; exact bot_lt_top
    · rw [hr]; exact EReal.coe_lt_top r
  have hbot : s.fold max ⊥ f ≠ ⊥ := by
    refine ne_of_gt ((Finset.lt_fold_max _).mpr (Or.inr ⟨i₀, hi₀, ?_⟩))
    obtain ⟨r, hr⟩ := h₀
    rw [hr]; exact EReal.bot_lt_coe r
  exact ⟨(s.fold max ⊥ f).toReal, (EReal.coe_toReal htop hbot).symm⟩

/-- On reals with a nonzero divisor the two orders of dividing agree: p · (v / l) = (p / l) · v. -/
theorem mul_div_eq_div_mul (p v l : ℝ) (hl : l ≠ 0) :
    (p : EReal) * Ideal.div (v : EReal) (l : EReal) = Ideal.div (p : EReal) (l : EReal) * (v : EReal) := by
  rw [Ideal.div_coe hl, Ideal.div_coe hl, ← EReal.coe_mul, ← EReal.coe_mul, ← EReal.coe_mul, ← EReal.coe_mul]
  congr 1
  ring

/-! ## The divisor -/

/-- The plain formula's divisor is the real 11863283 / 524288 (sign 0, exponent 131 − 127 = 4, significand
    2^23 + 3474675). -/
theorem scaleLit_eq : scaleLit = ((11863283 / 524288 : ℝ) : EReal) := by
  unfold scaleLit
  simp [Ideal.ofBits, Ideal.ieee, -EReal.coe_mul]
  norm_num

/-- Dividing by the divisor is multiplying by its reciprocal, at every extended real. -/
theorem div_scaleLit (x : EReal) : Ideal.div x scaleLit = x * invScale := by
  rw [scaleLit_eq, Ideal.div_coe (by norm_num), invScale]
  congr 2
  norm_num

/-! ## The two families agree up to the column sums (no finiteness needed) -/

section Agree

variable (X : Arr3) (Wq : Mat) (bq : Vec1) (Wk : Mat) (bk : Vec1)

theorem sR_eq_sK (b : Fin 8) (q k : Fin 2048) : sR X Wq bq Wk bk b q k = sK X Wq bq Wk bk b q k := by
  unfold sR sK
  rw [div_scaleLit]
  split_ifs
  · exact EReal.bot_mul_coe_of_pos (by norm_num)
  · rfl

theorem mR_eq_mK (b : Fin 8) (k : Fin 2048) : mR X Wq bq Wk bk b k = mK X Wq bq Wk bk b k := by
  unfold mR mK
  rw [max_eq_right bot_le]
  simp only [sR_eq_sK]

theorem pR_eq_pK (b : Fin 8) (q k : Fin 2048) : pR X Wq bq Wk bk b q k = pK X Wq bq Wk bk b q k := by
  unfold pR pK
  rw [sR_eq_sK, mR_eq_mK]

theorem lR_eq_lK (b : Fin 8) (k : Fin 2048) : lR X Wq bq Wk bk b k = lK X Wq bq Wk bk b k := by
  unfold lR lK
  rw [zero_add]
  simp only [pR_eq_pK]

end Agree

/-! ## Finiteness -/

/-- A projection of real inputs is a real. -/
theorem proj_real (X : Arr3) (W : Mat) (β : Vec1) (hX : ∀ b t c, ∃ r : ℝ, X b t c = (r : EReal))
    (hW : ∀ d c, ∃ r : ℝ, W d c = (r : EReal)) (hβ : ∀ d, ∃ r : ℝ, β d = (r : EReal))
    (b : Fin 8) (t : Fin 2048) (d : Fin 512) : ∃ r : ℝ, proj X W β b t d = (r : EReal) := by
  unfold proj
  obtain ⟨s, hs⟩ := real_sum Finset.univ (fun c => X b t c * W d c) (fun c _ => by
    obtain ⟨x, hx⟩ := hX b t c
    obtain ⟨w, hw⟩ := hW d c
    exact ⟨x * w, by rw [hx, hw, EReal.coe_mul]⟩)
  obtain ⟨r, hr⟩ := hβ d
  exact ⟨s + r, by rw [hs, hr, EReal.coe_add]⟩

/-- A score of real rows is a real. -/
theorem score_real (Q K : Arr3) (hQ : ∀ b t d, ∃ r : ℝ, Q b t d = (r : EReal))
    (hK : ∀ b t d, ∃ r : ℝ, K b t d = (r : EReal)) (b : Fin 8) (q k : Fin 2048) :
    ∃ r : ℝ, score Q K b q k = (r : EReal) := by
  unfold score
  exact real_sum Finset.univ (fun d => Q b q d * K b k d) (fun d _ => by
    obtain ⟨x, hx⟩ := hQ b q d
    obtain ⟨w, hw⟩ := hK b k d
    exact ⟨x * w, by rw [hx, hw, EReal.coe_mul]⟩)

section Finite

variable (X : Arr3) (Wq : Mat) (bq : Vec1) (Wk : Mat) (bk : Vec1)
variable (hQ : ∀ b t d, ∃ r : ℝ, proj X Wq bq b t d = (r : EReal))
variable (hK : ∀ b t d, ∃ r : ℝ, proj X Wk bk b t d = (r : EReal))
include hQ hK

/-- An unmasked entry of the score table is a real. -/
theorem sK_real (b : Fin 8) (q k : Fin 2048) (hqk : ¬ q.val < k.val) :
    ∃ r : ℝ, sK X Wq bq Wk bk b q k = (r : EReal) := by
  unfold sK
  rw [if_neg hqk]
  obtain ⟨s, hs⟩ := score_real _ _ hQ hK b q k
  exact ⟨s * (524288 / 11863283), by rw [hs, invScale, EReal.coe_mul]⟩

/-- Every entry of the score table is a real or −∞. -/
theorem sK_cases (b : Fin 8) (q k : Fin 2048) :
    sK X Wq bq Wk bk b q k = ⊥ ∨ ∃ r : ℝ, sK X Wq bq Wk bk b q k = (r : EReal) := by
  by_cases hqk : q.val < k.val
  · left; unfold sK; rw [if_pos hqk]
  · right; exact sK_real X Wq bq Wk bk hQ hK b q k hqk

/-- Every column maximum is a real: the diagonal entry of the column is unmasked. -/
theorem mK_real (b : Fin 8) (k : Fin 2048) : ∃ r : ℝ, mK X Wq bq Wk bk b k = (r : EReal) := by
  unfold mK
  exact real_fold_max Finset.univ (fun q => sK X Wq bq Wk bk b q k)
    (fun q _ => sK_cases X Wq bq Wk bk hQ hK b q k) k (Finset.mem_univ k)
    (sK_real X Wq bq Wk bk hQ hK b k k (lt_irrefl _))

/-- Every weight is a nonnegative real. -/
theorem pK_real (b : Fin 8) (q k : Fin 2048) :
    ∃ r : ℝ, 0 ≤ r ∧ pK X Wq bq Wk bk b q k = (r : EReal) := by
  unfold pK
  obtain ⟨m, hm⟩ := mK_real X Wq bq Wk bk hQ hK b k
  rcases sK_cases X Wq bq Wk bk hQ hK b q k with hs | ⟨s, hs⟩
  · exact ⟨0, le_refl _, by rw [hs, hm, EReal.bot_sub, Ideal.exp_bot, EReal.coe_zero]⟩
  · exact ⟨Real.exp (s - m), (Real.exp_pos _).le, by rw [hs, hm, ← EReal.coe_sub, Ideal.exp_coe]⟩

/-- The diagonal weight of a column is a positive real. -/
theorem pK_diag_pos (b : Fin 8) (k : Fin 2048) :
    ∃ r : ℝ, 0 < r ∧ pK X Wq bq Wk bk b k k = (r : EReal) := by
  unfold pK
  obtain ⟨m, hm⟩ := mK_real X Wq bq Wk bk hQ hK b k
  obtain ⟨s, hs⟩ := sK_real X Wq bq Wk bk hQ hK b k k (lt_irrefl _)
  exact ⟨Real.exp (s - m), Real.exp_pos _, by rw [hs, hm, ← EReal.coe_sub, Ideal.exp_coe]⟩

/-- Every column sum is a positive real. -/
theorem lK_real_pos (b : Fin 8) (k : Fin 2048) :
    ∃ r : ℝ, 0 < r ∧ lK X Wq bq Wk bk b k = (r : EReal) := by
  unfold lK
  choose p hp0 hp using fun q => pK_real X Wq bq Wk bk hQ hK b q k
  obtain ⟨r, hr0, hr⟩ := pK_diag_pos X Wq bq Wk bk hQ hK b k
  have hpk : p k = r := EReal.coe_injective ((hp k).symm.trans hr)
  refine ⟨∑ q : Fin 2048, p q, ?_, ?_⟩
  · refine Finset.sum_pos' (fun q _ => hp0 q) ⟨k, Finset.mem_univ k, ?_⟩
    rw [hpk]; exact hr0
  · rw [MatAssoc.coe_sum]
    exact Finset.sum_congr rfl fun q _ => hp q

end Finite

/-! ## The attention rows -/

/-- The accumulator after all 8 key tiles is the plain formula's sum over all 2048 keys. -/
theorem accK_eq_outR (X : Arr3) (Wq : Mat) (bq : Vec1) (Wk : Mat) (bk : Vec1) (Wv : Mat) (bv : Vec1)
    (hQ : ∀ b t d, ∃ r : ℝ, proj X Wq bq b t d = (r : EReal))
    (hK : ∀ b t d, ∃ r : ℝ, proj X Wk bk b t d = (r : EReal))
    (hV : ∀ b t d, ∃ r : ℝ, proj X Wv bv b t d = (r : EReal))
    (b : Fin 8) (q : Fin 2048) (d : Fin 512) :
    accK X Wq bq Wk bk Wv bv b 8 q d = outR X Wq bq Wk bk Wv bv b q d := by
  unfold accK outR
  rw [Finset.filter_true_of_mem (fun kt _ => kt.isLt),
    Cert.SumDigits.sum_fin_mul (m := 8) (n := 256) (N := 2048) rfl]
  refine Finset.sum_congr rfl fun kt _ => ?_
  unfold contribK
  refine Finset.sum_congr rfl fun j _ => ?_
  have hk : (⟨kt.val * 256 + j.val, Cert.SumDigits.digits_lt kt j⟩ : Fin 2048) = tileRow kt j :=
    Fin.ext (by simp only [tileRow]; ring)
  rw [hk, pR_eq_pK, lR_eq_lK]
  obtain ⟨p, -, hp⟩ := pK_real X Wq bq Wk bk hQ hK b q (tileRow kt j)
  obtain ⟨l, hl0, hl⟩ := lK_real_pos X Wq bq Wk bk hQ hK b (tileRow kt j)
  obtain ⟨v, hv⟩ := hV b (tileRow kt j) d
  rw [hp, hl, hv]
  exact mul_div_eq_div_mul p v l hl0.ne'

/-- Under finiteness of every input entry the tiled and the plain formulas agree everywhere. -/
theorem KOut_eq_ROut (X : Arr3) (Wq : Mat) (bq : Vec1) (Wk : Mat) (bk : Vec1) (Wv : Mat) (bv : Vec1)
    (hX : ∀ b t c, ∃ r : ℝ, X b t c = (r : EReal)) (hWq : ∀ d c, ∃ r : ℝ, Wq d c = (r : EReal))
    (hbq : ∀ d, ∃ r : ℝ, bq d = (r : EReal))
    (hWk : ∀ d c, ∃ r : ℝ, Wk d c = (r : EReal)) (hbk : ∀ d, ∃ r : ℝ, bk d = (r : EReal))
    (hWv : ∀ d c, ∃ r : ℝ, Wv d c = (r : EReal)) (hbv : ∀ d, ∃ r : ℝ, bv d = (r : EReal)) :
    KOut X Wq bq Wk bk Wv bv = ROut X Wq bq Wk bk Wv bv := by
  funext b q j
  unfold KOut ROut
  by_cases h : j.val < 512
  · rw [dif_pos h, dif_pos h]
  · rw [dif_neg h, dif_neg h]
    exact accK_eq_outR X Wq bq Wk bk Wv bv (proj_real X Wq bq hX hWq hbq) (proj_real X Wk bk hX hWk hbk)
      (proj_real X Wv bv hX hWv hbv) b q _

end Cert.Attn

end
-- ==== Proof.Finite.lean ====
/-
  The precondition says that every entry of every input is a real number.

  The precondition computes, for each of the seven inputs, whether |x| < +∞ holds at all of its entries (a
  conjunction over all entries, started from 1) and takes the conjunction of the seven bits. If the result is 1
  then each of the seven bits is 1, so each comparison is 1 at every entry. On the extended reals |x| is
  max x (−x), which is +∞ at x = −∞ and at x = +∞; so |x| < +∞ leaves exactly the reals.
-/
import proofs.«181125_j22428319220703_1_alg».proof.Pre_finite_inputs
import Idealize.ShloMosaic.PureOps.Ideal
import Idealize.ShloMosaic.Lib.ValueIdx
import Idealize.ShloMosaic.Lib.ReduceAll

noncomputable section

namespace Cert.Attn

open Idealize.ShloMosaic

/-- An extended real whose absolute value max x (−x) compares below +∞ is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- If the conjunction over all entries of |x| < +∞ is 1 then every entry is a real; for an array of any
    shape. -/
theorem real_of_all_lt_inf {s : Shape} {axes : List (Fin s.rank)}
    (bc : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (j : Cert.Pre_finite_inputs.S_.Idx)
    (e : Host.reduce IntOp.andi
          (cmpf .olt (Host.absf a)
            (broadcastInDim s ![] bc (constant (F := Ideal) Cert.Pre_finite_inputs.S_ .f32 0x7F800000#32)))
          (constantI Cert.Pre_finite_inputs.S_ 1 1#1) hr hu j = 1#1) (i : s.Idx) :
    ∃ r : ℝ, a i = (r : EReal) := by
  haveI : Subsingleton Cert.Pre_finite_inputs.S_.Idx := ⟨fun a b => funext fun d => d.elim0⟩
  have hi := Host.reduce_andi_all _ _ hr hu j e i
  exact real_of_abs_lt_inf (a i) hi

/-- The precondition gives the finiteness of every entry of the seven inputs. -/
theorem real_of_pre [Cert.Pre_finite_inputs.Facts]
    (a0 : FVec Ideal Cert.Pre_finite_inputs.S8x2048x512 .f32) (a1 : FVec Ideal Cert.Pre_finite_inputs.S512x512 .f32)
    (a2 : FVec Ideal Cert.Pre_finite_inputs.S512 .f32) (a3 : FVec Ideal Cert.Pre_finite_inputs.S512x512 .f32)
    (a4 : FVec Ideal Cert.Pre_finite_inputs.S512 .f32) (a5 : FVec Ideal Cert.Pre_finite_inputs.S512x512 .f32)
    (a6 : FVec Ideal Cert.Pre_finite_inputs.S512 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have h0 := congrFun h ValueIdx.ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨real_of_all_lt_inf _ _ _ a0 _ e0, real_of_all_lt_inf _ _ _ a1 _ e1, real_of_all_lt_inf _ _ _ a2 _ e2,
    real_of_all_lt_inf _ _ _ a3 _ e3, real_of_all_lt_inf _ _ _ a4 _ e4, real_of_all_lt_inf _ _ _ a5 _ e5,
    real_of_all_lt_inf _ _ _ a6 _ e6⟩

end Cert.Attn

end
-- ==== Proof.RefValue1.lean ====
/-
  The plain program read at an index, first half: the three affine projections, the scores, the strict
  upper-triangle mask, the masked scores and their division by the constant divisor, each read at coordinates
  and identified with the specification's definition of the same quantity.
-/
import proofs.«181125_j22428319220703_1_alg».proof.Proof.RefReadP
import proofs.«181125_j22428319220703_1_alg».proof.Proof.Spec
import Idealize.ShloMosaic.Lib.ValueIdx
import Idealize.ShloMosaic.Lib.Pipeline.Value
import Idealize.ShloMosaic.Lib.Affine
import Idealize.ShloMosaic.PureOps.Ideal.Laws

noncomputable section

namespace Cert.ReferenceIdeal.RefValue

open Idealize.ShloMosaic Idealize.ShloMosaic.ValueIdx Cert.ReferenceIdeal Cert.ReferenceIdeal.Read Cert.ReferenceIdeal.Gen
open scoped BigOperators

/-- The argument arrays: an 8 × 2048 × 512 array, a 512 × 512 matrix, a vector of 512 entries, over the extended reals. -/
abbrev A3 := (⟨S8x2048x512, .f32⟩ : BufTy).Contents (Elt Ideal)
abbrev M2 := (⟨S512x512, .f32⟩ : BufTy).Contents (Elt Ideal)
abbrev V1 := (⟨S512, .f32⟩ : BufTy).Contents (Elt Ideal)

/-! ## The projections x · Wᵀ + β -/

/-- Entry (b, t, d) of x · Wᵀ sums over c the input at (b, t, c) … -/
theorem lidx_v0 (b : Fin 8) (t : Fin 2048) (d k : Fin 512) : lidx_main_v0 (ix3 b t d) k = ix3 b t k :=
  funext fun a => Fin.ext (by match a with | ⟨0, _⟩ => rfl | ⟨1, _⟩ => rfl | ⟨2, _⟩ => rfl)
/-- … times the weight at (d, c). -/
theorem ridx_v0 (b : Fin 8) (t : Fin 2048) (d k : Fin 512) : ridx_main_v0 (ix3 b t d) k = ix2 d k :=
  funext fun a => Fin.ext (by match a with | ⟨0, _⟩ => rfl | ⟨1, _⟩ => rfl)
/-- The bias broadcast over the batch rows and the positions is read at its last coordinate. -/
theorem bidx_v2 (b : Fin 8) (t : Fin 2048) (d : Fin 512) : idx_main_v1 (idx_main_v2 (ix3 b t d)) = ix1 d :=
  funext fun a => Fin.ext (by match a with | ⟨0, _⟩ => rfl)

/-- The query projection at (b, t, d) is Σ_c x b t c · W d c + β d. -/
theorem proj_stage (a0 : A3) (a1 : M2) (a2 : V1) (b : Fin 8) (t : Fin 2048) (d : Fin 512) :
    val_main_v3 (F := Ideal) a0 a1 a2 (ix3 b t d)
      = Cert.Attn.proj (Cert.Attn.arr3 a0) (Cert.Attn.mat a1) (Cert.Attn.vec1 a2) b t d := by
  rw [val_main_v3_apply, val_main_v0_apply, val_main_v2_apply, val_main_v1_apply, Ideal.addf_def, bidx_v2]
  unfold Cert.Attn.proj Cert.Attn.arr3 Cert.Attn.mat Cert.Attn.vec1
  refine congrArg (· + a2 (ix1 d)) (Finset.sum_congr rfl fun k _ => ?_)
  rw [lidx_v0, ridx_v0]

/-- The key projection, likewise. -/
theorem proj_stage_k (a0 : A3) (a3 : M2) (a4 : V1) (b : Fin 8) (t : Fin 2048) (d : Fin 512) :
    val_main_v7 (F := Ideal) a0 a3 a4 (ix3 b t d)
      = Cert.Attn.proj (Cert.Attn.arr3 a0) (Cert.Attn.mat a3) (Cert.Attn.vec1 a4) b t d := by
  rw [val_main_v7_apply, val_main_v4_apply, val_main_v6_apply, val_main_v5_apply, Ideal.addf_def]
  unfold Cert.Attn.proj Cert.Attn.arr3 Cert.Attn.mat Cert.Attn.vec1
  refine congrArg₂ (· + ·) (Finset.sum_congr rfl fun k _ => ?_) (congrArg a4 (bidx_v2 b t d))
  exact congrArg₂ (· * ·) (congrArg a0 (lidx_v0 b t d k)) (congrArg a3 (ridx_v0 b t d k))

/-- The value projection, likewise. -/
theorem proj_stage_v (a0 : A3) (a5 : M2) (a6 : V1) (b : Fin 8) (t : Fin 2048) (d : Fin 512) :
    val_main_v11 (F := Ideal) a0 a5 a6 (ix3 b t d)
      = Cert.Attn.proj (Cert.Attn.arr3 a0) (Cert.Attn.mat a5) (Cert.Attn.vec1 a6) b t d := by
  rw [val_main_v11_apply, val_main_v8_apply, val_main_v10_apply, val_main_v9_apply, Ideal.addf_def]
  unfold Cert.Attn.proj Cert.Attn.arr3 Cert.Attn.mat Cert.Attn.vec1
  refine congrArg₂ (· + ·) (Finset.sum_congr rfl fun k _ => ?_) (congrArg a6 (bidx_v2 b t d))
  exact congrArg₂ (· * ·) (congrArg a0 (lidx_v0 b t d k)) (congrArg a5 (ridx_v0 b t d k))

/-! ## The scores q · kᵀ per batch row -/

/-- Entry (b, q, k) of the scores sums over d the query projection at (b, q, d) … -/
theorem lidx_v12 (b : Fin 8) (q k : Fin 2048) (d : Fin 512) : lidx_main_v12 (ix3 b q k) d = ix3 b q d :=
  funext fun a => Fin.ext (by match a with | ⟨0, _⟩ => rfl | ⟨1, _⟩ => rfl | ⟨2, _⟩ => rfl)
/-- … times the key projection at (b, k, d). -/
theorem ridx_v12 (b : Fin 8) (q k : Fin 2048) (d : Fin 512) : ridx_main_v12 (ix3 b q k) d = ix3 b k d :=
  funext fun a => Fin.ext (by match a with | ⟨0, _⟩ => rfl | ⟨1, _⟩ => rfl | ⟨2, _⟩ => rfl)

/-- The score at (b, q, k) is the dot product of query row q and key row k of batch row b. -/
theorem score_stage (a0 : A3) (a1 : M2) (a2 : V1) (a3 : M2) (a4 : V1) (b : Fin 8) (q k : Fin 2048) :
    val_main_v12 (F := Ideal) a0 a1 a2 a3 a4 (ix3 b q k)
      = Cert.Attn.score (Cert.Attn.proj (Cert.Attn.arr3 a0) (Cert.Attn.mat a1) (Cert.Attn.vec1 a2))
          (Cert.Attn.proj (Cert.Attn.arr3 a0) (Cert.Attn.mat a3) (Cert.Attn.vec1 a4)) b q k := by
  rw [val_main_v12_apply]
  unfold Cert.Attn.score
  refine Finset.sum_congr rfl fun d _ => ?_
  rw [lidx_v12, ridx_v12, proj_stage, proj_stage_k]

/-! ## The mask: TRUE exactly where the row is before the column -/

/-- A natural number below 2048, as a 32-bit word, is itself when the word is read signed. -/
theorem toInt_ofNat_small (n : Nat) (h : n < 2048) : (BitVec.ofNat 32 n).toInt = (n : Int) := by
  rw [BitVec.toInt_eq_toNat_of_lt (by rw [BitVec.toNat_ofNat]; omega), BitVec.toNat_ofNat]
  omega

/-- The mask bit at (q, k): where q + 0 ≥ k it is FALSE, elsewhere TRUE; so it is 1 exactly when q < k. -/
theorem mask_stage (q k : Fin 2048) :
    val_main_v14 (F := Ideal) (ix2 q k) = if q.val < k.val then 1#1 else 0#1 := by
  rw [val_main_v14_apply, val_main_call0_v4_apply, val_main_call0_v2_apply, val_main_call0_v0_apply,
    val_main_call0_v1_apply, val_main_call0_c_apply, val_main_call0_v3_apply, val_main_call0_v5_apply,
    val_main_call0_c_0_apply, val_main_v13_apply, val_main_c_apply]
  show Scalar.select (IntOp.cmpi .sge (IntOp.addi (BitVec.ofNat 32 q.val) 0#32) (BitVec.ofNat 32 k.val)) 0#1 1#1 = _
  have hadd : IntOp.addi (BitVec.ofNat 32 q.val) 0#32 = BitVec.ofNat 32 q.val := by
    show BitVec.ofNat 32 q.val + 0#32 = _
    exact BitVec.add_zero _
  rw [hadd]
  by_cases h : q.val < k.val
  · rw [if_pos h]
    have hc : ¬ IntOp.cmpi .sge (BitVec.ofNat 32 q.val) (BitVec.ofNat 32 k.val) = 1#1 := by
      rw [IntOp.cmpi_sge, toInt_ofNat_small _ q.isLt, toInt_ofNat_small _ k.isLt]; omega
    rw [eq_zero_of_ne_one hc, select_zero]
  · rw [if_neg h]
    have hc : IntOp.cmpi .sge (BitVec.ofNat 32 q.val) (BitVec.ofNat 32 k.val) = 1#1 := by
      rw [IntOp.cmpi_sge, toInt_ofNat_small _ q.isLt, toInt_ofNat_small _ k.isLt]; omega
    rw [hc, select_one]

/-! ## Masked, then divided -/

open Cert.Attn in
/-- The specification's masked-and-divided score over the argument arrays read by coordinates. -/
abbrev sRa (a0 : A3) (a1 : M2) (a2 : V1) (a3 : M2) (a4 : V1) :=
  sR (arr3 a0) (mat a1) (vec1 a2) (mat a3) (vec1 a4)
open Cert.Attn in
/-- The specification's column maximum, likewise. -/
abbrev mRa (a0 : A3) (a1 : M2) (a2 : V1) (a3 : M2) (a4 : V1) :=
  mR (arr3 a0) (mat a1) (vec1 a2) (mat a3) (vec1 a4)
open Cert.Attn in
/-- The specification's exponential weight, likewise. -/
abbrev pRa (a0 : A3) (a1 : M2) (a2 : V1) (a3 : M2) (a4 : V1) :=
  pR (arr3 a0) (mat a1) (vec1 a2) (mat a3) (vec1 a4)
open Cert.Attn in
/-- The specification's column sum, likewise. -/
abbrev lRa (a0 : A3) (a1 : M2) (a2 : V1) (a3 : M2) (a4 : V1) :=
  lR (arr3 a0) (mat a1) (vec1 a2) (mat a3) (vec1 a4)

/-- The binary32 word 0xFF800000 is −∞. -/
theorem ofBits_negInf : Ideal.ofBits .f32 0xFF800000#32 = (⊥ : EReal) := by simp [Ideal.ofBits, Ideal.ieee]

/-- The mask broadcast over the batch rows is read at (q, k). -/
theorem midx_v16 (b : Fin 8) (q k : Fin 2048) : idx_main_v15 (idx_main_call1_v1 (ix3 b q k)) = ix2 q k :=
  funext fun a => Fin.ext (by match a with | ⟨0, _⟩ => rfl | ⟨1, _⟩ => rfl)

/-- The masked score at (b, q, k): −∞ where q < k, the score elsewhere. -/
theorem where_stage (a0 : A3) (a1 : M2) (a2 : V1) (a3 : M2) (a4 : V1) (b : Fin 8) (q k : Fin 2048) :
    val_main_v16 (F := Ideal) a0 a1 a2 a3 a4 (ix3 b q k)
      = if q.val < k.val then (⊥ : EReal)
        else Cert.Attn.score (Cert.Attn.proj (Cert.Attn.arr3 a0) (Cert.Attn.mat a1) (Cert.Attn.vec1 a2))
          (Cert.Attn.proj (Cert.Attn.arr3 a0) (Cert.Attn.mat a3) (Cert.Attn.vec1 a4)) b q k := by
  rw [val_main_v16_apply, val_main_call1_v1_apply, val_main_v15_apply, midx_v16, mask_stage,
    val_main_call1_v2_apply, val_main_call1_v0_apply, val_main_cst_apply, Ideal.ofBits_def, ofBits_negInf, score_stage]
  by_cases h : q.val < k.val
  · rw [if_pos h, if_pos h, select_one]
  · rw [if_neg h, if_neg h, select_zero]

/-- The masked score divided by the constant divisor is the specification's sR. -/
theorem div_stage (a0 : A3) (a1 : M2) (a2 : V1) (a3 : M2) (a4 : V1) (b : Fin 8) (q k : Fin 2048) :
    val_main_v18 (F := Ideal) a0 a1 a2 a3 a4 (ix3 b q k) = sRa a0 a1 a2 a3 a4 b q k := by
  rw [val_main_v18_apply, where_stage, val_main_v17_apply, val_main_cst_0_apply, Ideal.ofBits_def, Ideal.hostDivf_def]
  rfl

end Cert.ReferenceIdeal.RefValue

end
-- ==== Proof.RefValue2.lean ====
/-
  The plain program read at an index, second half: the softmax down the query axis (the column maximum folded
  from −∞, the exponential weights, the column sums), the weights divided by the sums, and the weighted sum of the
  value rows, each read at coordinates and identified with the specification's definition of the same quantity.
-/
import proofs.«181125_j22428319220703_1_alg».proof.Proof.RefValue1

noncomputable section

namespace Cert.ReferenceIdeal.RefValue

open Idealize.ShloMosaic Idealize.ShloMosaic.ValueIdx Cert.ReferenceIdeal Cert.ReferenceIdeal.Read Cert.ReferenceIdeal.Gen
open scoped BigOperators

/-! ## The column maximum over the queries -/

/-- An 8 × 2048 × 2048 array reduced over its middle axis has extents 8 × 2048. -/
theorem red_S : S8x2048x2048.Reduces [1] S8x2048 := by decide

/-- The source index over the result index (b, k) with q on the reduced axis is (b, q, k). -/
theorem lift_S (b : Fin 8) (k q : Fin 2048) : red_S.lift (ix2 b k) q = ix3 b q k :=
  funext fun a => Fin.ext (by match a with | ⟨0, _⟩ => rfl | ⟨1, _⟩ => rfl | ⟨2, _⟩ => rfl)

/-- The maximum-reduction at (b, k): max is commutative and associative, so the reduction in any order is the fold
    of max from −∞ over the queries q of the divided score at (b, q, k). -/
theorem max_stage (a0 : A3) (a1 : M2) (a2 : V1) (a3 : M2) (a4 : V1) (b : Fin 8) (k : Fin 2048) :
    val_main_v19 (F := Ideal) a0 a1 a2 a3 a4 (ix2 b k)
      = (Finset.univ : Finset (Fin 2048)).fold max ⊥ (fun q => sRa a0 a1 a2 a3 a4 b q k) := by
  unfold val_main_v19
  refine (Host.reduce_eq_fold_single (FloatOps.maximumf (F := Ideal) (φ := .f32)) _ _
    reducesTo_S8x2048x2048_S8x2048_d1 red_S h_S_ (ix2 b k)).trans ?_
  have hq : ∀ q : Fin 2048, val_main_v18 (F := Ideal) a0 a1 a2 a3 a4 (red_S.lift (ix2 b k) q)
      = sRa a0 a1 a2 a3 a4 b q k := fun q => by rw [lift_S, div_stage]
  have hf : (val_main_v18 (F := Ideal) a0 a1 a2 a3 a4 ∘ red_S.lift (ix2 b k))
      = fun q : Fin 2048 => sRa a0 a1 a2 a3 a4 b q k := funext hq
  rw [hf, val_main_cst_1_apply, Ideal.ofBits_def, ofBits_negInf]
  rfl

/-- The column maximum broadcast back over the queries is read at (b, k). -/
theorem bidx_v23 (b : Fin 8) (q k : Fin 2048) : idx_main_v22 (idx_main_v23 (ix3 b q k)) = ix2 b k :=
  funext fun a => Fin.ext (by match a with | ⟨0, _⟩ => rfl | ⟨1, _⟩ => rfl)

/-- The maximum of −∞ and the reduction is the specification's mR. -/
theorem m_stage (a0 : A3) (a1 : M2) (a2 : V1) (a3 : M2) (a4 : V1) (b : Fin 8) (k : Fin 2048) :
    val_main_v21 (F := Ideal) a0 a1 a2 a3 a4 (ix2 b k) = mRa a0 a1 a2 a3 a4 b k := by
  rw [val_main_v21_apply, val_main_v20_apply, val_main_cst_2_apply, Ideal.ofBits_def, ofBits_negInf,
    Ideal.maximumf_def, max_stage]
  rfl

/-! ## The weights and their column sums -/

/-- The exponential of the divided score less its column maximum is the specification's pR. -/
theorem p_stage (a0 : A3) (a1 : M2) (a2 : V1) (a3 : M2) (a4 : V1) (b : Fin 8) (q k : Fin 2048) :
    val_main_v25 (F := Ideal) a0 a1 a2 a3 a4 (ix3 b q k) = pRa a0 a1 a2 a3 a4 b q k := by
  rw [val_main_v25_apply, val_main_v24_apply, val_main_v23_apply, val_main_v22_apply, bidx_v23, m_stage,
    div_stage, Ideal.subf_def, Ideal.hostUnary_exp_def]
  rfl

/-- The sum at (b, k) runs over the weights at (b, q, k). -/
theorem sidx_v26 (b : Fin 8) (k q : Fin 2048) : idx_main_v26 (ix2 b k) q = ix3 b q k :=
  funext fun a => Fin.ext (by match a with | ⟨0, _⟩ => rfl | ⟨1, _⟩ => rfl | ⟨2, _⟩ => rfl)

/-- Zero plus the sum over the queries of the weights is the specification's lR. -/
theorem l_stage (a0 : A3) (a1 : M2) (a2 : V1) (a3 : M2) (a4 : V1) (b : Fin 8) (k : Fin 2048) :
    val_main_v26 (F := Ideal) a0 a1 a2 a3 a4 (ix2 b k) = lRa a0 a1 a2 a3 a4 b k := by
  rw [val_main_v26_apply, val_main_cst_3_apply, Ideal.ofBits_def, Ideal.ofBits_zero_f32]
  show _ = 0 + ∑ q : Fin 2048, pRa a0 a1 a2 a3 a4 b q k
  refine congrArg (0 + ·) (Finset.sum_congr rfl fun q _ => ?_)
  rw [sidx_v26, p_stage]

/-- The column sum broadcast back over the queries is read at (b, k). -/
theorem bidx_v28 (b : Fin 8) (q k : Fin 2048) : idx_main_v27 (idx_main_v28 (ix3 b q k)) = ix2 b k :=
  funext fun a => Fin.ext (by match a with | ⟨0, _⟩ => rfl | ⟨1, _⟩ => rfl)

/-- The attention weight at (b, q, k): the exponential weight divided by its column sum. -/
theorem attn_stage (a0 : A3) (a1 : M2) (a2 : V1) (a3 : M2) (a4 : V1) (b : Fin 8) (q k : Fin 2048) :
    val_main_v29 (F := Ideal) a0 a1 a2 a3 a4 (ix3 b q k)
      = Ideal.div (pRa a0 a1 a2 a3 a4 b q k) (lRa a0 a1 a2 a3 a4 b k) := by
  rw [val_main_v29_apply, p_stage, val_main_v28_apply, val_main_v27_apply, bidx_v28, l_stage, Ideal.hostDivf_def]

/-! ## The attention row -/

/-- Entry (b, q, d) of the attention sums over the keys k the weight at (b, q, k) … -/
theorem lidx_v30 (b : Fin 8) (q : Fin 2048) (d : Fin 512) (k : Fin 2048) : lidx_main_v30 (ix3 b q d) k = ix3 b q k :=
  funext fun a => Fin.ext (by match a with | ⟨0, _⟩ => rfl | ⟨1, _⟩ => rfl | ⟨2, _⟩ => rfl)
/-- … times the value projection at (b, k, d). -/
theorem ridx_v30 (b : Fin 8) (q : Fin 2048) (d : Fin 512) (k : Fin 2048) : ridx_main_v30 (ix3 b q d) k = ix3 b k d :=
  funext fun a => Fin.ext (by match a with | ⟨0, _⟩ => rfl | ⟨1, _⟩ => rfl | ⟨2, _⟩ => rfl)

/-- The attention row at (b, q, d) is the specification's outR. -/
theorem out_stage (a0 : A3) (a1 : M2) (a2 : V1) (a3 : M2) (a4 : V1) (a5 : M2) (a6 : V1)
    (b : Fin 8) (q : Fin 2048) (d : Fin 512) :
    val_main_v30 (F := Ideal) a0 a1 a2 a3 a4 a5 a6 (ix3 b q d)
      = Cert.Attn.outR (Cert.Attn.arr3 a0) (Cert.Attn.mat a1) (Cert.Attn.vec1 a2) (Cert.Attn.mat a3) (Cert.Attn.vec1 a4)
          (Cert.Attn.mat a5) (Cert.Attn.vec1 a6) b q d := by
  rw [val_main_v30_apply]
  unfold Cert.Attn.outR
  refine Finset.sum_congr rfl fun k _ => ?_
  rw [lidx_v30, ridx_v30, attn_stage, proj_stage_v]

end Cert.ReferenceIdeal.RefValue

end
-- ==== Proof.RefValue.lean ====
/-
  The plain program's result read at an index: every stage of its run, from the three projections to
  the final concatenation, read at coordinates and identified with the specification's ROut.
-/
import proofs.«181125_j22428319220703_1_alg».proof.Proof.RefReadP
import proofs.«181125_j22428319220703_1_alg».proof.Proof.Spec
import proofs.«181125_j22428319220703_1_alg».proof.Proof.RefValue2
import proofs.«181125_j22428319220703_1_alg».proof.Proof.LibConcat3
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.ReferenceIdeal.Gen

/-- The plain program's result, at every index, is the specification's ROut of the argument arrays read by
    coordinates: the input row in the first 512 columns, the attention row in the last 512. -/
theorem result_eq (a0 : (⟨S8x2048x512, .f32⟩ : BufTy).Contents (Elt Ideal)) (a1 : (⟨S512x512, .f32⟩ : BufTy).Contents (Elt Ideal)) (a2 : (⟨S512, .f32⟩ : BufTy).Contents (Elt Ideal))
    (a3 : (⟨S512x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal)) :
    val_main_v31 (F := Ideal) a0 a1 a2 a3 a4 a5 a6
      = fun i => Cert.Attn.ROut (Cert.Attn.arr3 a0) (Cert.Attn.mat a1) (Cert.Attn.vec1 a2) (Cert.Attn.mat a3) (Cert.Attn.vec1 a4) (Cert.Attn.mat a5) (Cert.Attn.vec1 a6) (i 0) (i 1) (i 2) := by
  funext i
  obtain ⟨b, q, j, rfl⟩ : ∃ (b : Fin 8) (q : Fin 2048) (j : Fin 1024), i = ix3 b q j := ⟨i 0, i 1, i 2, eq_ix3 i⟩
  show val_main_v31 (F := Ideal) a0 a1 a2 a3 a4 a5 a6 (ix3 b q j) = Cert.Attn.ROut _ _ _ _ _ _ _ b q j
  unfold val_main_v31
  refine (Cert.LibConcat3.concat_last_apply a0 (val_main_v30 (F := Ideal) a0 a1 a2 a3 a4 a5 a6)
    concatenates_S8x2048x512_S8x2048x512_S8x2048x1024_d2 b q j).trans ?_
  unfold Cert.Attn.ROut
  by_cases h : j.val < 512
  · rw [dif_pos h, dif_pos h]; rfl
  · rw [dif_neg h, dif_neg h, out_stage]

end Cert.ReferenceIdeal.RefValue

end
-- ==== Proof.Bridge.lean ====
/-
  The plain program's last stage is the tiled formula of the specification.

  The last stage of the plain program, read at an index, is the plain formula ROut of the arguments read by
  their coordinates. The precondition makes every entry of the seven arguments a real, and on real inputs the
  tiled formula KOut and the plain formula ROut are the same function. An index coordinate and the number
  below the bound with the same value are the same coordinate.
-/
import proofs.«181125_j22428319220703_1_alg».proof.Proof.Spec
import proofs.«181125_j22428319220703_1_alg».proof.Proof.Algebra
import proofs.«181125_j22428319220703_1_alg».proof.Proof.Finite
import proofs.«181125_j22428319220703_1_alg».proof.Proof.RefValue

noncomputable section

namespace Cert.Attn

open Idealize.ShloMosaic

/-- Under the precondition, and given that the plain program's last stage read at an index is the plain formula,
    the plain program's last stage is the tiled formula, index by index. -/
theorem bridge_of [Cert.Pre_finite_inputs.Facts]
    (a0 : (⟨3, ![8, 2048, 512]⟩ : Shape).Idx → EReal) (a1 : (⟨2, ![512, 512]⟩ : Shape).Idx → EReal)
    (a2 : (⟨1, ![512]⟩ : Shape).Idx → EReal) (a3 : (⟨2, ![512, 512]⟩ : Shape).Idx → EReal)
    (a4 : (⟨1, ![512]⟩ : Shape).Idx → EReal) (a5 : (⟨2, ![512, 512]⟩ : Shape).Idx → EReal)
    (a6 : (⟨1, ![512]⟩ : Shape).Idx → EReal)
    (result_eq : ∀ (a0 : (⟨Cert.ReferenceIdeal.S8x2048x512, .f32⟩ : BufTy).Contents (Elt Ideal)) (a1 : (⟨Cert.ReferenceIdeal.S512x512, .f32⟩ : BufTy).Contents (Elt Ideal)) (a2 : (⟨Cert.ReferenceIdeal.S512, .f32⟩ : BufTy).Contents (Elt Ideal)) (a3 : (⟨Cert.ReferenceIdeal.S512x512, .f32⟩ : BufTy).Contents (Elt Ideal)) (a4 : (⟨Cert.ReferenceIdeal.S512, .f32⟩ : BufTy).Contents (Elt Ideal)) (a5 : (⟨Cert.ReferenceIdeal.S512x512, .f32⟩ : BufTy).Contents (Elt Ideal)) (a6 : (⟨Cert.ReferenceIdeal.S512, .f32⟩ : BufTy).Contents (Elt Ideal)),
      Cert.ReferenceIdeal.Read.val_main_v31 (F := Ideal) a0 a1 a2 a3 a4 a5 a6 = fun i => Cert.Attn.ROut (Cert.Attn.arr3 a0) (Cert.Attn.mat a1) (Cert.Attn.vec1 a2) (Cert.Attn.mat a3) (Cert.Attn.vec1 a4) (Cert.Attn.mat a5) (Cert.Attn.vec1 a6) (i 0) (i 1) (i 2))
    (hpre : Cert.Pre_finite_inputs.fn (F := Ideal) a0 a1 a2 a3 a4 a5 a6 = fun _ => 1#1) :
    Cert.ReferenceIdeal.Read.val_main_v31 (F := Ideal) a0 a1 a2 a3 a4 a5 a6
      = fun i => Cert.Attn.KOut (arr3 a0) (mat a1) (vec1 a2) (mat a3) (vec1 a4) (mat a5) (vec1 a6)
          ⟨(i 0).val, (i 0).isLt⟩ ⟨(i 1).val, (i 1).isLt⟩ ⟨(i 2).val, (i 2).isLt⟩ := by
  obtain ⟨h0, h1, h2, h3, h4, h5, h6⟩ := real_of_pre a0 a1 a2 a3 a4 a5 a6 hpre
  have hKR := KOut_eq_ROut (arr3 a0) (mat a1) (vec1 a2) (mat a3) (vec1 a4) (mat a5) (vec1 a6)
    (fun b t c => h0 (ValueIdx.ix3 b t c)) (fun d c => h1 (ValueIdx.ix2 d c)) (fun d => h2 (ValueIdx.ix1 d))
    (fun d c => h3 (ValueIdx.ix2 d c)) (fun d => h4 (ValueIdx.ix1 d))
    (fun d c => h5 (ValueIdx.ix2 d c)) (fun d => h6 (ValueIdx.ix1 d))
  rw [result_eq, hKR]
  rfl

/-- Under the precondition the plain program's last stage is the tiled formula, index by index. -/
theorem bridge [Cert.Pre_finite_inputs.Facts]
    (a0 : (⟨3, ![8, 2048, 512]⟩ : Shape).Idx → EReal) (a1 : (⟨2, ![512, 512]⟩ : Shape).Idx → EReal)
    (a2 : (⟨1, ![512]⟩ : Shape).Idx → EReal) (a3 : (⟨2, ![512, 512]⟩ : Shape).Idx → EReal)
    (a4 : (⟨1, ![512]⟩ : Shape).Idx → EReal) (a5 : (⟨2, ![512, 512]⟩ : Shape).Idx → EReal)
    (a6 : (⟨1, ![512]⟩ : Shape).Idx → EReal)
    (hpre : Cert.Pre_finite_inputs.fn (F := Ideal) a0 a1 a2 a3 a4 a5 a6 = fun _ => 1#1) :
    Cert.ReferenceIdeal.Read.val_main_v31 (F := Ideal) a0 a1 a2 a3 a4 a5 a6
      = fun i => Cert.Attn.KOut (arr3 a0) (mat a1) (vec1 a2) (mat a3) (vec1 a4) (mat a5) (vec1 a6)
          ⟨(i 0).val, (i 0).isLt⟩ ⟨(i 1).val, (i 1).isLt⟩ ⟨(i 2).val, (i 2).isLt⟩ :=
  bridge_of a0 a1 a2 a3 a4 a5 a6 Cert.ReferenceIdeal.RefValue.result_eq hpre

end Cert.Attn

end
-- ==== Proof.Preserves.lean ====
/-
  The two constants the idealized tiled program names.

  The tiled program's scale factor is named "inv_scale" and read as the real 524288 / 11863283, the exact
  reciprocal of the plain program's divisor; its mask value is named "neg_big" and read as −∞. Each entry of
  the ledger says that the table of named constants gives the name that value, so that the printed constant
  is that value at every index and as a scalar.
-/
import proofs.«181125_j22428319220703_1_alg».proof.Defs
import Idealize.ShloMosaic.PureOps.IdealRules

noncomputable section

namespace Cert.Attn

open Idealize.ShloMosaic

/-- Both named constants are what the table says: 524288 / 11863283 and −∞. -/
theorem preserves : Cert.preserves_Kernel_KernelIdeal :=
  ⟨IdealRules.named_const.statement Cert.KernelIdeal.κ "inv_scale" .f32 0x3D3504F3#32
      ((524288 / 11863283 : ℝ) : EReal) rfl,
    IdealRules.named_const.statement Cert.KernelIdeal.κ "neg_big" .f32 0xFF333332#32 ⊥ rfl⟩

end Cert.Attn

end
-- ==== Proof.lean ====
/-
  Causal attention with the softmax down the QUERY axis, against its plain reference.

  Both programs project the input rows to queries, keys and values, take the scores q·kᵀ of a batch
  row, mask the entries whose key index exceeds the query index to −∞, scale, normalise every key
  column over the queries (exp (s − max) / Σ exp (s − max)), weight the value rows, and return the
  input rows followed by the attention rows. The tiled program caches the queries of a batch row,
  walks its 2048 keys in eight tiles of 256, and accumulates each tile's contribution; the plain one
  works on whole arrays. On the extended reals the two agree entry by entry: the tile's columns are
  normalised over ALL queries, so a tile's contribution is the plain sum restricted to its keys and
  the eight contributions add up to the sum over all keys; multiplying by the named reciprocal of the
  reference's scale literal is dividing by it; and on finite inputs every weight and every column sum
  is a real, the column sum positive, so dividing the value row or the weight by it is the same.
  Finiteness of the inputs is used for exactly that last step and for the scale law.

  Modules: Spec (the two formulas over coordinates), Algebra (they agree on finite inputs), Finite (the
  precondition gives finiteness), KI/* and KB/* (the kernel's frame at both instances: three body runs,
  the grid walk, the run), KI/Value … KI/Run (what the walk leaves, in the specification's words),
  RefRun and RefValue* (the reference's run and its stages read at an index), Bridge, Preserves.
-/
import proofs.«181125_j22428319220703_1_alg».proof.Defs
import proofs.«181125_j22428319220703_1_alg».proof.Proof.Gen.Kernel
import proofs.«181125_j22428319220703_1_alg».proof.Proof.Gen.KernelIdeal
import proofs.«181125_j22428319220703_1_alg».proof.Proof.Gen.ReferenceIdeal
import proofs.«181125_j22428319220703_1_alg».proof.Proof.Gen.Pre_finite_inputs
import proofs.«181125_j22428319220703_1_alg».proof.Proof.KB.Body
import proofs.«181125_j22428319220703_1_alg».proof.Proof.KI.Run
import proofs.«181125_j22428319220703_1_alg».proof.Proof.RefRun
import proofs.«181125_j22428319220703_1_alg».proof.Proof.Bridge
import proofs.«181125_j22428319220703_1_alg».proof.Proof.Preserves
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p : @Cert.frame_Kernel Cert.Kernel.Gen.facts Cert.Pre_finite_inputs.Gen.facts :=
  fun m ρ _ => Cert.Kernel.Body.frame (F := Bits) m ρ

/-- So does its idealization. -/
theorem frame_pi : @Cert.frame_KernelIdeal Cert.KernelIdeal.Gen.facts Cert.Pre_finite_inputs.Gen.facts :=
  fun m ρ _ => Cert.KernelIdeal.Body.frame (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- From memories that agree on the arguments both idealized programs end at the same result: the
    specification's tiled formula, which on finite inputs is the plain one. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Body.kOut m c, Cert.KernelIdeal.Body.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  exact Cert.Attn.bridge _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_p, frame_pi, frame_ri, Cert.Attn.preserves, algebraic⟩

end Cert.Proof

end
